-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x16384 : Shape := ⟨2, ![16384, 16384]⟩
abbrev S512x128 : Shape := ⟨2, ![512, 128]⟩
abbrev S256x128 : Shape := ⟨2, ![256, 128]⟩
abbrev S128x1 : Shape := ⟨2, ![128, 1]⟩
abbrev S524288x2 : Shape := ⟨2, ![524288, 2]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S512x128 : S_.BroadcastsInDim S512x128 (![] : Fin 0 → Fin S512x128.rank)
  reducesTo_S512x128_S_d0_1 : S512x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_

variable [Facts]

def fn_part1 {F : FTy → Type} [FloatOps F] (main_arg4 : FVec F S128x1 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x1 .f32 := Host.absf main_arg4
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  main_v23

def fn {F : FTy → Type} [FloatOps F] (main_arg0 : FVec F S16384x512 .f32) (main_arg1 : FVec F S16384x16384 .f32) (main_arg2 : FVec F S512x128 .f32) (main_arg3 : FVec F S256x128 .f32) (main_arg4 : FVec F S128x1 .f32) (main_arg5 : IVec S524288x2 32) (main_arg6 : IVec S524288x2 32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_v13 main_v16
-- ==== Kernel.lean ====
abbrev S16384x512 : Shape := ⟨2, ![16384, 512]⟩
abbrev S16384x16384 : Shape := ⟨2, ![16384, 16384]⟩
abbrev S512x128 : Shape := ⟨2, ![512, 128]⟩
abbrev S256x128 : Shape := ⟨2, ![256, 128]⟩
abbrev S128x1 : Shape := ⟨2, ![128, 1]⟩
abbrev S524288x2 : Shape := ⟨2, ![524288, 2]⟩
abbrev S128x128 : Shape := ⟨2, ![128, 128]⟩
abbrev S128x2 : Shape := ⟨2, ![128, 2]⟩
abbrev S16384x128 : Shape := ⟨2, ![16384, 128]⟩
abbrev S2048x512 : Shape := ⟨2, ![2048, 512]⟩
abbrev S2048x128 : Shape := ⟨2, ![2048, 128]⟩
abbrev S16384x2 : Shape := ⟨2, ![16384, 2]⟩
abbrev S2048x1024 : Shape := ⟨2, ![2048, 1024]⟩
abbrev S2048x2 : Shape := ⟨2, ![2048, 2]⟩
abbrev S1024x128 : Shape := ⟨2, ![1024, 128]⟩
abbrev S1048576x2 : Shape := ⟨2, ![1048576, 2]⟩
abbrev S1048576x1 : Shape := ⟨2, ![1048576, 1]⟩
abbrev S1048576 : Shape := ⟨1, ![1048576]⟩
abbrev S16384x1 : Shape := ⟨2, ![16384, 1]⟩
abbrev S16384 : Shape := ⟨1, ![16384]⟩
abbrev S_ : Shape := ⟨0, ![]⟩

abbrev nBuf : Space → Nat
  | .hbm => 51
  | .vmem => 12
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S512x128, .f32⟩
  | .hbm, ⟨3, _⟩ => ⟨S256x128, .f32⟩
  | .hbm, ⟨4, _⟩ => ⟨S128x1, .f32⟩
  | .hbm, ⟨5, _⟩ => ⟨S524288x2, .i32⟩
  | .hbm, ⟨6, _⟩ => ⟨S524288x2, .i32⟩
  | .hbm, ⟨7, _⟩ => ⟨S128x128, .f32⟩
  | .hbm, ⟨8, _⟩ => ⟨S128x1, .f32⟩
  | .hbm, ⟨9, _⟩ => ⟨S128x128, .f32⟩
  | .hbm, ⟨10, _⟩ => ⟨S128x1, .f32⟩
  | .hbm, ⟨11, _⟩ => ⟨S128x2, .f32⟩
  | .hbm, ⟨12, _⟩ => ⟨S16384x128, .f32⟩
  | .hbm, ⟨13, _⟩ => ⟨S16384x2, .f32⟩
  | .hbm, ⟨14, _⟩ => ⟨S1048576x2, .i32⟩
  | .hbm, ⟨15, _⟩ => ⟨S1048576x1, .i32⟩
  | .hbm, ⟨16, _⟩ => ⟨S1048576, .i32⟩
  | .hbm, ⟨17, _⟩ => ⟨S1048576x1, .i32⟩
  | .hbm, ⟨18, _⟩ => ⟨S1048576, .i32⟩
  | .hbm, ⟨19, _⟩ => ⟨S16384x1, .f32⟩
  | .hbm, ⟨20, _⟩ => ⟨S16384, .f32⟩
  | .hbm, ⟨21, _⟩ => ⟨S16384x1, .f32⟩
  | .hbm, ⟨22, _⟩ => ⟨S16384, .f32⟩
  | .hbm, ⟨23, _⟩ => ⟨S_, .i32⟩
  | .hbm, ⟨24, _⟩ => ⟨S1048576, .i32⟩
  | .hbm, ⟨25, _⟩ => ⟨S1048576, .i1⟩
  | .hbm, ⟨26, _⟩ => ⟨S_, .i32⟩
  | .hbm, ⟨27, _⟩ => ⟨S1048576, .i32⟩
  | .hbm, ⟨28, _⟩ => ⟨S1048576, .i32⟩
  | .hbm, ⟨29, _⟩ => ⟨S1048576, .i32⟩
  | .hbm, ⟨30, _⟩ => ⟨S1048576x1, .i32⟩
  | .hbm, ⟨31, _⟩ => ⟨S1048576, .f32⟩
  | .hbm, ⟨32, _⟩ => ⟨S_, .i32⟩
  | .hbm, ⟨33, _⟩ => ⟨S1048576, .i32⟩
  | .hbm, ⟨34, _⟩ => ⟨S1048576, .i1⟩
  | .hbm, ⟨35, _⟩ => ⟨S_, .i32⟩
  | .hbm, ⟨36, _⟩ => ⟨S1048576, .i32⟩
  | .hbm, ⟨37, _⟩ => ⟨S1048576, .i32⟩
  | .hbm, ⟨38, _⟩ => ⟨S1048576, .i32⟩
  | .hbm, ⟨39, _⟩ => ⟨S1048576x1, .i32⟩
  | .hbm, ⟨40, _⟩ => ⟨S1048576, .f32⟩
  | .hbm, ⟨41, _⟩ => ⟨S1048576, .f32⟩
  | .hbm, ⟨42, _⟩ => ⟨S1048576, .f32⟩
  | .hbm, ⟨43, _⟩ => ⟨S1048576, .f32⟩
  | .hbm, ⟨44, _⟩ => ⟨S_, .f32⟩
  | .hbm, ⟨45, _⟩ => ⟨S1048576, .f32⟩
  | .hbm, ⟨46, _⟩ => ⟨S1048576, .f32⟩
  | .hbm, ⟨47, _⟩ => ⟨S_, .f32⟩
  | .hbm, ⟨48, _⟩ => ⟨S1048576, .f32⟩
  | .hbm, ⟨49, _⟩ => ⟨S1048576, .f32⟩
  | .hbm, ⟨50, _⟩ => ⟨S1048576x1, .f32⟩
  | .local _ .vmem, ⟨0, _⟩ => ⟨S2048x512, .f32⟩
  | .local _ .vmem, ⟨1, _⟩ => ⟨S2048x512, .f32⟩
  | .local _ .vmem, ⟨2, _⟩ => ⟨S512x128, .f32⟩
  | .local _ .vmem, ⟨3, _⟩ => ⟨S2048x128, .f32⟩
  | .local _ .vmem, ⟨4, _⟩ => ⟨S2048x128, .f32⟩
  | .local _ .vmem, ⟨5, _⟩ => ⟨S2048x1024, .f32⟩
  | .local _ .vmem, ⟨6, _⟩ => ⟨S2048x1024, .f32⟩
  | .local _ .vmem, ⟨7, _⟩ => ⟨S16384x128, .f32⟩
  | .local _ .vmem, ⟨8, _⟩ => ⟨S128x2, .f32⟩
  | .local _ .vmem, ⟨9, _⟩ => ⟨S2048x2, .f32⟩
  | .local _ .vmem, ⟨10, _⟩ => ⟨S2048x2, .f32⟩
  | .local _ .vmem, ⟨11, _⟩ => ⟨S2048x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_v17 : Ref sig .tc := ⟨.hbm, 25, rfl⟩
abbrev main_c_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_1 : Ref sig .tc := ⟨.hbm, 32, rfl⟩
abbrev main_v23 : Ref sig .tc := ⟨.hbm, 33, rfl⟩
abbrev main_v24 : Ref sig .tc := ⟨.hbm, 34, rfl⟩
abbrev main_c_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 16], ![false, false]⟩

def k1_mult1 (i : grid1.Coords) : BitVec 32 :=
  let arg1 : BitVec 32 := BitVec.ofNat 32 (i 1).val
  let c1024_i32 : BitVec 32 := 1024#32
  let v5 : BitVec 32 := Scalar.muli arg1 c1024_i32
  v5
def k1_off1 (i : grid1.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c15_i32 : BitVec 32 := 15#32
  let v17 : BitVec 1 := Scalar.cmpi .eq arg1 c15_i32
  let v18 : BitVec 32 := Scalar.extui v17
  let c0_i32_7 : BitVec 32 := 0#32
  let v19 : BitVec 1 := Scalar.cmpi .ne v18 c0_i32_7
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16384x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S128x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2048x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  slices_S256x128_S128x128_0_0 : S256x128.Slices ![0, 0] S128x128
  slices_S256x128_S128x128_128_0 : S256x128.Slices ![128, 0] S128x128
  concatenates_S128x1_S128x1_S128x2_d1 : Shape.Concatenates [S128x1, S128x1] S128x2 1
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1024_S2048x1024_0_0 : ∀ a, (![0, 0] : Fin 2 → Nat) a + S2048x1024.size a ≤ S2048x1024.size a
  h_S2048x1024 : 0 < S2048x1024.numel
  h_S1024x128 : 0 < S1024x128.numel
  shapeCasts_S1024x128_S1024x128 : S1024x128.ShapeCasts S1024x128
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S2048x2_S2048x2_0_0 : ∀ a, (![0, 0] : Fin 2 → Nat) a + S2048x2.size a ≤ S2048x2.size a
  h_S2048x2 : 0 < S2048x2.numel
  concatenates_S524288x2_S524288x2_S1048576x2_d0 : Shape.Concatenates [S524288x2, S524288x2] S1048576x2 0
  slices_S1048576x2_S1048576x1_0_0 : S1048576x2.Slices ![0, 0] S1048576x1
  shapeCasts_S1048576x1_S1048576 : S1048576x1.ShapeCasts S1048576
  slices_S1048576x2_S1048576x1_0_1 : S1048576x2.Slices ![0, 1] S1048576x1
  slices_S16384x2_S16384x1_0_0 : S16384x2.Slices ![0, 0] S16384x1
  shapeCasts_S16384x1_S16384 : S16384x1.ShapeCasts S16384
  slices_S16384x2_S16384x1_0_1 : S16384x2.Slices ![0, 1] S16384x1
  bcast_S_S1048576 : S_.BroadcastsInDim S1048576 (![] : Fin 0 → Fin S1048576.rank)
  bcast_S1048576_S1048576x1_0 : S1048576.BroadcastsInDim S1048576x1 (![0] : Fin 1 → Fin S1048576x1.rank)
  dot_S128x128_S128x1_S128x1_1_0_0_1_n_n_wf : DotDims.WF S128x128 S128x1 S128x1 [1] [0] [0] [1] [] []
  dot_S2048x512_S512x128_S2048x128_1_0_0_1_n_n_wf : DotDims.WF S2048x512 S512x128 S2048x128 [1] [0] [0] [1] [] []
  dot_S2048x1024_S1024x128_S2048x128_1_0_0_1_n_n_wf : DotDims.WF S2048x1024 S1024x128 S2048x128 [1] [0] [0] [1] [] []
  dot_S2048x128_S128x2_S2048x2_1_0_0_1_n_n_wf : DotDims.WF S2048x128 S128x2 S2048x2 [1] [0] [0] [1] [] []
  gather_S16384_S1048576x1_S1048576_n_0_n_n_0_1_1_wf : GatherDims.WF S16384 S1048576x1 S1048576 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S16384x128.size a
  hwx0_2 : ∀ i : grid0.Coords, EltTy.bits .f32 = 32 ∨ (Rect.block (s := S16384x128) S2048x128.size (cc0_transform_2 i) (hinb0_2 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x128.size a ≤ S16384x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S16384x16384.size a
  hwx1_0 : ∀ i : grid1.Coords, EltTy.bits .f32 = 32 ∨ (Rect.block (s := S16384x16384) S2048x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x128.size a ≤ S16384x128.size a
  hwx1_1 : ∀ i : grid1.Coords, EltTy.bits .f32 = 32 ∨ (Rect.block (s := S16384x128) S16384x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x2.size a ≤ S128x2.size a
  hwx1_2 : ∀ i : grid1.Coords, EltTy.bits .f32 = 32 ∨ (Rect.block (s := S128x2) S128x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x2.size a ≤ S16384x2.size a
  hwx1_3 : ∀ i : grid1.Coords, EltTy.bits .f32 = 32 ∨ (Rect.block (s := S16384x2) S2048x2.size (cc1_transform_3 i) (hinb1_3 i)).WholeWords (EltTy.packing .f32)

variable [Facts₀]

def dot_S128x128_S128x1_S128x1_1_0_0_1_n_n : DotDims S128x128 S128x1 S128x1 where
  lhsContracting := [1]
  rhsContracting := [0]
  lhsNonContracting := [0]
  rhsNonContracting := [1]
  lhsBatch := []
  rhsBatch := []
  wf := dot_S128x128_S128x1_S128x1_1_0_0_1_n_n_wf
def dot_S2048x512_S512x128_S2048x128_1_0_0_1_n_n : DotDims S2048x512 S512x128 S2048x128 where
  lhsContracting := [1]
  rhsContracting := [0]
  lhsNonContracting := [0]
  rhsNonContracting := [1]
  lhsBatch := []
  rhsBatch := []
  wf := dot_S2048x512_S512x128_S2048x128_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S2048x128_S128x2_S2048x2_1_0_0_1_n_n : DotDims S2048x128 S128x2 S2048x2 where
  lhsContracting := [1]
  rhsContracting := [0]
  lhsNonContracting := [0]
  rhsNonContracting := [1]
  lhsBatch := []
  rhsBatch := []
  wf := dot_S2048x128_S128x2_S2048x2_1_0_0_1_n_n_wf
def gather_S16384_S1048576x1_S1048576_n_0_n_n_0_1_1 : GatherDims S16384 S1048576x1 S1048576 where
  offsetDims := []
  collapsedSliceDims := [0]
  operandBatchingDims := []
  startIndicesBatchingDims := []
  startIndexMap := [0]
  indexVectorDim := 1
  sliceSizes := ![1]
  wf := gather_S16384_S1048576x1_S1048576_n_0_n_n_0_1_1_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S16384x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S128x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S2048x2.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S16384x512 : Shape := ⟨2, ![16384, 512]⟩
abbrev S16384x16384 : Shape := ⟨2, ![16384, 16384]⟩
abbrev S512x128 : Shape := ⟨2, ![512, 128]⟩
abbrev S256x128 : Shape := ⟨2, ![256, 128]⟩
abbrev S128x1 : Shape := ⟨2, ![128, 1]⟩
abbrev S524288x2 : Shape := ⟨2, ![524288, 2]⟩
abbrev S16384x128 : Shape := ⟨2, ![16384, 128]⟩
abbrev S1048576x2 : Shape := ⟨2, ![1048576, 2]⟩
abbrev S1048576x1 : Shape := ⟨2, ![1048576, 1]⟩
abbrev S1048576 : Shape := ⟨1, ![1048576]⟩
abbrev S_ : Shape := ⟨0, ![]⟩
abbrev S1048576x128 : Shape := ⟨2, ![1048576, 128]⟩
abbrev S1048576x256 : Shape := ⟨2, ![1048576, 256]⟩

abbrev nBuf : Space → Nat
  | .hbm => 46
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x16384, .f32⟩
  | .hbm, ⟨2, _⟩ => ⟨S512x128, .f32⟩
  | .hbm, ⟨3, _⟩ => ⟨S256x128, .f32⟩
  | .hbm, ⟨4, _⟩ => ⟨S128x1, .f32⟩
  | .hbm, ⟨5, _⟩ => ⟨S524288x2, .i32⟩
  | .hbm, ⟨6, _⟩ => ⟨S524288x2, .i32⟩
  | .hbm, ⟨7, _⟩ => ⟨S16384x128, .f32⟩
  | .hbm, ⟨8, _⟩ => ⟨S16384x128, .f32⟩
  | .hbm, ⟨9, _⟩ => ⟨S1048576x2, .i32⟩
  | .hbm, ⟨10, _⟩ => ⟨S1048576x1, .i32⟩
  | .hbm, ⟨11, _⟩ => ⟨S1048576, .i32⟩
  | .hbm, ⟨12, _⟩ => ⟨S_, .i32⟩
  | .hbm, ⟨13, _⟩ => ⟨S1048576, .i32⟩
  | .hbm, ⟨14, _⟩ => ⟨S1048576, .i1⟩
  | .hbm, ⟨15, _⟩ => ⟨S_, .i32⟩
  | .hbm, ⟨16, _⟩ => ⟨S1048576, .i32⟩
  | .hbm, ⟨17, _⟩ => ⟨S1048576, .i32⟩
  | .hbm, ⟨18, _⟩ => ⟨S1048576, .i32⟩
  | .hbm, ⟨19, _⟩ => ⟨S1048576x1, .i32⟩
  | .hbm, ⟨20, _⟩ => ⟨S1048576x128, .f32⟩
  | .hbm, ⟨21, _⟩ => ⟨S1048576x1, .i32⟩
  | .hbm, ⟨22, _⟩ => ⟨S1048576, .i32⟩
  | .hbm, ⟨23, _⟩ => ⟨S_, .i32⟩
  | .hbm, ⟨24, _⟩ => ⟨S1048576, .i32⟩
  | .hbm, ⟨25, _⟩ => ⟨S1048576, .i1⟩
  | .hbm, ⟨26, _⟩ => ⟨S_, .i32⟩
  | .hbm, ⟨27, _⟩ => ⟨S1048576, .i32⟩
  | .hbm, ⟨28, _⟩ => ⟨S1048576, .i32⟩
  | .hbm, ⟨29, _⟩ => ⟨S1048576, .i32⟩
  | .hbm, ⟨30, _⟩ => ⟨S1048576x1, .i32⟩
  | .hbm, ⟨31, _⟩ => ⟨S1048576x128, .f32⟩
  | .hbm, ⟨32, _⟩ => ⟨S1048576x256, .f32⟩
  | .hbm, ⟨33, _⟩ => ⟨S_, .f32⟩
  | .hbm, ⟨34, _⟩ => ⟨S1048576x256, .f32⟩
  | .hbm, ⟨35, _⟩ => ⟨S1048576x256, .f32⟩
  | .hbm, ⟨36, _⟩ => ⟨S1048576x128, .f32⟩
  | .hbm, ⟨37, _⟩ => ⟨S1048576x1, .f32⟩
  | .hbm, ⟨38, _⟩ => ⟨S1048576x1, .f32⟩
  | .hbm, ⟨39, _⟩ => ⟨S1048576x1, .f32⟩
  | .hbm, ⟨40, _⟩ => ⟨S_, .f32⟩
  | .hbm, ⟨41, _⟩ => ⟨S1048576x1, .f32⟩
  | .hbm, ⟨42, _⟩ => ⟨S1048576x1, .f32⟩
  | .hbm, ⟨43, _⟩ => ⟨S_, .f32⟩
  | .hbm, ⟨44, _⟩ => ⟨S1048576x1, .f32⟩
  | .hbm, ⟨45, _⟩ => ⟨S1048576x1, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]

class Facts₀ : Prop where
  concatenates_S524288x2_S524288x2_S1048576x2_d0 : Shape.Concatenates [S524288x2, S524288x2] S1048576x2 0
  slices_S1048576x2_S1048576x1_0_0 : S1048576x2.Slices ![0, 0] S1048576x1
  shapeCasts_S1048576x1_S1048576 : S1048576x1.ShapeCasts S1048576
  bcast_S_S1048576 : S_.BroadcastsInDim S1048576 (![] : Fin 0 → Fin S1048576.rank)
  bcast_S1048576_S1048576x1_0 : S1048576.BroadcastsInDim S1048576x1 (![0] : Fin 1 → Fin S1048576x1.rank)
  slices_S1048576x2_S1048576x1_0_1 : S1048576x2.Slices ![0, 1] S1048576x1
  concatenates_S1048576x128_S1048576x128_S1048576x256_d1 : Shape.Concatenates [S1048576x128, S1048576x128] S1048576x256 1
  bcast_S_S1048576x256 : S_.BroadcastsInDim S1048576x256 (![] : Fin 0 → Fin S1048576x256.rank)
  bcast_S_S1048576x1 : S_.BroadcastsInDim S1048576x1 (![] : Fin 0 → Fin S1048576x1.rank)
  dot_S16384x512_S512x128_S16384x128_1_0_0_1_n_n_wf : DotDims.WF S16384x512 S512x128 S16384x128 [1] [0] [0] [1] [] []
  dot_S16384x16384_S16384x128_S16384x128_1_0_0_1_n_n_wf : DotDims.WF S16384x16384 S16384x128 S16384x128 [1] [0] [0] [1] [] []
  gather_S16384x128_S1048576x1_S1048576x128_1_0_n_n_0_1_1128_wf : GatherDims.WF S16384x128 S1048576x1 S1048576x128 [1] [0] [] [0] [] 1 ![1, 128]
  dot_S1048576x256_S256x128_S1048576x128_1_0_0_1_n_n_wf : DotDims.WF S1048576x256 S256x128 S1048576x128 [1] [0] [0] [1] [] []
  dot_S1048576x128_S128x1_S1048576x1_1_0_0_1_n_n_wf : DotDims.WF S1048576x128 S128x1 S1048576x1 [1] [0] [0] [1] [] []

variable [Facts₀]

def dot_S16384x512_S512x128_S16384x128_1_0_0_1_n_n : DotDims S16384x512 S512x128 S16384x128 where
  lhsContracting := [1]
  rhsContracting := [0]
  lhsNonContracting := [0]
  rhsNonContracting := [1]
  lhsBatch := []
  rhsBatch := []
  wf := dot_S16384x512_S512x128_S16384x128_1_0_0_1_n_n_wf
def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf
def gather_S16384x128_S1048576x1_S1048576x128_1_0_n_n_0_1_1128 : GatherDims S16384x128 S1048576x1 S1048576x128 where
  offsetDims := [1]
  collapsedSliceDims := [0]
  operandBatchingDims := []
  startIndicesBatchingDims := []
  startIndexMap := [0]
  indexVectorDim := 1
  sliceSizes := ![1, 128]
  wf := gather_S16384x128_S1048576x1_S1048576x128_1_0_n_n_0_1_1128_wf
def dot_S1048576x256_S256x128_S1048576x128_1_0_0_1_n_n : DotDims S1048576x256 S256x128 S1048576x128 where
  lhsContracting := [1]
  rhsContracting := [0]
  lhsNonContracting := [0]
  rhsNonContracting := [1]
  lhsBatch := []
  rhsBatch := []
  wf := dot_S1048576x256_S256x128_S1048576x128_1_0_0_1_n_n_wf
def dot_S1048576x128_S128x1_S1048576x1_1_0_0_1_n_n : DotDims S1048576x128 S128x1 S1048576x1 where
  lhsContracting := [1]
  rhsContracting := [0]
  lhsNonContracting := [0]
  rhsNonContracting := [1]
  lhsBatch := []
  rhsBatch := []
  wf := dot_S1048576x128_S128x1_S1048576x1_1_0_0_1_n_n_wf

class Facts : Prop extends Facts₀ where

variable [Facts]
-- ==== Proof.BitsFeatRegion.lean ====
/-
  The first pallas_call: the feature product X · W, one block of 2048 rows of X per grid point.

  At grid point t the kernel is handed rows 2048·t … 2048·t + 2047 of X (a 2048 × 512 block) and the
  whole of W (512 × 128), multiplies them into a zero accumulator, and stores the 2048 × 128 product
  over its whole output block, which the pipeline writes back at every point. The kernel keeps
  nothing between points. Stated here, at any float instance: what the output block holds after
  the body as a function of the two input blocks, the body's Hoare triple, the pipeline's proof
  data at the contents `V` the region is entered with, and the body obligation at every point.
-/
import proofs.«134503_j40699110097055_2_alg».proof.Proof.Gen.Kernel.Launch
import proofs.«134503_j40699110097055_2_alg».proof.Proof.Gen.Kernel.Skeleton
import proofs.«134503_j40699110097055_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.FeatRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- The block of window `w` at grid point `t`, read off the window's array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The whole-block rectangles the body loads and stores through. -/
abbrev rX : Rect S2048x512 := Rect.unit (s := S2048x512) ![0, 0] S2048x512.size inb_S2048x512_S2048x512_0_0
abbrev rW : Rect S512x128 := Rect.unit (s := S512x128) ![0, 0] S512x128.size inb_S512x128_S512x128_0_0
abbrev rO : Rect S2048x128 := Rect.unit (s := S2048x128) ![0, 0] S2048x128.size inb_S2048x128_S2048x128_0_0

/-- What the body leaves in the output block, from the X block `x` and the matrix `w`: its one store,
    the product of the two loaded blocks, laid over the whole block. -/
def product (x : Vec F S2048x512 .f32) (w : Vec F S512x128 .f32) : Vec F S2048x128 .f32 :=
  View.canon [⟨rO, k0_pay1 (View.ld x rX) (View.ld w rW)⟩]

/-- The one store covers the block. -/
theorem product_cover (p : Vec F S2048x128 .f32) (y : S2048x128.Idx) :
    ∃ pc ∈ ([⟨rO, p⟩] : List (View.Piece (Elt F) S2048x128 .f32)), y ∈ pc.1.set :=
  View.cover_of_tiled [⟨rO, p⟩] S2048x128.size (by rfl) y

set_option maxHeartbeats 1000000 in
/-- The body on whole staging buffers: with the X block at `x`, the matrix at `w` and the output buffer at
    anything, it runs to the continuation with the inputs unchanged and the output at `product x w`. -/
theorem body_triple (c : Dev nD) (E : Set ℕ) (i : grid0.Coords)
    (arg1 : Memref sig .tc .vmem S2048x512 .f32) (harg1 : arg1.IsWhole) (arg2 : Memref sig .tc .vmem S512x128 .f32) (harg2 : arg2.IsWhole)
    (arg3 : Memref sig .tc .vmem S2048x128 .f32) (harg3 : arg3.IsWhole)
    (x : Vec F S2048x512 .f32) (w : Vec F S512x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (product x w)) -∗ K ⟨⟩))
      ⊢ wp frame (wpE (defs₀ (F := F)) Variants.none c none) E (cc0__xw_kernel i arg1 harg1 arg2 harg2 arg3 harg3) K := by
  simp only [cc0__xw_kernel_eq_skeleton]; unfold cc0__xw_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (product_cover _)

/-- The pipeline's proof data on core `c`: the arrays as the region finds them; after the body at point `t`
    each input's buffer still at its block and the output's at the product of the two input blocks; between
    points only the scoped buffers no window stages and the generator register, unread; nothing owed. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => product (blockAt V c 0 t) (blockAt V c 1 t)
  Φ _ := Pipeline.ΦA spec0 c
  q _ := fullShare
  owed _ := 0

theorem dat_A (c : Dev nD) (w : Fin cfg0.W) : (dat V c).A w = V c (Pipeline.arrRef spec0 w) := by
  dsimp only [dat]
theorem after_0 (c : Dev nD) (t : Fin cfg0.N) : (dat V c).after 0 t = blockAt V c 0 t := by dsimp only [dat]
theorem after_1 (c : Dev nD) (t : Fin cfg0.N) : (dat V c).after 1 t = blockAt V c 1 t := by dsimp only [dat]
theorem after_2 (c : Dev nD) (t : Fin cfg0.N) :
    (dat V c).after 2 t = product (blockAt V c 0 t) (blockAt V c 1 t) := by dsimp only [dat]

/-- An input's staging buffer holds its block at every point, fetched there or not: where the pipeline does
    not fetch, the block index has not moved and the body left the block in place. -/
theorem before_0 (c : Dev nD) (t : Fin cfg0.N) (d) : (dat V c).before 0 t d = blockAt V c 0 t :=
  ((dat V c).before_in_eq_fetched 0 rfl (fun _ => rfl) (fun _ _ _ => rfl)
      (fun t => by rw [after_0]; unfold Dat.blockOf blockAt; rw [dat_A]; try rfl) t d).trans
    (by unfold Dat.fetched Dat.blockOf blockAt; rw [dat_A]; try rfl)
theorem before_1 (c : Dev nD) (t : Fin cfg0.N) (d) : (dat V c).before 1 t d = blockAt V c 1 t :=
  ((dat V c).before_in_eq_fetched 1 rfl (fun _ => rfl) (fun _ _ _ => rfl)
      (fun t => by rw [after_1]; unfold Dat.blockOf blockAt; rw [dat_A]; try rfl) t d).trans
    (by unfold Dat.fetched Dat.blockOf blockAt; rw [dat_A]; try rfl)

/-- What the body is called with at point `t`, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' buffers hold their blocks, so the triple applies; the invariant and
    what the core owes pass through untouched. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (body_triple c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for this pipeline, at every point. -/
theorem body_obligation (c : Dev nD) : BodyObligation (dat (F := F) V c) (defs₀ (F := F)) Variants.none () Set.univ := fun t => by
  rw [bigSep_W0, bigSep_W0]
  exact body_at V c t

end Cert.Kernel.FeatRegion

end
-- ==== Proof.BitsAggRegion.lean ====
/-
  The second pallas_call: the aggregation adj · XW, rectified and scored, on an 8 × 16 grid.

  Grid point (i, k) is handed the 2048 × 1024 block (i, k) of adj, the whole of XW (16384 × 128)
  and the whole 128 × 2 matrix of decoder columns. A 2048 × 128 accumulator lives in a scratch
  buffer of the kernel's own and is CARRIED from point to point: at k = 0 it is zeroed; at every k
  the product of the adj block with rows 1024·k … 1024·k + 1023 of XW is added to it; at k = 15 the
  accumulator, rectified, is multiplied with the decoder columns and stored over the 2048 × 2 output
  block, which the pipeline writes back at those points only (elsewhere the output buffer is handed
  back untouched).

  Stated here, at any float instance: the body's Hoare triple in each of the three situations a
  point can be in (k = 0; 0 < k < 15; k = 15), the accumulator after each point by recursion on the
  point, the invariant that carries it between points, the pipeline's proof data at the contents
  `V` the region is entered with, and the body obligation at every point.
-/
import proofs.«134503_j40699110097055_2_alg».proof.Proof.Gen.Kernel.Launch
import proofs.«134503_j40699110097055_2_alg».proof.Proof.Gen.Kernel.Skeleton
import proofs.«134503_j40699110097055_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.AggRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Zero offsets, however spelt. -/
theorem hz : (![0, 0] : Fin 2 → ℕ) = fun _ => 0 := by
  funext a; match a with | ⟨0, _⟩ => rfl | ⟨1, _⟩ => rfl

/-- The grid point opens a row block's reduction: its second coordinate is 0 (the kernel's own test, as printed). -/
abbrev isFirst (i : grid1.Coords) : Prop :=
  (Scalar.cmpi .ne (Scalar.extui (Scalar.cmpi .eq (BitVec.ofNat 32 (i 1).val) 0#32)) 0#32) = 1#1
/-- The grid point closes a row block's reduction: its second coordinate is 15 (the kernel's own test). -/
abbrev isLast (i : grid1.Coords) : Prop := k1_cond2 i = 1#1

/-- The whole-block rectangles of the body's loads and stores, and the 1024-row slice of XW at the point. -/
abbrev rA : Rect S2048x1024 := Rect.unit (s := S2048x1024) ![0, 0] S2048x1024.size inb_S2048x1024_S2048x1024_0_0
abbrev rS (i : grid1.Coords) : Rect S16384x128 := Rect.unit (s := S16384x128) (k1_off1 i) S1024x128.size (k1_off1_inb i)
abbrev rAcc : Rect S2048x128 := Rect.unit (s := S2048x128) ![0, 0] S2048x128.size inb_S2048x128_S2048x128_0_0
abbrev rD : Rect S128x2 := Rect.unit (s := S128x2) ![0, 0] S128x2.size inb_S128x2_S128x2_0_0
abbrev rP : Rect S2048x2 := Rect.unit (s := S2048x2) ![0, 0] S2048x2.size inb_S2048x2_S2048x2_0_0

/-- One step of the running sum: the accumulator `prev` plus the product of the adjacency block `a` with
    the 1024 rows of XW the point selects. -/
def accStep (a : Vec F S2048x1024 .f32) (xw : Vec F S16384x128 .f32) (i : grid1.Coords) (prev : Vec F S2048x128 .f32) :
    Vec F S2048x128 .f32 :=
  k1_pay2 (View.ld a rA) (View.ld xw (rS i)) prev

/-- The row block's two scores: the rectified accumulator against the two decoder columns. -/
def scoreOut (acc : Vec F S2048x128 .f32) (dc : Vec F S128x2 .f32) : Vec F S2048x2 .f32 :=
  k1_pay3 acc (View.ld dc rD)

/-- A whole-block store made LAST decides what the buffer reads back, whatever was stored before. -/
theorem read_last_whole {sg : RefSig} {κ : Kind} {sp : Space} {S : Shape} {e : EltTy} (v : View sg κ sp S e)
    (f : v.ty.Contents (Elt F)) {off : Fin S.rank → ℕ} (h0 : off = fun _ => 0) (inb : ∀ a, off a + S.size a ≤ S.size a)
    (w : S.Idx → Elt F e) (L : List (View.Piece (Elt F) S e))
    (hcov : ∀ y : S.Idx, ∃ pc ∈ ([⟨Rect.unit off S.size inb, w⟩] : List (View.Piece (Elt F) S e)), y ∈ pc.1.set) :
    v.read (Elt F) (v.writes (Elt F) f (⟨Rect.unit off S.size inb, w⟩ :: L)) = w :=
  (View.read_writes_of_cover_last v f v f ⟨Rect.unit off S.size inb, w⟩ L [] (fun y => by
      obtain ⟨pc, hpc, hy⟩ := hcov y
      rw [List.mem_singleton] at hpc; subst hpc; exact hy)).trans
    ((View.read_writes_eq_canon v f _ hcov).trans (View.canon_unit_zero h0 inb w))

/-! ## The schedule, decided over the 128 grid points -/

/-- A point opens a reduction exactly when its number is a multiple of 16, -/
theorem first_iff : ∀ t : Fin cfg1.N, isFirst (grid1.coords t) ↔ t.val % 16 = 0 :=
  (by decide +kernel : ∀ t : Fin grid1.N, isFirst (grid1.coords t) ↔ t.val % 16 = 0)
/-- and closes one exactly when it is 15 modulo 16. -/
theorem last_iff : ∀ t : Fin cfg1.N, isLast (grid1.coords t) ↔ t.val % 16 = 15 :=
  (by decide +kernel : ∀ t : Fin grid1.N, isLast (grid1.coords t) ↔ t.val % 16 = 15)
/-- The output window is idle, and not written back, at every point that does not close a reduction; -/
theorem out_idle : ∀ t : Fin cfg1.N, ¬ isLast (grid1.coords t) → cfg1.idle 3 (grid1.coords t) = true := by decide +kernel
theorem out_kept : ∀ t : Fin cfg1.N, ¬ isLast (grid1.coords t) → (cfg1.win 3).flush t = false := by decide +kernel
/-- it is live at the points that do. -/
theorem out_live : ∀ t : Fin cfg1.N, isLast (grid1.coords t) → cfg1.idle 3 (grid1.coords t) = false := by decide +kernel

/-! ## The body in its three situations -/

set_option maxHeartbeats 2000000 in
/-- k = 0: whatever the accumulator held, it ends at one step from zero. -/
theorem run_first (c : Dev nD) (E : Set ℕ) (i : grid1.Coords) (hf : isFirst i) (hl : ¬ isLast i)
    (arg2 : Memref sig .tc .vmem S2048x1024 .f32) (harg2 : arg2.IsWhole) (arg3 : Memref sig .tc .vmem S16384x128 .f32) (harg3 : arg3.IsWhole)
    (arg4 : Memref sig .tc .vmem S128x2 .f32) (harg4 : arg4.IsWhole) (arg5 : Memref sig .tc .vmem S2048x2 .f32) (harg5 : arg5.IsWhole)
    (arg6 : Memref sig .tc .vmem S2048x128 .f32) (harg6 : arg6.IsWhole)
    (a : Vec F S2048x1024 .f32) (xw : Vec F S16384x128 .f32) (K : PUnit → sProp 𝕄) :
    iprop(owns (c : Thread nD τ) arg2 fullShare a ∗ owns (c : Thread nD τ) arg3 fullShare xw ∗ (∃ d, owns (c : Thread nD τ) arg6 fullShare d)
        ∗ (iprop(owns (c : Thread nD τ) arg2 fullShare a ∗ owns (c : Thread nD τ) arg3 fullShare xw
            ∗ owns (c : Thread nD τ) arg6 fullShare (accStep a xw i k1_pay1)) -∗ K ⟨⟩))
      ⊢ wp frame (wpE (defs₀ (F := F)) Variants.none c none) E (cc1__main_kernel i arg2 harg2 arg3 harg3 arg4 harg4 arg5 harg5 arg6 harg6) K := by
  simp only [cc1__main_kernel_eq_skeleton]; unfold cc1__main_kernel_skel
  unfold owns
  iintro ⟨⟨%f0, %hf0, H0⟩, ⟨%f1, %hf1, H1⟩, ⟨%d2, %f2, -, H2⟩, Hk⟩
  subst hf0; subst hf1
  sl_exec (disch := first | exact hf | exact hl)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (read_last_whole _ _ hz _ _ _ (View.cover_of_tiled _ S2048x128.size (by rfl))).trans ?_
  sl_unfold_run_names
  rw [View.readCov_unit_zero _ hz]
  rfl

set_option maxHeartbeats 2000000 in
/-- 0 < k < 15: the accumulator advances one step from what the point before left. -/
theorem run_mid (c : Dev nD) (E : Set ℕ) (i : grid1.Coords) (hf : ¬ isFirst i) (hl : ¬ isLast i)
    (arg2 : Memref sig .tc .vmem S2048x1024 .f32) (harg2 : arg2.IsWhole) (arg3 : Memref sig .tc .vmem S16384x128 .f32) (harg3 : arg3.IsWhole)
    (arg4 : Memref sig .tc .vmem S128x2 .f32) (harg4 : arg4.IsWhole) (arg5 : Memref sig .tc .vmem S2048x2 .f32) (harg5 : arg5.IsWhole)
    (arg6 : Memref sig .tc .vmem S2048x128 .f32) (harg6 : arg6.IsWhole)
    (a : Vec F S2048x1024 .f32) (xw : Vec F S16384x128 .f32) (prev : Vec F S2048x128 .f32) (K : PUnit → sProp 𝕄) :
    iprop(owns (c : Thread nD τ) arg2 fullShare a ∗ owns (c : Thread nD τ) arg3 fullShare xw ∗ owns (c : Thread nD τ) arg6 fullShare prev
        ∗ (iprop(owns (c : Thread nD τ) arg2 fullShare a ∗ owns (c : Thread nD τ) arg3 fullShare xw
            ∗ owns (c : Thread nD τ) arg6 fullShare (accStep a xw i prev)) -∗ K ⟨⟩))
      ⊢ wp frame (wpE (defs₀ (F := F)) Variants.none c none) E (cc1__main_kernel i arg2 harg2 arg3 harg3 arg4 harg4 arg5 harg5 arg6 harg6) K := by
  simp only [cc1__main_kernel_eq_skeleton]; unfold cc1__main_kernel_skel
  unfold owns
  iintro ⟨⟨%f0, %hf0, H0⟩, ⟨%f1, %hf1, H1⟩, ⟨%f6, %hf6, H6⟩, Hk⟩
  subst hf0; subst hf1; subst hf6
  sl_exec (disch := first | exact hf | exact hl)
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  sl_unfold_run_names
  refine (read_last_whole _ _ hz _ _ _ (View.cover_of_tiled _ S2048x128.size (by rfl))).trans ?_
  simp only [View.readAt_eq_ld, View.ld_unit_zero (S := S2048x128) hz]
  rfl

set_option maxHeartbeats 2000000 in
/-- k = 15: the accumulator advances one last step, and the output block receives the scores of the
    accumulator so completed. -/
theorem run_last (c : Dev nD) (E : Set ℕ) (i : grid1.Coords) (hf : ¬ isFirst i) (hl : isLast i)
    (arg2 : Memref sig .tc .vmem S2048x1024 .f32) (harg2 : arg2.IsWhole) (arg3 : Memref sig .tc .vmem S16384x128 .f32) (harg3 : arg3.IsWhole)
    (arg4 : Memref sig .tc .vmem S128x2 .f32) (harg4 : arg4.IsWhole) (arg5 : Memref sig .tc .vmem S2048x2 .f32) (harg5 : arg5.IsWhole)
    (arg6 : Memref sig .tc .vmem S2048x128 .f32) (harg6 : arg6.IsWhole)
    (a : Vec F S2048x1024 .f32) (xw : Vec F S16384x128 .f32) (dc : Vec F S128x2 .f32) (prev : Vec F S2048x128 .f32) (K : PUnit → sProp 𝕄) :
    iprop(owns (c : Thread nD τ) arg2 fullShare a ∗ owns (c : Thread nD τ) arg3 fullShare xw ∗ owns (c : Thread nD τ) arg4 fullShare dc
        ∗ (∃ d, owns (c : Thread nD τ) arg5 fullShare d) ∗ owns (c : Thread nD τ) arg6 fullShare prev
        ∗ (iprop(owns (c : Thread nD τ) arg2 fullShare a ∗ owns (c : Thread nD τ) arg3 fullShare xw ∗ owns (c : Thread nD τ) arg4 fullShare dc
            ∗ owns (c : Thread nD τ) arg5 fullShare (scoreOut (accStep a xw i prev) dc)
            ∗ owns (c : Thread nD τ) arg6 fullShare (accStep a xw i prev)) -∗ K ⟨⟩))
      ⊢ wp frame (wpE (defs₀ (F := F)) Variants.none c none) E (cc1__main_kernel i arg2 harg2 arg3 harg3 arg4 harg4 arg5 harg5 arg6 harg6) K := by
  simp only [cc1__main_kernel_eq_skeleton]; unfold cc1__main_kernel_skel
  unfold owns
  iintro ⟨⟨%f0, %hf0, H0⟩, ⟨%f1, %hf1, H1⟩, ⟨%f4, %hf4, H4⟩, ⟨%d5, %f5, -, H5⟩, ⟨%f6, %hf6, H6⟩, Hk⟩
  subst hf0; subst hf1; subst hf4; subst hf6
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H4]
  · iexists f4; isplitr; · ipureintro; rfl
    iexact H4
  isplitl [H5]
  · iexists _; isplitr
    swap; · iexact H5
    ipureintro
    sl_unfold_run_names
    refine (read_last_whole _ _ hz _ _ _ (View.cover_of_tiled _ S2048x2.size (by rfl))).trans ?_
    rw [View.readCov_unit_zero _ hz]
    simp only [View.readAt_eq_ld, View.ld_unit_zero (S := S2048x128) hz]
    rfl
  iexists _; isplitr
  swap; · iexact H6
  ipureintro
  sl_unfold_run_names
  refine (read_last_whole _ _ hz _ _ _ (View.cover_of_tiled _ S2048x128.size (by rfl))).trans ?_
  simp only [View.readAt_eq_ld, View.ld_unit_zero (S := S2048x128) hz]
  rfl

/-! ## The accumulator, point by point -/

-- the contents of the core's buffers when the region is entered
variable (V : (c : Dev nD) → (b : Ref sig .tc) → Buf (Elt F) ((c : Thread nD τ).loc b))

/-- The block of window `w` at grid point `t`, read off the window's array as the region finds it. -/
def blockAt (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The scratch buffer that holds the accumulator, as the memref the body is called with. -/
abbrev scr : Memref sig .tc .vmem S2048x128 .f32 := Memref.whole cc1_scratch0

/-- The accumulator after point `n`: one step from zero where the point opens a reduction, one step from
    what the point before left elsewhere. -/
def accAfter (c : Dev nD) : (n : ℕ) → n < cfg1.N → Vec F S2048x128 .f32
  | 0, h => accStep (blockAt V c 0 ⟨0, h⟩) (blockAt V c 1 ⟨0, h⟩) (grid1.coords ⟨0, h⟩) k1_pay1
  | n + 1, h => accStep (blockAt V c 0 ⟨n + 1, h⟩) (blockAt V c 1 ⟨n + 1, h⟩) (grid1.coords ⟨n + 1, h⟩)
      (if (n + 1) % 16 = 0 then k1_pay1 else accAfter c n (Nat.lt_of_succ_lt h))

theorem accAfter_first (c : Dev nD) (t : Fin cfg1.N) (h : t.val % 16 = 0) :
    accAfter V c t.val t.isLt = accStep (blockAt V c 0 t) (blockAt V c 1 t) (grid1.coords t) k1_pay1 := by
  obtain ⟨n, hn⟩ := t
  cases n with
  | zero => rfl
  | succ n => simp only [accAfter]; rw [if_pos h]

theorem accAfter_next (c : Dev nD) (t : Fin cfg1.N) (h : ¬ t.val % 16 = 0) :
    accAfter V c t.val t.isLt = accStep (blockAt V c 0 t) (blockAt V c 1 t) (grid1.coords t)
      (accAfter V c (t.val - 1) (Nat.lt_of_le_of_lt (Nat.sub_le _ _) t.isLt)) := by
  obtain ⟨n, hn⟩ := t
  cases n with
  | zero => exact absurd rfl h
  | succ n => simp only [accAfter]; rw [if_neg h]; rfl

/-! ## The invariant between points -/

/-- The core's scoped buffers that are neither a staging buffer of this pipeline nor the accumulator's
    scratch (the first pallas_call's five staging buffers), each at some contents. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- A whole scoped buffer's points-to is the memref owned at those contents, -/
theorem scr_of_pts (c : Dev nD) (f : Buf (Elt F) ((c : Thread nD τ).loc cc1_scratch0)) :
    (((c : Thread nD τ).loc cc1_scratch0) ↦{fullShare} f : sProp 𝕄) ⊢ owns (c : Thread nD τ) scr fullShare f := by
  rw [owns_whole]
/-- and back. -/
theorem pts_of_scr (c : Dev nD) (f : Buf (Elt F) ((c : Thread nD τ).loc cc1_scratch0)) :
    (owns (c : Thread nD τ) scr fullShare f : sProp 𝕄) ⊢ ((c : Thread nD τ).loc cc1_scratch0) ↦{fullShare} f := by
  rw [owns_whole]

/-- The region's scoped rest is those five and the scratch, -/
theorem scoped_split (c : Dev nD) :
    (Pipeline.scopedRest (Ix := Unit) (Name := ℕ) (U := UR sig nD τ) (Lvl := ℕ) (Val := Elt F) spec1 c : sProp 𝕄)
      ⊢ iprop(otherScoped c ∗ ∃ d, owns (c : Thread nD τ) scr fullShare d) := by
  rw [scopedRest1_eq]; unfold otherScoped
  iintro ⟨A, B, C, D, E', ⟨%f, S⟩⟩
  isplitl [A B C D E']
  · isplitl [A]; · iexact A
    isplitl [B]; · iexact B
    isplitl [C]; · iexact C
    isplitl [D]; · iexact D
    iexact E'
  iexists f; iapply (scr_of_pts c f); iexact S

/-- and back. -/
theorem scoped_join (c : Dev nD) :
    iprop(otherScoped c ∗ ∃ d, owns (c : Thread nD τ) scr fullShare d)
      ⊢ (Pipeline.scopedRest (Ix := Unit) (Name := ℕ) (U := UR sig nD τ) (Lvl := ℕ) (Val := Elt F) spec1 c : sProp 𝕄) := by
  rw [scopedRest1_eq]; unfold otherScoped
  iintro ⟨⟨A, B, C, D, E'⟩, ⟨%d, S⟩⟩
  isplitl [A]; · iexact A
  isplitl [B]; · iexact B
  isplitl [C]; · iexact C
  isplitl [D]; · iexact D
  isplitl [E']; · iexact E'
  iexists d; iapply (pts_of_scr c d); iexact S

/-- Before point `n`: the other scoped buffers, the scratch — at anything before the first point, then at
    the accumulator the point before left —, and the generator register at some state. -/
def inv (c : Dev nD) : (n : ℕ) → n ≤ cfg1.N → sProp 𝕄
  | 0, _ => iprop((otherScoped c ∗ ∃ d, owns (c : Thread nD τ) scr fullShare d) ∗ ∃ r, prngReg c r)
  | n + 1, hn => iprop((otherScoped c ∗ owns (c : Thread nD τ) scr fullShare (accAfter V c n hn)) ∗ ∃ r, prngReg c r)

theorem inv_zero (c : Dev nD) (h : 0 ≤ cfg1.N) :
    inv V c 0 h = iprop((otherScoped c ∗ ∃ d, owns (c : Thread nD τ) scr fullShare d) ∗ ∃ r, prngReg c r) := rfl

theorem inv_succ (c : Dev nD) (n : ℕ) (hn : n < cfg1.N) :
    inv V c (n + 1) hn = iprop((otherScoped c ∗ owns (c : Thread nD τ) scr fullShare (accAfter V c n hn)) ∗ ∃ r, prngReg c r) := rfl

theorem inv_pos (c : Dev nD) (n : ℕ) (h : n ≤ cfg1.N) (hz : n ≠ 0) :
    inv V c n h = iprop((otherScoped c ∗ owns (c : Thread nD τ) scr fullShare
      (accAfter V c (n - 1) (Nat.lt_of_lt_of_le (Nat.sub_lt (Nat.pos_of_ne_zero hz) Nat.one_pos) h))) ∗ ∃ r, prngReg c r) := by
  cases n with
  | zero => exact absurd rfl hz
  | succ n => rfl

/-- Whatever the point, the invariant before it holds the scratch at SOME contents. -/
theorem inv_forget (c : Dev nD) (n : ℕ) (h : n ≤ cfg1.N) :
    inv V c n h ⊢ iprop((otherScoped c ∗ ∃ d, owns (c : Thread nD τ) scr fullShare d) ∗ ∃ r, prngReg c r) := by
  cases n with
  | zero => exact BI.Entails.refl _
  | succ n =>
    rw [inv_succ]
    iintro ⟨⟨R, S⟩, G⟩
    isplitl [R S]
    · isplitl [R]; · iexact R
      iexists _; iexact S
    iexact G

/-! ## The pipeline's proof data -/

/-- The proof data on core `c`: the arrays as the region finds them; after the body each input's buffer
    still at its block, the output's at the scores of the accumulator the point leaves (consulted only at the
    points that close a reduction: elsewhere the window is idle); the invariant above; nothing owed. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => scoreOut (accAfter V c t.val t.isLt) (blockAt V c 2 t)
  Φ t := inv V c t.val (Nat.le_of_lt_succ t.isLt)
  q _ := fullShare
  owed _ := 0

theorem dat_A (c : Dev nD) (w : Fin cfg1.W) : (dat V c).A w = V c (Pipeline.arrRef spec1 w) := by
  dsimp only [dat]
theorem after_0 (c : Dev nD) (t : Fin cfg1.N) : (dat V c).after 0 t = blockAt V c 0 t := by dsimp only [dat]
theorem after_1 (c : Dev nD) (t : Fin cfg1.N) : (dat V c).after 1 t = blockAt V c 1 t := by dsimp only [dat]
theorem after_2 (c : Dev nD) (t : Fin cfg1.N) : (dat V c).after 2 t = blockAt V c 2 t := by dsimp only [dat]
theorem after_3 (c : Dev nD) (t : Fin cfg1.N) :
    (dat V c).after 3 t = scoreOut (accAfter V c t.val t.isLt) (blockAt V c 2 t) := by dsimp only [dat]

theorem inv_before (c : Dev nD) (t : Fin cfg1.N) :
    (dat V c).Φ t.castSucc = inv V c t.val (Nat.le_of_lt t.isLt) := by
  dsimp only [dat]; simp only [Fin.coe_castSucc]

/-- An input's staging buffer holds its block at every point, fetched there or not. -/
theorem before_0 (c : Dev nD) (t : Fin cfg1.N) (d) : (dat V c).before 0 t d = blockAt V c 0 t :=
  ((dat V c).before_in_eq_fetched 0 rfl (fun _ => rfl) (fun _ _ _ => rfl)
      (fun t => by rw [after_0]; unfold Dat.blockOf blockAt; rw [dat_A]; try rfl) t d).trans
    (by unfold Dat.fetched Dat.blockOf blockAt; rw [dat_A]; try rfl)
theorem before_1 (c : Dev nD) (t : Fin cfg1.N) (d) : (dat V c).before 1 t d = blockAt V c 1 t :=
  ((dat V c).before_in_eq_fetched 1 rfl (fun _ => rfl) (fun _ _ _ => rfl)
      (fun t => by rw [after_1]; unfold Dat.blockOf blockAt; rw [dat_A]; try rfl) t d).trans
    (by unfold Dat.fetched Dat.blockOf blockAt; rw [dat_A]; try rfl)
theorem before_2 (c : Dev nD) (t : Fin cfg1.N) (d) : (dat V c).before 2 t d = blockAt V c 2 t :=
  ((dat V c).before_in_eq_fetched 2 rfl (fun _ => rfl) (fun _ _ _ => rfl)
      (fun t => by rw [after_2]; unfold Dat.blockOf blockAt; rw [dat_A]; try rfl) t d).trans
    (by unfold Dat.fetched Dat.blockOf blockAt; rw [dat_A]; try rfl)

/-- The inputs' windows are never idle: the body's post for them is their buffer at `after`. -/
theorem leaves_in (c : Dev nD) (t : Fin cfg1.N) :
    (dat V c).leavesExact 0 t = owns (c : Thread nD τ) (st1_0 t) fullShare (blockAt V c 0 t)
    ∧ (dat V c).leavesExact 1 t = owns (c : Thread nD τ) (st1_1 t) fullShare (blockAt V c 1 t)
    ∧ (dat V c).leavesExact 2 t = owns (c : Thread nD τ) (st1_2 t) fullShare (blockAt V c 2 t) :=
  ⟨by rw [← after_0], by rw [← after_1], by rw [← after_2]⟩

/-! ## The body obligation -/

/-- What the body is called with at point `t`, window by window, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4000000 in
/-- The body at any point. The inputs' buffers hold their blocks; the point's number modulo 16 says which of
    the three situations it is in; the invariant hands the body the scratch (at anything where a reduction
    opens, at the accumulator the point before left elsewhere) and takes it back at this point's accumulator;
    where no reduction closes the output buffer is handed back as found; nothing is owed throughout. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl,
    show (dat V c).Φ t.succ = inv V c (t.val + 1) t.isLt from rfl, inv_succ,
    (leaves_in V c t).1, (leaves_in V c t).2.1, (leaves_in V c t).2.2, inv_before]
  have hN : t.val < 128 := lt_of_lt_of_eq t.isLt (show cfg1.N = 128 from N_1)
  by_cases h0 : t.val % 16 = 0
  · -- a reduction opens here
    have hF : isFirst (grid1.coords t) := (first_iff t).mpr h0
    have hL : ¬ isLast (grid1.coords t) := fun h => by have := (last_iff t).mp h; omega
    rw [Dat.leavesExact_idle (dat V c) 3 t (out_idle t hL) (out_kept t hL), accAfter_first V c t h0]
    iintro ⟨HΦ, Ho, ⟨%d0, H0⟩, ⟨%d1, H1⟩, ⟨%d2, H2⟩, H3⟩
    ihave HΦ' := (inv_forget V c t.val (Nat.le_of_lt t.isLt)) $$ HΦ
    icases HΦ' with ⟨⟨R, S⟩, G⟩
    iapply (run_first c Set.univ (grid1.coords t) hF hL _ _ _ _ _ _ _ _ _ _ (blockAt V c 0 t) (blockAt V c 1 t) _)
    isplitl [H0]; · iexact H0
    isplitl [H1]; · iexact H1
    isplitl [S]; · iexact S
    iintro ⟨H0, H1, S⟩
    isplitl [R S G]
    · isplitl [R S]
      · isplitl [R]; · iexact R
        iexact S
      iexact G
    isplitl [Ho]; · iexact Ho
    isplitl [H0]; · iexact H0
    isplitl [H1]; · iexact H1
    isplitl [H2]; · iexact H2
    iexact H3
  · have hF : ¬ isFirst (grid1.coords t) := fun h => h0 ((first_iff t).mp h)
    have hz : t.val ≠ 0 := fun h => h0 (by rw [h])
    rw [inv_pos V c _ _ hz, accAfter_next V c t h0]
    by_cases h15 : t.val % 16 = 15
    · -- a reduction closes here
      have hL : isLast (grid1.coords t) := (last_iff t).mpr h15
      rw [show (dat V c).leavesExact 3 t = owns (c : Thread nD τ) (st1_3 t) fullShare ((dat V c).after 3 t) from by
        unfold Dat.leavesExact; rw [out_live t hL], after_3, accAfter_next V c t h0]
      iintro ⟨⟨⟨R, S⟩, G⟩, Ho, ⟨%d0, H0⟩, ⟨%d1, H1⟩, ⟨%d2, H2⟩, ⟨%d3, H3⟩⟩
      iapply (run_last c Set.univ (grid1.coords t) hF hL _ _ _ _ _ _ _ _ _ _ (blockAt V c 0 t) (blockAt V c 1 t) (blockAt V c 2 t) _ _)
      isplitl [H0]; · iexact H0
      isplitl [H1]; · iexact H1
      isplitl [H2]; · iexact H2
      isplitl [H3]; · iexists _; iexact H3
      isplitl [S]; · iexact S
      iintro ⟨H0, H1, H2, H3, S⟩
      isplitl [R S G]
      · isplitl [R S]
        · isplitl [R]; · iexact R
          iexact S
        iexact G
      isplitl [Ho]; · iexact Ho
      isplitl [H0]; · iexact H0
      isplitl [H1]; · iexact H1
      isplitl [H2]; · iexact H2
      iexact H3
    · -- in the middle of a reduction
      have hL : ¬ isLast (grid1.coords t) := fun h => h15 ((last_iff t).mp h)
      rw [Dat.leavesExact_idle (dat V c) 3 t (out_idle t hL) (out_kept t hL)]
      iintro ⟨⟨⟨R, S⟩, G⟩, Ho, ⟨%d0, H0⟩, ⟨%d1, H1⟩, ⟨%d2, H2⟩, H3⟩
      iapply (run_mid c Set.univ (grid1.coords t) hF hL _ _ _ _ _ _ _ _ _ _ (blockAt V c 0 t) (blockAt V c 1 t) _ _)
      isplitl [H0]; · iexact H0
      isplitl [H1]; · iexact H1
      isplitl [S]; · iexact S
      iintro ⟨H0, H1, S⟩
      isplitl [R S G]
      · isplitl [R S]
        · isplitl [R]; · iexact R
          iexact S
        iexact G
      isplitl [Ho]; · iexact Ho
      isplitl [H0]; · iexact H0
      isplitl [H1]; · iexact H1
      isplitl [H2]; · iexact H2
      iexact H3

/-- The library's body obligation for this pipeline, at every point. -/
theorem body_obligation (c : Dev nD) : BodyObligation (dat (F := F) V c) (defs₀ (F := F)) Variants.none () Set.univ := fun t => by
  rw [bigSep_W1, bigSep_W1]
  exact body_at V c t

/-- Entering the region: its scoped rest and the generator register make the invariant before the first point. -/
theorem enter (c : Dev nD) :
    iprop((Pipeline.scopedRest (Ix := Unit) (Name := ℕ) (U := UR sig nD τ) (Lvl := ℕ) (Val := Elt F) spec1 c : sProp 𝕄)
      ∗ ∃ r, prngReg c r) ⊢ (dat V c).Φ 0 := by
  rw [show (dat V c).Φ 0 = inv V c 0 (Nat.zero_le _) from rfl, inv_zero]
  iintro ⟨Hr, G⟩
  ihave Hs := (scoped_split c) $$ Hr
  isplitl [Hs]; · iexact Hs
  iexact G

/-- Leaving it: after the last point the accumulator's contents are forgotten and the scoped rest is whole again. -/
theorem leave (c : Dev nD) :
    (dat V c).Φ (Fin.last cfg1.N) ⊢ iprop((Pipeline.scopedRest (Ix := Unit) (Name := ℕ) (U := UR sig nD τ) (Lvl := ℕ) (Val := Elt F) spec1 c : sProp 𝕄)
      ∗ ∃ r, prngReg c r) := by
  rw [show (dat V c).Φ (Fin.last cfg1.N) = inv V c (Fin.last cfg1.N).val (Nat.le_of_lt_succ (Fin.last cfg1.N).isLt) from rfl]
  iintro H
  ihave H' := (inv_forget V c _ _) $$ H
  icases H' with ⟨Hs, G⟩
  isplitl [Hs]; · iapply (scoped_join c); iexact Hs
  iexact G

end Cert.Kernel.AggRegion

end
-- ==== Proof.BitsMainRun.lean ====
/-
  The whole program as a run: host operations, the two pallas_calls, host operations.

  @main is four segments in order — the five host operations that collapse the decoder into two
  columns, the feature product X · W, the aggregation with its scores, and the thirty-seven host
  operations that gather the two scores of every edge and apply the logistic function. Between
  segments every core holds all of its unscoped buffers at named contents: the launch memory, then
  what the host operations compute from it, then each pallas_call's output array at what its
  write-backs leave (every other buffer as it was). Each pallas_call is entered from that state,
  hands its windows' arrays to the pipeline, lends the generator register to the kernel's
  invariant, and gives everything back at its exit. The run below says that every weakly fair
  execution terminates, faults nowhere, and ends with every unscoped buffer at the last of those
  contents; the claims read the arguments and the result off it.
-/
import proofs.«134503_j40699110097055_2_alg».proof.Proof.Gen.Kernel.Launch
import proofs.«134503_j40699110097055_2_alg».proof.Proof.Gen.Kernel.Skeleton
import proofs.«134503_j40699110097055_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«134503_j40699110097055_2_alg».proof.Proof.Gen.Kernel.Regions
import proofs.«134503_j40699110097055_2_alg».proof.Proof.BitsFeatRegion
import proofs.«134503_j40699110097055_2_alg».proof.Proof.BitsAggRegion

set_option maxRecDepth 16384

noncomputable section

namespace Cert.Kernel.MainRun

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev atLaunch (c : Dev nD) : Valuation τ sig (Elt F) := fun b => m (c, b)
/-- After the host operations that precede the pallas_calls. -/
abbrev afterPrefix (c : Dev nD) : Valuation τ sig (Elt F) := StableHlo.after hostOps0 (atLaunch m c)
/-- The same, read at the TensorCore's references: what the first pallas_call is entered with. -/
abbrev entry0 (c : Dev nD) (b : Ref sig .tc) : Buf (Elt F) ((c : Thread nD τ).loc b) := afterPrefix m c b
/-- After the feature product: its arrays at what the pipeline leaves, every other buffer as entered. -/
def afterFeat (c : Dev nD) : Valuation τ sig (Elt F) :=
  Pipeline.withArrays spec0 c (afterPrefix m c) fun w => (FeatRegion.dat (entry0 m) c).arrAt w cfg0.N
/-- What the aggregation is entered with. -/
abbrev entry1 (c : Dev nD) (b : Ref sig .tc) : Buf (Elt F) ((c : Thread nD τ).loc b) := afterFeat m c b
/-- After the aggregation. -/
def afterAgg (c : Dev nD) : Valuation τ sig (Elt F) :=
  Pipeline.withArrays spec1 c (afterFeat m c) fun w => (AggRegion.dat (entry1 m) c).arrAt w cfg1.N
/-- The same at the TensorCore's references. -/
abbrev exit1 (c : Dev nD) (b : Ref sig .tc) : Buf (Elt F) ((c : Thread nD τ).loc b) := afterAgg m c b
/-- At the end: after the host operations that follow the pallas_calls. -/
abbrev atEnd (c : Dev nD) : Valuation τ sig (Elt F) := StableHlo.after hostOps2 (afterAgg m c)

theorem afterFeat_at (c : Dev nD) (w : Fin cfg0.W) :
    afterFeat m c (Proc.devRef .tc (Pipeline.arrRef spec0 w)) = (FeatRegion.dat (entry0 m) c).arrAt w cfg0.N := by
  unfold afterFeat; exact Pipeline.withArrays_arr spec0 launch0.win.arr_inj c _ _ w
theorem afterFeat_else (c : Dev nD) (b : Ref sig .tc) (hb : ∀ w, Pipeline.arrRef spec0 w ≠ b) :
    afterFeat m c (Proc.devRef .tc b) = afterPrefix m c (Proc.devRef .tc b) := by
  unfold afterFeat; exact Pipeline.withArrays_of_ne spec0 c _ _ b hb
theorem afterAgg_at (c : Dev nD) (w : Fin cfg1.W) :
    afterAgg m c (Proc.devRef .tc (Pipeline.arrRef spec1 w)) = (AggRegion.dat (entry1 m) c).arrAt w cfg1.N := by
  unfold afterAgg; exact Pipeline.withArrays_arr spec1 launch1.win.arr_inj c _ _ w
theorem afterAgg_else (c : Dev nD) (b : Ref sig .tc) (hb : ∀ w, Pipeline.arrRef spec1 w ≠ b) :
    afterAgg m c (Proc.devRef .tc b) = afterFeat m c (Proc.devRef .tc b) := by
  unfold afterAgg; exact Pipeline.withArrays_of_ne spec1 c _ _ b hb

/-- What each pallas_call's exit state needs: its arrays at what the pipeline leaves, the rest untouched. -/
theorem entry1_arr (c : Dev nD) (w : Fin cfg0.W) :
    (FeatRegion.dat (entry0 m) c).arrAt w cfg0.N = entry1 m c (Pipeline.arrRef spec0 w) := (afterFeat_at m c w).symm
theorem entry1_rest (c : Dev nD) : ∀ b, b ∉ Finset.univ.image (Pipeline.arrRef spec0) → entry1 m c b = entry0 m c b :=
  fun b hb => afterFeat_else m c b fun w e => hb (Finset.mem_image.mpr ⟨w, Finset.mem_univ _, e⟩)
theorem exit1_arr (c : Dev nD) (w : Fin cfg1.W) :
    (AggRegion.dat (entry1 m) c).arrAt w cfg1.N = exit1 m c (Pipeline.arrRef spec1 w) := (afterAgg_at m c w).symm
theorem exit1_rest (c : Dev nD) : ∀ b, b ∉ Finset.univ.image (Pipeline.arrRef spec1) → exit1 m c b = entry1 m c b :=
  fun b hb => afterAgg_else m c b fun w e => hb (Finset.mem_image.mpr ⟨w, Finset.mem_univ _, e⟩)

/-! ## The proof data of both pipelines, and what rides beside the buffers -/

/-- Neither pallas_call has a prefetched table. -/
abbrev tables : (p : Fin 2) → (pcfgs (F := F) p).Adm := fun p => (cfgs p).toPCfg_adm

/-- Each pipeline's proof data at its own entry contents. -/
def pdats : (p : Fin 2) → (c : Dev nD) → Dat τ (Elt F) Unit ℕ (UR sig nD τ) ℕ (Pipeline.pin (pcfgs (F := F)) tables p) c
  | ⟨0, _⟩ => fun c => FeatRegion.dat (entry0 m) c
  | ⟨1, _⟩ => fun c => AggRegion.dat (entry1 m) c

abbrev noVariants : Variants := Variants.none
/-- No core owes another anything: no level is assigned. -/
abbrev noLevels : GSem nD τ sig → Finset Unit := fun _ => ∅
abbrev noLevel : GSem nD τ sig → Unit → ℕ := fun _ _ => 0

/-- Beside the buffers every segment carries the generator register at some state and the core owing nothing. -/
abbrev riding (c : Dev nD) : sProp 𝕄 :=
  iprop((∃ r, prngReg c r) ∗ ∃ W, owes (c : Thread nD τ) (0 : CellTallies nD τ sig Unit) W)

/-- A stretch of host operations as a segment, from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

/-! ## The pallas_calls as segments

Each is entered from every unscoped buffer at its entry contents and left at its exit contents. At the entry
the windows' arrays are split out of the unscoped buffers and the generator register goes into the kernel's
invariant; at the exit both come back. The kernels have no semaphore of their own and owe nothing. -/

-- a library lemma stated over the pinned configuration unifies with the printed one only when unification may
-- unfold plain definitions in a metavariable's type
set_option backward.isDefEq.respectTransparency.types false in
def featSeg : Pipeline.RegionSeg (pcfgs (F := F)) tables (pdats m) () defs₀ noVariants noLevels noLevel 0 where
  win := launch0.win.to₀
  block_pos := launch0.block_pos
  stage_whole := launch0.stage_whole
  K := PEmpty
  osem k := k.elim
  ho := Pipeline.OwnSemFacts.none _
  hbody c := (FeatRegion.body_obligation (entry0 m) c).loose
  hwaits := Pipeline.hwaits_of_owed_zero _ _ _ _ noLevels noLevel 0 fun _ _ => rfl
  pre c := iprop(StableHlo.held (c : Thread nD τ) (Pipeline.ucRefs τ sig) (afterPrefix m c) ∗ riding c)
  post c := iprop(StableHlo.held (c : Thread nD τ) (Pipeline.ucRefs τ sig) (afterFeat m c) ∗ riding c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) tables (pdats m) launch0.win launch0.arr_whole c
      ((pdats m 0 c).share_full fun _ => rfl) (entry0 m c) fun _ => rfl
    rw [Pipeline.unscopedBufs_held] at hsplit
    iintro ⟨⟨Hbufs, Hg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hg]; · iexact Hg
    iexact Hrest
  hin c := by
    rw [show (pdats m 0 c).Φ 0 = Pipeline.ΦA spec0 c from rfl]; unfold Pipeline.ΦA
    iintro ⟨Hg, -, Hr⟩
    isplitl [Hr]; · iexact Hr
    iexact Hg
  hout c := by
    rw [Pipeline.ownSems0_none, show (pdats m 0 c).Φ (Fin.last _) = Pipeline.ΦA spec0 c from rfl]; unfold Pipeline.ΦA
    iintro ⟨Hr, Hg⟩
    isplitl [Hg]; · iexact Hg
    isplitr; · iempintro
    iexact Hr
  hexit c := by
    have hjoin := Pipeline.unscopedBufs_of_arrays (p := 0) (pcfgs (F := F)) tables (Ix := Unit) (Name := ℕ) (U := UR sig nD τ) (Lvl := ℕ)
      launch0.win launch0.arr_whole c (pdats m) ((pdats m 0 c).share_full fun _ => rfl)
      (entry0 m c) (entry1 m c) ((pdats m 0 c).arrAt · cfg0.N) (entry1_arr m c) (entry1_rest m c)
    rw [Pipeline.unscopedBufs_held] at hjoin
    iintro ⟨Harr, Howes, Hg, Hrest⟩
    imodintro
    isplitl [Harr Hrest]
    · iapply hjoin; isplitl [Harr] <;> iassumption
    isplitl [Hg]; · iexact Hg
    unfold Pipeline.Dat.owesAt Pipeline.owesWithin
    icases Howes with ⟨%W, -, Howes⟩; iexists W; iexact Howes

-- a library lemma stated over the pinned configuration unifies with the printed one only when unification may
-- unfold plain definitions in a metavariable's type
set_option backward.isDefEq.respectTransparency.types false in
def aggSeg : Pipeline.RegionSeg (pcfgs (F := F)) tables (pdats m) () defs₀ noVariants noLevels noLevel 1 where
  win := launch1.win.to₀
  block_pos := launch1.block_pos
  stage_whole := launch1.stage_whole
  K := PEmpty
  osem k := k.elim
  ho := Pipeline.OwnSemFacts.none _
  hbody c := (AggRegion.body_obligation (entry1 m) c).loose
  hwaits := Pipeline.hwaits_of_owed_zero _ _ _ _ noLevels noLevel 1 fun _ _ => rfl
  pre c := iprop(StableHlo.held (c : Thread nD τ) (Pipeline.ucRefs τ sig) (afterFeat m c) ∗ riding c)
  post c := iprop(StableHlo.held (c : Thread nD τ) (Pipeline.ucRefs τ sig) (afterAgg m c) ∗ riding c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) tables (pdats m) launch1.win launch1.arr_whole c
      ((pdats m 1 c).share_full fun _ => rfl) (entry1 m c) fun _ => rfl
    rw [Pipeline.unscopedBufs_held] at hsplit
    iintro ⟨⟨Hbufs, Hg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hg]; · iexact Hg
    iexact Hrest
  hin c := by
    rw [show (pdats m 1 c).Φ 0 = (AggRegion.dat (entry1 m) c).Φ 0 from rfl]
    iintro ⟨Hg, -, Hr⟩
    iapply (AggRegion.enter (entry1 m) c)
    isplitl [Hr]; · iexact Hr
    iexact Hg
  hout c := by
    rw [Pipeline.ownSems0_none, show (pdats m 1 c).Φ (Fin.last _) = (AggRegion.dat (entry1 m) c).Φ (Fin.last cfg1.N) from rfl]
    iintro H
    ihave H' := (AggRegion.leave (entry1 m) c) $$ H
    icases H' with ⟨Hr, Hg⟩
    isplitl [Hg]; · iexact Hg
    isplitr; · iempintro
    iexact Hr
  hexit c := by
    have hjoin := Pipeline.unscopedBufs_of_arrays (p := 1) (pcfgs (F := F)) tables (Ix := Unit) (Name := ℕ) (U := UR sig nD τ) (Lvl := ℕ)
      launch1.win launch1.arr_whole c (pdats m) ((pdats m 1 c).share_full fun _ => rfl)
      (entry1 m c) (exit1 m c) ((pdats m 1 c).arrAt · cfg1.N) (exit1_arr m c) (exit1_rest m c)
    rw [Pipeline.unscopedBufs_held] at hjoin
    iintro ⟨Harr, Howes, Hg, Hrest⟩
    imodintro
    isplitl [Harr Hrest]
    · iapply hjoin; isplitl [Harr] <;> iassumption
    isplitl [Hg]; · iexact Hg
    unfold Pipeline.Dat.owesAt Pipeline.owesWithin
    icases Howes with ⟨%W, -, Howes⟩; iexists W; iexact Howes

/-! ## @main as its segments, and the run -/

abbrev segs : List (Pipeline.Seg (pcfgs (F := F)) tables (pdats m) () defs₀ noVariants noLevels noLevel) :=
  [ .host (hostSeg hostOps0 hostOps0_sub hostOps0_fresh (atLaunch m)),
    .region (featSeg m),
    .region (aggSeg m),
    .host (hostSeg hostOps2 hostOps2_sub hostOps2_fresh (afterAgg m)) ]

/-- @main is the run of its segments. -/
theorem main_is_segs (c : Dev nD) : main (F := F) c = Pipeline.Seg.run (segs m) := (main_chain c).trans (by chain_rfl)

/-- An unscoped TensorCore reference is among those the thread state holds. -/
theorem held_ref (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
/-- THE RUN. From any memory with zero counters, every weakly fair execution of @main on the TensorCores
    terminates, nothing faulting, and every final state has every unscoped buffer of every core at `atEnd`. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = atEnd m c b) :=
  Pipeline.θ_run_regions_kit (pcfgs (F := F)) tables (pdats m) () cellOf_inj emb₁ defs₀ noVariants noLevels noLevel m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m c) ∗ riding c))
    (Tₙ := fun c => iprop(StableHlo.held (c : Thread nD τ) (Pipeline.ucRefs τ sig) (atEnd m c) ∗ ∃ r, prngReg c r))
    (hch := ⟨fun _ => .rfl, fun _ => .rfl, fun _ => .rfl, fun _ => .rfl, fun c => by
      show iprop(StableHlo.held (c : Thread nD τ) (Pipeline.ucRefs τ sig) (atEnd m c) ∗ riding c) ⊢ _
      iintro ⟨Hh, Hg, Ho⟩
      isplitl [Hh Hg]
      · isplitl [Hh]; · iexact Hh
        iexact Hg
      iexact Ho⟩)
    (hinit := by
      refine Pipeline.initEach noLevels noLevel fun c => ?_
      rw [show unscopedBufs c (fun b => m ((c : Thread nD τ).loc b)) = StableHlo.held (c : Thread nD τ) (Pipeline.ucRefs τ sig) (atLaunch m c)
        from Pipeline.unscopedBufs_held c (atLaunch m c)]
      iintro ⟨⟨Hh, -, Ho, -, Hg, -⟩, -⟩
      imodintro
      isplitl [Hh]; · iexact Hh
      isplitl [Hg]; · iexists _; iexact Hg
      iexists ∅; iexact Ho)
    (QY := fun c s => ∀ b ∈ Pipeline.ucRefs τ sig, s.mem (((c : Thread nD τ)).1, b) = atEnd m c b)
    (hfin := fun c s' => by
      iintro ⟨⟨Hh, -⟩, HSI⟩
      unfold StableHlo.held
      imodintro
      iapply (pointsTo_read_all (Pipeline.ucRefs τ sig) (fun b => (((c : Thread nD τ)).1, b)) (atEnd m c) s')
      isplitl [Hh] <;> iassumption)
    (hQ := fun s h c => h c)

end Cert.Kernel.MainRun

end
-- ==== Proof.BitsMainFrame.lean ====
/-
  No segment of @main changes an argument array.

  The host operations write only their own result buffers; a pallas_call changes only its output
  array (an argument it reads through an input window comes back as it went in, and one it does
  not stage is not touched). So reading an argument's buffer off the contents at the end walks back
  through the four boundaries to the launch memory — which, with the run, is the frame claim.
-/
import proofs.«134503_j40699110097055_2_alg».proof.Proof.Gen.Kernel.Launch
import proofs.«134503_j40699110097055_2_alg».proof.Proof.Gen.Kernel.Skeleton
import proofs.«134503_j40699110097055_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«134503_j40699110097055_2_alg».proof.Proof.BitsMainRun

set_option maxRecDepth 16384

noncomputable section

namespace Cert.Kernel.MainFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- `main_arg0` ends as launched. -/
theorem end_arg0 (c : Dev nD) : MainRun.atEnd m c (Proc.devRef .tc main_arg0) = m ((c : Thread nD τ).loc main_arg0) :=
  calc MainRun.atEnd m c (Proc.devRef .tc main_arg0)
    _ = MainRun.afterAgg m c (Proc.devRef .tc main_arg0) := StableHlo.after_of_writes_sub hostOps2 _ hostOps2_writes (by decide)
    _ = MainRun.afterFeat m c (Proc.devRef .tc main_arg0) := MainRun.afterAgg_else m c main_arg0 (by decide)
    _ = MainRun.afterPrefix m c (Proc.devRef .tc main_arg0) := (MainRun.afterFeat_at m c 0).trans (((FeatRegion.dat (MainRun.entry0 m) c).arrAt_in 0 rfl _).trans (FeatRegion.dat_A (MainRun.entry0 m) c 0))
    _ = MainRun.atLaunch m c (Proc.devRef .tc main_arg0) := StableHlo.after_of_writes_sub hostOps0 _ hostOps0_writes (by decide)
    _ = m ((c : Thread nD τ).loc main_arg0) := rfl

/-- `main_arg1` ends as launched. -/
theorem end_arg1 (c : Dev nD) : MainRun.atEnd m c (Proc.devRef .tc main_arg1) = m ((c : Thread nD τ).loc main_arg1) :=
  calc MainRun.atEnd m c (Proc.devRef .tc main_arg1)
    _ = MainRun.afterAgg m c (Proc.devRef .tc main_arg1) := StableHlo.after_of_writes_sub hostOps2 _ hostOps2_writes (by decide)
    _ = MainRun.afterFeat m c (Proc.devRef .tc main_arg1) := (MainRun.afterAgg_at m c 0).trans (((AggRegion.dat (MainRun.entry1 m) c).arrAt_in 0 rfl _).trans (AggRegion.dat_A (MainRun.entry1 m) c 0))
    _ = MainRun.afterPrefix m c (Proc.devRef .tc main_arg1) := MainRun.afterFeat_else m c main_arg1 (by decide)
    _ = MainRun.atLaunch m c (Proc.devRef .tc main_arg1) := StableHlo.after_of_writes_sub hostOps0 _ hostOps0_writes (by decide)
    _ = m ((c : Thread nD τ).loc main_arg1) := rfl

/-- `main_arg2` ends as launched. -/
theorem end_arg2 (c : Dev nD) : MainRun.atEnd m c (Proc.devRef .tc main_arg2) = m ((c : Thread nD τ).loc main_arg2) :=
  calc MainRun.atEnd m c (Proc.devRef .tc main_arg2)
    _ = MainRun.afterAgg m c (Proc.devRef .tc main_arg2) := StableHlo.after_of_writes_sub hostOps2 _ hostOps2_writes (by decide)
    _ = MainRun.afterFeat m c (Proc.devRef .tc main_arg2) := MainRun.afterAgg_else m c main_arg2 (by decide)
    _ = MainRun.afterPrefix m c (Proc.devRef .tc main_arg2) := (MainRun.afterFeat_at m c 1).trans (((FeatRegion.dat (MainRun.entry0 m) c).arrAt_in 1 rfl _).trans (FeatRegion.dat_A (MainRun.entry0 m) c 1))
    _ = MainRun.atLaunch m c (Proc.devRef .tc main_arg2) := StableHlo.after_of_writes_sub hostOps0 _ hostOps0_writes (by decide)
    _ = m ((c : Thread nD τ).loc main_arg2) := rfl

/-- `main_arg3` ends as launched. -/
theorem end_arg3 (c : Dev nD) : MainRun.atEnd m c (Proc.devRef .tc main_arg3) = m ((c : Thread nD τ).loc main_arg3) :=
  calc MainRun.atEnd m c (Proc.devRef .tc main_arg3)
    _ = MainRun.afterAgg m c (Proc.devRef .tc main_arg3) := StableHlo.after_of_writes_sub hostOps2 _ hostOps2_writes (by decide)
    _ = MainRun.afterFeat m c (Proc.devRef .tc main_arg3) := MainRun.afterAgg_else m c main_arg3 (by decide)
    _ = MainRun.afterPrefix m c (Proc.devRef .tc main_arg3) := MainRun.afterFeat_else m c main_arg3 (by decide)
    _ = MainRun.atLaunch m c (Proc.devRef .tc main_arg3) := StableHlo.after_of_writes_sub hostOps0 _ hostOps0_writes (by decide)
    _ = m ((c : Thread nD τ).loc main_arg3) := rfl

/-- `main_arg4` ends as launched. -/
theorem end_arg4 (c : Dev nD) : MainRun.atEnd m c (Proc.devRef .tc main_arg4) = m ((c : Thread nD τ).loc main_arg4) :=
  calc MainRun.atEnd m c (Proc.devRef .tc main_arg4)
    _ = MainRun.afterAgg m c (Proc.devRef .tc main_arg4) := StableHlo.after_of_writes_sub hostOps2 _ hostOps2_writes (by decide)
    _ = MainRun.afterFeat m c (Proc.devRef .tc main_arg4) := MainRun.afterAgg_else m c main_arg4 (by decide)
    _ = MainRun.afterPrefix m c (Proc.devRef .tc main_arg4) := MainRun.afterFeat_else m c main_arg4 (by decide)
    _ = MainRun.atLaunch m c (Proc.devRef .tc main_arg4) := StableHlo.after_of_writes_sub hostOps0 _ hostOps0_writes (by decide)
    _ = m ((c : Thread nD τ).loc main_arg4) := rfl

/-- `main_arg5` ends as launched. -/
theorem end_arg5 (c : Dev nD) : MainRun.atEnd m c (Proc.devRef .tc main_arg5) = m ((c : Thread nD τ).loc main_arg5) :=
  calc MainRun.atEnd m c (Proc.devRef .tc main_arg5)
    _ = MainRun.afterAgg m c (Proc.devRef .tc main_arg5) := StableHlo.after_of_writes_sub hostOps2 _ hostOps2_writes (by decide)
    _ = MainRun.afterFeat m c (Proc.devRef .tc main_arg5) := MainRun.afterAgg_else m c main_arg5 (by decide)
    _ = MainRun.afterPrefix m c (Proc.devRef .tc main_arg5) := MainRun.afterFeat_else m c main_arg5 (by decide)
    _ = MainRun.atLaunch m c (Proc.devRef .tc main_arg5) := StableHlo.after_of_writes_sub hostOps0 _ hostOps0_writes (by decide)
    _ = m ((c : Thread nD τ).loc main_arg5) := rfl

/-- `main_arg6` ends as launched. -/
theorem end_arg6 (c : Dev nD) : MainRun.atEnd m c (Proc.devRef .tc main_arg6) = m ((c : Thread nD τ).loc main_arg6) :=
  calc MainRun.atEnd m c (Proc.devRef .tc main_arg6)
    _ = MainRun.afterAgg m c (Proc.devRef .tc main_arg6) := StableHlo.after_of_writes_sub hostOps2 _ hostOps2_writes (by decide)
    _ = MainRun.afterFeat m c (Proc.devRef .tc main_arg6) := MainRun.afterAgg_else m c main_arg6 (by decide)
    _ = MainRun.afterPrefix m c (Proc.devRef .tc main_arg6) := MainRun.afterFeat_else m c main_arg6 (by decide)
    _ = MainRun.atLaunch m c (Proc.devRef .tc main_arg6) := StableHlo.after_of_writes_sub hostOps0 _ hostOps0_writes (by decide)
    _ = m ((c : Thread nD τ).loc main_arg6) := rfl

/-- THE FRAME: every weakly fair execution of @main terminates, nothing faulting, with every argument array
    as launched — at any float instance. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (MainRun.held_ref main_arg0 (by decide))).trans (end_arg0 m c),
      (h c _ (MainRun.held_ref main_arg1 (by decide))).trans (end_arg1 m c),
      (h c _ (MainRun.held_ref main_arg2 (by decide))).trans (end_arg2 m c),
      (h c _ (MainRun.held_ref main_arg3 (by decide))).trans (end_arg3 m c),
      (h c _ (MainRun.held_ref main_arg4 (by decide))).trans (end_arg4 m c),
      (h c _ (MainRun.held_ref main_arg5 (by decide))).trans (end_arg5 m c),
      (h c _ (MainRun.held_ref main_arg6 (by decide))).trans (end_arg6 m c)⟩)
    (MainRun.run_all m ρ)

end Cert.Kernel.MainFrame

end
-- ==== Proof.FeatRegion.lean ====
/-
  The first pallas_call: the feature product X · W, one block of 2048 rows of X per grid point.

  At grid point t the kernel is handed rows 2048·t … 2048·t + 2047 of X (a 2048 × 512 block) and the
  whole of W (512 × 128), multiplies them into a zero accumulator, and stores the 2048 × 128 product
  over its whole output block, which the pipeline writes back at every point. The kernel keeps
  nothing between points. Stated here, at any float instance: what the output block holds after
  the body as a function of the two input blocks, the body's Hoare triple, the pipeline's proof
  data at the contents `V` the region is entered with, and the body obligation at every point.
-/
import proofs.«134503_j40699110097055_2_alg».proof.Proof.Gen.KernelIdeal.Launch
import proofs.«134503_j40699110097055_2_alg».proof.Proof.Gen.KernelIdeal.Skeleton
import proofs.«134503_j40699110097055_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.FeatRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- The block of window `w` at grid point `t`, read off the window's array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

/-- The whole-block rectangles the body loads and stores through. -/
abbrev rX : Rect S2048x512 := Rect.unit (s := S2048x512) ![0, 0] S2048x512.size inb_S2048x512_S2048x512_0_0
abbrev rW : Rect S512x128 := Rect.unit (s := S512x128) ![0, 0] S512x128.size inb_S512x128_S512x128_0_0
abbrev rO : Rect S2048x128 := Rect.unit (s := S2048x128) ![0, 0] S2048x128.size inb_S2048x128_S2048x128_0_0

/-- What the body leaves in the output block, from the X block `x` and the matrix `w`: its one store,
    the product of the two loaded blocks, laid over the whole block. -/
def product (x : Vec F S2048x512 .f32) (w : Vec F S512x128 .f32) : Vec F S2048x128 .f32 :=
  View.canon [⟨rO, k0_pay1 (View.ld x rX) (View.ld w rW)⟩]

/-- The one store covers the block. -/
theorem product_cover (p : Vec F S2048x128 .f32) (y : S2048x128.Idx) :
    ∃ pc ∈ ([⟨rO, p⟩] : List (View.Piece (Elt F) S2048x128 .f32)), y ∈ pc.1.set :=
  View.cover_of_tiled [⟨rO, p⟩] S2048x128.size (by rfl) y

set_option maxHeartbeats 1000000 in
/-- The body on whole staging buffers: with the X block at `x`, the matrix at `w` and the output buffer at
    anything, it runs to the continuation with the inputs unchanged and the output at `product x w`. -/
theorem body_triple (c : Dev nD) (E : Set ℕ) (i : grid0.Coords)
    (arg1 : Memref sig .tc .vmem S2048x512 .f32) (harg1 : arg1.IsWhole) (arg2 : Memref sig .tc .vmem S512x128 .f32) (harg2 : arg2.IsWhole)
    (arg3 : Memref sig .tc .vmem S2048x128 .f32) (harg3 : arg3.IsWhole)
    (x : Vec F S2048x512 .f32) (w : Vec F S512x128 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w
            ∗ owns (c : Thread nD τ) arg3 fullShare (product x w)) -∗ K ⟨⟩))
      ⊢ wp frame (wpE (defs₀ (F := F)) Variants.none c none) E (cc0__xw_kernel i arg1 harg1 arg2 harg2 arg3 harg3) K := by
  simp only [cc0__xw_kernel_eq_skeleton]; unfold cc0__xw_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (product_cover _)

/-- The pipeline's proof data on core `c`: the arrays as the region finds them; after the body at point `t`
    each input's buffer still at its block and the output's at the product of the two input blocks; between
    points only the scoped buffers no window stages and the generator register, unread; nothing owed. -/
def dat (c : Dev nD) : Dat τ (Elt F) Unit ℕ (UR sig nD τ) ℕ cfg0 c where
  A w := V c (Pipeline.arrRef spec0 w)
  after w t := match w with
    | ⟨0, _⟩ => blockAt V c 0 t
    | ⟨1, _⟩ => blockAt V c 1 t
    | ⟨2, _⟩ => product (blockAt V c 0 t) (blockAt V c 1 t)
  Φ _ := Pipeline.ΦA spec0 c
  q _ := fullShare
  owed _ := 0

theorem dat_A (c : Dev nD) (w : Fin cfg0.W) : (dat V c).A w = V c (Pipeline.arrRef spec0 w) := by
  dsimp only [dat]
theorem after_0 (c : Dev nD) (t : Fin cfg0.N) : (dat V c).after 0 t = blockAt V c 0 t := by dsimp only [dat]
theorem after_1 (c : Dev nD) (t : Fin cfg0.N) : (dat V c).after 1 t = blockAt V c 1 t := by dsimp only [dat]
theorem after_2 (c : Dev nD) (t : Fin cfg0.N) :
    (dat V c).after 2 t = product (blockAt V c 0 t) (blockAt V c 1 t) := by dsimp only [dat]

/-- An input's staging buffer holds its block at every point, fetched there or not: where the pipeline does
    not fetch, the block index has not moved and the body left the block in place. -/
theorem before_0 (c : Dev nD) (t : Fin cfg0.N) (d) : (dat V c).before 0 t d = blockAt V c 0 t :=
  ((dat V c).before_in_eq_fetched 0 rfl (fun _ => rfl) (fun _ _ _ => rfl)
      (fun t => by rw [after_0]; unfold Dat.blockOf blockAt; rw [dat_A]; try rfl) t d).trans
    (by unfold Dat.fetched Dat.blockOf blockAt; rw [dat_A]; try rfl)
theorem before_1 (c : Dev nD) (t : Fin cfg0.N) (d) : (dat V c).before 1 t d = blockAt V c 1 t :=
  ((dat V c).before_in_eq_fetched 1 rfl (fun _ => rfl) (fun _ _ _ => rfl)
      (fun t => by rw [after_1]; unfold Dat.blockOf blockAt; rw [dat_A]; try rfl) t d).trans
    (by unfold Dat.fetched Dat.blockOf blockAt; rw [dat_A]; try rfl)

/-- What the body is called with at point `t`, window by window, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' buffers hold their blocks, so the triple applies; the invariant and
    what the core owes pass through untouched. -/
theorem body_at (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (body_triple c Set.univ _ _ _ _ _ _ _ (blockAt V c 0 t) (blockAt V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for this pipeline, at every point. -/
theorem body_obligation (c : Dev nD) : BodyObligation (dat (F := F) V c) (defs₀ (F := F)) Variants.none () Set.univ := fun t => by
  rw [bigSep_W0, bigSep_W0]
  exact body_at V c t

end Cert.KernelIdeal.FeatRegion

end
-- ==== Proof.AggRegion.lean ====
/-
  The second pallas_call: the aggregation adj · XW, rectified and scored, on an 8 × 16 grid.

  Grid point (i, k) is handed the 2048 × 1024 block (i, k) of adj, the whole of XW (16384 × 128)
  and the whole 128 × 2 matrix of decoder columns. A 2048 × 128 accumulator lives in a scratch
  buffer of the kernel's own and is CARRIED from point to point: at k = 0 it is zeroed; at every k
  the product of the adj block with rows 1024·k … 1024·k + 1023 of XW is added to it; at k = 15 the
  accumulator, rectified, is multiplied with the decoder columns and stored over the 2048 × 2 output
  block, which the pipeline writes back at those points only (elsewhere the output buffer is handed
  back untouched).

  Stated here, at any float instance: the body's Hoare triple in each of the three situations a
  point can be in (k = 0; 0 < k < 15; k = 15), the accumulator after each point by recursion on the
  point, the invariant that carries it between points, the pipeline's proof data at the contents
  `V` the region is entered with, and the body obligation at every point.
-/
import proofs.«134503_j40699110097055_2_alg».proof.Proof.Gen.KernelIdeal.Launch
import proofs.«134503_j40699110097055_2_alg».proof.Proof.Gen.KernelIdeal.Skeleton
import proofs.«134503_j40699110097055_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.AggRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Zero offsets, however spelt. -/
theorem hz : (![0, 0] : Fin 2 → ℕ) = fun _ => 0 := by
  funext a; match a with | ⟨0, _⟩ => rfl | ⟨1, _⟩ => rfl

/-- The grid point opens a row block's reduction: its second coordinate is 0 (the kernel's own test, as printed). -/
abbrev isFirst (i : grid1.Coords) : Prop :=
  (Scalar.cmpi .ne (Scalar.extui (Scalar.cmpi .eq (BitVec.ofNat 32 (i 1).val) 0#32)) 0#32) = 1#1
/-- The grid point closes a row block's reduction: its second coordinate is 15 (the kernel's own test). -/
abbrev isLast (i : grid1.Coords) : Prop := k1_cond2 i = 1#1

/-- The whole-block rectangles of the body's loads and stores, and the 1024-row slice of XW at the point. -/
abbrev rA : Rect S2048x1024 := Rect.unit (s := S2048x1024) ![0, 0] S2048x1024.size inb_S2048x1024_S2048x1024_0_0
abbrev rS (i : grid1.Coords) : Rect S16384x128 := Rect.unit (s := S16384x128) (k1_off1 i) S1024x128.size (k1_off1_inb i)
abbrev rAcc : Rect S2048x128 := Rect.unit (s := S2048x128) ![0, 0] S2048x128.size inb_S2048x128_S2048x128_0_0
abbrev rD : Rect S128x2 := Rect.unit (s := S128x2) ![0, 0] S128x2.size inb_S128x2_S128x2_0_0
abbrev rP : Rect S2048x2 := Rect.unit (s := S2048x2) ![0, 0] S2048x2.size inb_S2048x2_S2048x2_0_0

/-- One step of the running sum: the accumulator `prev` plus the product of the adjacency block `a` with
    the 1024 rows of XW the point selects. -/
def accStep (a : Vec F S2048x1024 .f32) (xw : Vec F S16384x128 .f32) (i : grid1.Coords) (prev : Vec F S2048x128 .f32) :
    Vec F S2048x128 .f32 :=
  k1_pay2 (View.ld a rA) (View.ld xw (rS i)) prev

/-- The row block's two scores: the rectified accumulator against the two decoder columns. -/
def scoreOut (acc : Vec F S2048x128 .f32) (dc : Vec F S128x2 .f32) : Vec F S2048x2 .f32 :=
  k1_pay3 acc (View.ld dc rD)

/-- A whole-block store made LAST decides what the buffer reads back, whatever was stored before. -/
theorem read_last_whole {sg : RefSig} {κ : Kind} {sp : Space} {S : Shape} {e : EltTy} (v : View sg κ sp S e)
    (f : v.ty.Contents (Elt F)) {off : Fin S.rank → ℕ} (h0 : off = fun _ => 0) (inb : ∀ a, off a + S.size a ≤ S.size a)
    (w : S.Idx → Elt F e) (L : List (View.Piece (Elt F) S e))
    (hcov : ∀ y : S.Idx, ∃ pc ∈ ([⟨Rect.unit off S.size inb, w⟩] : List (View.Piece (Elt F) S e)), y ∈ pc.1.set) :
    v.read (Elt F) (v.writes (Elt F) f (⟨Rect.unit off S.size inb, w⟩ :: L)) = w :=
  (View.read_writes_of_cover_last v f v f ⟨Rect.unit off S.size inb, w⟩ L [] (fun y => by
      obtain ⟨pc, hpc, hy⟩ := hcov y
      rw [List.mem_singleton] at hpc; subst hpc; exact hy)).trans
    ((View.read_writes_eq_canon v f _ hcov).trans (View.canon_unit_zero h0 inb w))

/-! ## The schedule, decided over the 128 grid points -/

/-- A point opens a reduction exactly when its number is a multiple of 16, -/
theorem first_iff : ∀ t : Fin cfg1.N, isFirst (grid1.coords t) ↔ t.val % 16 = 0 :=
  (by decide +kernel : ∀ t : Fin grid1.N, isFirst (grid1.coords t) ↔ t.val % 16 = 0)
/-- and closes one exactly when it is 15 modulo 16. -/
theorem last_iff : ∀ t : Fin cfg1.N, isLast (grid1.coords t) ↔ t.val % 16 = 15 :=
  (by decide +kernel : ∀ t : Fin grid1.N, isLast (grid1.coords t) ↔ t.val % 16 = 15)
/-- The output window is idle, and not written back, at every point that does not close a reduction; -/
theorem out_idle : ∀ t : Fin cfg1.N, ¬ isLast (grid1.coords t) → cfg1.idle 3 (grid1.coords t) = true := by decide +kernel
theorem out_kept : ∀ t : Fin cfg1.N, ¬ isLast (grid1.coords t) → (cfg1.win 3).flush t = false := by decide +kernel
/-- it is live at the points that do. -/
theorem out_live : ∀ t : Fin cfg1.N, isLast (grid1.coords t) → cfg1.idle 3 (grid1.coords t) = false := by decide +kernel

/-! ## The body in its three situations -/

set_option maxHeartbeats 2000000 in
/-- k = 0: whatever the accumulator held, it ends at one step from zero. -/
theorem run_first (c : Dev nD) (E : Set ℕ) (i : grid1.Coords) (hf : isFirst i) (hl : ¬ isLast i)
    (arg2 : Memref sig .tc .vmem S2048x1024 .f32) (harg2 : arg2.IsWhole) (arg3 : Memref sig .tc .vmem S16384x128 .f32) (harg3 : arg3.IsWhole)
    (arg4 : Memref sig .tc .vmem S128x2 .f32) (harg4 : arg4.IsWhole) (arg5 : Memref sig .tc .vmem S2048x2 .f32) (harg5 : arg5.IsWhole)
    (arg6 : Memref sig .tc .vmem S2048x128 .f32) (harg6 : arg6.IsWhole)
    (a : Vec F S2048x1024 .f32) (xw : Vec F S16384x128 .f32) (K : PUnit → sProp 𝕄) :
    iprop(owns (c : Thread nD τ) arg2 fullShare a ∗ owns (c : Thread nD τ) arg3 fullShare xw ∗ (∃ d, owns (c : Thread nD τ) arg6 fullShare d)
        ∗ (iprop(owns (c : Thread nD τ) arg2 fullShare a ∗ owns (c : Thread nD τ) arg3 fullShare xw
            ∗ owns (c : Thread nD τ) arg6 fullShare (accStep a xw i k1_pay1)) -∗ K ⟨⟩))
      ⊢ wp frame (wpE (defs₀ (F := F)) Variants.none c none) E (cc1__main_kernel i arg2 harg2 arg3 harg3 arg4 harg4 arg5 harg5 arg6 harg6) K := by
  simp only [cc1__main_kernel_eq_skeleton]; unfold cc1__main_kernel_skel
  unfold owns
  iintro ⟨⟨%f0, %hf0, H0⟩, ⟨%f1, %hf1, H1⟩, ⟨%d2, %f2, -, H2⟩, Hk⟩
  subst hf0; subst hf1
  sl_exec (disch := first | exact hf | exact hl)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (read_last_whole _ _ hz _ _ _ (View.cover_of_tiled _ S2048x128.size (by rfl))).trans ?_
  sl_unfold_run_names
  rw [View.readCov_unit_zero _ hz]
  rfl

set_option maxHeartbeats 2000000 in
/-- 0 < k < 15: the accumulator advances one step from what the point before left. -/
theorem run_mid (c : Dev nD) (E : Set ℕ) (i : grid1.Coords) (hf : ¬ isFirst i) (hl : ¬ isLast i)
    (arg2 : Memref sig .tc .vmem S2048x1024 .f32) (harg2 : arg2.IsWhole) (arg3 : Memref sig .tc .vmem S16384x128 .f32) (harg3 : arg3.IsWhole)
    (arg4 : Memref sig .tc .vmem S128x2 .f32) (harg4 : arg4.IsWhole) (arg5 : Memref sig .tc .vmem S2048x2 .f32) (harg5 : arg5.IsWhole)
    (arg6 : Memref sig .tc .vmem S2048x128 .f32) (harg6 : arg6.IsWhole)
    (a : Vec F S2048x1024 .f32) (xw : Vec F S16384x128 .f32) (prev : Vec F S2048x128 .f32) (K : PUnit → sProp 𝕄) :
    iprop(owns (c : Thread nD τ) arg2 fullShare a ∗ owns (c : Thread nD τ) arg3 fullShare xw ∗ owns (c : Thread nD τ) arg6 fullShare prev
        ∗ (iprop(owns (c : Thread nD τ) arg2 fullShare a ∗ owns (c : Thread nD τ) arg3 fullShare xw
            ∗ owns (c : Thread nD τ) arg6 fullShare (accStep a xw i prev)) -∗ K ⟨⟩))
      ⊢ wp frame (wpE (defs₀ (F := F)) Variants.none c none) E (cc1__main_kernel i arg2 harg2 arg3 harg3 arg4 harg4 arg5 harg5 arg6 harg6) K := by
  simp only [cc1__main_kernel_eq_skeleton]; unfold cc1__main_kernel_skel
  unfold owns
  iintro ⟨⟨%f0, %hf0, H0⟩, ⟨%f1, %hf1, H1⟩, ⟨%f6, %hf6, H6⟩, Hk⟩
  subst hf0; subst hf1; subst hf6
  sl_exec (disch := first | exact hf | exact hl)
  sl_step
  iapply Hk
  isplitl [H0]
  · iexists f0; isplitr; · ipureintro; rfl
    iexact H0
  isplitl [H1]
  · iexists f1; isplitr; · ipureintro; rfl
    iexact H1
  iexists _; isplitr
  swap; · iexact H6
  ipureintro
  sl_unfold_run_names
  refine (read_last_whole _ _ hz _ _ _ (View.cover_of_tiled _ S2048x128.size (by rfl))).trans ?_
  simp only [View.readAt_eq_ld, View.ld_unit_zero (S := S2048x128) hz]
  rfl

set_option maxHeartbeats 2000000 in
/-- k = 15: the accumulator advances one last step, and the output block receives the scores of the
    accumulator so completed. -/
theorem run_last (c : Dev nD) (E : Set ℕ) (i : grid1.Coords) (hf : ¬ isFirst i) (hl : isLast i)
    (arg2 : Memref sig .tc .vmem S2048x1024 .f32) (harg2 : arg2.IsWhole) (arg3 : Memref sig .tc .vmem S16384x128 .f32) (harg3 : arg3.IsWhole)
    (arg4 : Memref sig .tc .vmem S128x2 .f32) (harg4 : arg4.IsWhole) (arg5 : Memref sig .tc .vmem S2048x2 .f32) (harg5 : arg5.IsWhole)
    (arg6 : Memref sig .tc .vmem S2048x128 .f32) (harg6 : arg6.IsWhole)
    (a : Vec F S2048x1024 .f32) (xw : Vec F S16384x128 .f32) (dc : Vec F S128x2 .f32) (prev : Vec F S2048x128 .f32) (K : PUnit → sProp 𝕄) :
    iprop(owns (c : Thread nD τ) arg2 fullShare a ∗ owns (c : Thread nD τ) arg3 fullShare xw ∗ owns (c : Thread nD τ) arg4 fullShare dc
        ∗ (∃ d, owns (c : Thread nD τ) arg5 fullShare d) ∗ owns (c : Thread nD τ) arg6 fullShare prev
        ∗ (iprop(owns (c : Thread nD τ) arg2 fullShare a ∗ owns (c : Thread nD τ) arg3 fullShare xw ∗ owns (c : Thread nD τ) arg4 fullShare dc
            ∗ owns (c : Thread nD τ) arg5 fullShare (scoreOut (accStep a xw i prev) dc)
            ∗ owns (c : Thread nD τ) arg6 fullShare (accStep a xw i prev)) -∗ K ⟨⟩))
      ⊢ wp frame (wpE (defs₀ (F := F)) Variants.none c none) E (cc1__main_kernel i arg2 harg2 arg3 harg3 arg4 harg4 arg5 harg5 arg6 harg6) K := by
  simp only [cc1__main_kernel_eq_skeleton]; unfold cc1__main_kernel_skel
  unfold owns
  iintro ⟨⟨%f0, %hf0, H0⟩, ⟨%f1, %hf1, H1⟩, ⟨%f4, %hf4, H4⟩, ⟨%d5, %f5, -, H5⟩, ⟨%f6, %hf6, H6⟩, Hk⟩
  subst hf0; subst hf1; subst hf4; subst hf6
  sl_exec (disch := first | exact hf | exact hl)
  sl_step
  iapply Hk
  isplitl [H0]
  · iexists f0; isplitr; · ipureintro; rfl
    iexact H0
  isplitl [H1]
  · iexists f1; isplitr; · ipureintro; rfl
    iexact H1
  isplitl [H4]
  · iexists f4; isplitr; · ipureintro; rfl
    iexact H4
  isplitl [H5]
  · iexists _; isplitr
    swap; · iexact H5
    ipureintro
    sl_unfold_run_names
    refine (read_last_whole _ _ hz _ _ _ (View.cover_of_tiled _ S2048x2.size (by rfl))).trans ?_
    rw [View.readCov_unit_zero _ hz]
    simp only [View.readAt_eq_ld, View.ld_unit_zero (S := S2048x128) hz]
    rfl
  iexists _; isplitr
  swap; · iexact H6
  ipureintro
  sl_unfold_run_names
  refine (read_last_whole _ _ hz _ _ _ (View.cover_of_tiled _ S2048x128.size (by rfl))).trans ?_
  simp only [View.readAt_eq_ld, View.ld_unit_zero (S := S2048x128) hz]
  rfl

/-! ## The accumulator, point by point -/

-- the contents of the core's buffers when the region is entered
variable (V : (c : Dev nD) → (b : Ref sig .tc) → Buf (Elt F) ((c : Thread nD τ).loc b))

/-- The block of window `w` at grid point `t`, read off the window's array as the region finds it. -/
def blockAt (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

/-- The scratch buffer that holds the accumulator, as the memref the body is called with. -/
abbrev scr : Memref sig .tc .vmem S2048x128 .f32 := Memref.whole cc1_scratch0

/-- The accumulator after point `n`: one step from zero where the point opens a reduction, one step from
    what the point before left elsewhere. -/
def accAfter (c : Dev nD) : (n : ℕ) → n < cfg1.N → Vec F S2048x128 .f32
  | 0, h => accStep (blockAt V c 0 ⟨0, h⟩) (blockAt V c 1 ⟨0, h⟩) (grid1.coords ⟨0, h⟩) k1_pay1
  | n + 1, h => accStep (blockAt V c 0 ⟨n + 1, h⟩) (blockAt V c 1 ⟨n + 1, h⟩) (grid1.coords ⟨n + 1, h⟩)
      (if (n + 1) % 16 = 0 then k1_pay1 else accAfter c n (Nat.lt_of_succ_lt h))

theorem accAfter_first (c : Dev nD) (t : Fin cfg1.N) (h : t.val % 16 = 0) :
    accAfter V c t.val t.isLt = accStep (blockAt V c 0 t) (blockAt V c 1 t) (grid1.coords t) k1_pay1 := by
  obtain ⟨n, hn⟩ := t
  cases n with
  | zero => rfl
  | succ n => simp only [accAfter]; rw [if_pos h]

theorem accAfter_next (c : Dev nD) (t : Fin cfg1.N) (h : ¬ t.val % 16 = 0) :
    accAfter V c t.val t.isLt = accStep (blockAt V c 0 t) (blockAt V c 1 t) (grid1.coords t)
      (accAfter V c (t.val - 1) (Nat.lt_of_le_of_lt (Nat.sub_le _ _) t.isLt)) := by
  obtain ⟨n, hn⟩ := t
  cases n with
  | zero => exact absurd rfl h
  | succ n => simp only [accAfter]; rw [if_neg h]; rfl

/-! ## The invariant between points -/

/-- The core's scoped buffers that are neither a staging buffer of this pipeline nor the accumulator's
    scratch (the first pallas_call's five staging buffers), each at some contents. -/
def otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))

/-- A whole scoped buffer's points-to is the memref owned at those contents, -/
theorem scr_of_pts (c : Dev nD) (f : Buf (Elt F) ((c : Thread nD τ).loc cc1_scratch0)) :
    (((c : Thread nD τ).loc cc1_scratch0) ↦{fullShare} f : sProp 𝕄) ⊢ owns (c : Thread nD τ) scr fullShare f := by
  rw [owns_whole]
/-- and back. -/
theorem pts_of_scr (c : Dev nD) (f : Buf (Elt F) ((c : Thread nD τ).loc cc1_scratch0)) :
    (owns (c : Thread nD τ) scr fullShare f : sProp 𝕄) ⊢ ((c : Thread nD τ).loc cc1_scratch0) ↦{fullShare} f := by
  rw [owns_whole]

/-- The region's scoped rest is those five and the scratch, -/
theorem scoped_split (c : Dev nD) :
    (Pipeline.scopedRest (Ix := Unit) (Name := ℕ) (U := UR sig nD τ) (Lvl := ℕ) (Val := Elt F) spec1 c : sProp 𝕄)
      ⊢ iprop(otherScoped c ∗ ∃ d, owns (c : Thread nD τ) scr fullShare d) := by
  rw [scopedRest1_eq]; unfold otherScoped
  iintro ⟨A, B, C, D, E', ⟨%f, S⟩⟩
  isplitl [A B C D E']
  · isplitl [A]; · iexact A
    isplitl [B]; · iexact B
    isplitl [C]; · iexact C
    isplitl [D]; · iexact D
    iexact E'
  iexists f; iapply (scr_of_pts c f); iexact S

/-- and back. -/
theorem scoped_join (c : Dev nD) :
    iprop(otherScoped c ∗ ∃ d, owns (c : Thread nD τ) scr fullShare d)
      ⊢ (Pipeline.scopedRest (Ix := Unit) (Name := ℕ) (U := UR sig nD τ) (Lvl := ℕ) (Val := Elt F) spec1 c : sProp 𝕄) := by
  rw [scopedRest1_eq]; unfold otherScoped
  iintro ⟨⟨A, B, C, D, E'⟩, ⟨%d, S⟩⟩
  isplitl [A]; · iexact A
  isplitl [B]; · iexact B
  isplitl [C]; · iexact C
  isplitl [D]; · iexact D
  isplitl [E']; · iexact E'
  iexists d; iapply (pts_of_scr c d); iexact S

/-- Before point `n`: the other scoped buffers, the scratch — at anything before the first point, then at
    the accumulator the point before left —, and the generator register at some state. -/
def inv (c : Dev nD) : (n : ℕ) → n ≤ cfg1.N → sProp 𝕄
  | 0, _ => iprop((otherScoped c ∗ ∃ d, owns (c : Thread nD τ) scr fullShare d) ∗ ∃ r, prngReg c r)
  | n + 1, hn => iprop((otherScoped c ∗ owns (c : Thread nD τ) scr fullShare (accAfter V c n hn)) ∗ ∃ r, prngReg c r)

theorem inv_zero (c : Dev nD) (h : 0 ≤ cfg1.N) :
    inv V c 0 h = iprop((otherScoped c ∗ ∃ d, owns (c : Thread nD τ) scr fullShare d) ∗ ∃ r, prngReg c r) := rfl

theorem inv_succ (c : Dev nD) (n : ℕ) (hn : n < cfg1.N) :
    inv V c (n + 1) hn = iprop((otherScoped c ∗ owns (c : Thread nD τ) scr fullShare (accAfter V c n hn)) ∗ ∃ r, prngReg c r) := rfl

theorem inv_pos (c : Dev nD) (n : ℕ) (h : n ≤ cfg1.N) (hz : n ≠ 0) :
    inv V c n h = iprop((otherScoped c ∗ owns (c : Thread nD τ) scr fullShare
      (accAfter V c (n - 1) (Nat.lt_of_lt_of_le (Nat.sub_lt (Nat.pos_of_ne_zero hz) Nat.one_pos) h))) ∗ ∃ r, prngReg c r) := by
  cases n with
  | zero => exact absurd rfl hz
  | succ n => rfl

/-- Whatever the point, the invariant before it holds the scratch at SOME contents. -/
theorem inv_forget (c : Dev nD) (n : ℕ) (h : n ≤ cfg1.N) :
    inv V c n h ⊢ iprop((otherScoped c ∗ ∃ d, owns (c : Thread nD τ) scr fullShare d) ∗ ∃ r, prngReg c r) := by
  cases n with
  | zero => exact BI.Entails.refl _
  | succ n =>
    rw [inv_succ]
    iintro ⟨⟨R, S⟩, G⟩
    isplitl [R S]
    · isplitl [R]; · iexact R
      iexists _; iexact S
    iexact G

/-! ## The pipeline's proof data -/

/-- The proof data on core `c`: the arrays as the region finds them; after the body each input's buffer
    still at its block, the output's at the scores of the accumulator the point leaves (consulted only at the
    points that close a reduction: elsewhere the window is idle); the invariant above; nothing owed. -/
def dat (c : Dev nD) : Dat τ (Elt F) Unit ℕ (UR sig nD τ) ℕ cfg1 c where
  A w := V c (Pipeline.arrRef spec1 w)
  after w t := match w with
    | ⟨0, _⟩ => blockAt V c 0 t
    | ⟨1, _⟩ => blockAt V c 1 t
    | ⟨2, _⟩ => blockAt V c 2 t
    | ⟨3, _⟩ => scoreOut (accAfter V c t.val t.isLt) (blockAt V c 2 t)
  Φ t := inv V c t.val (Nat.le_of_lt_succ t.isLt)
  q _ := fullShare
  owed _ := 0

theorem dat_A (c : Dev nD) (w : Fin cfg1.W) : (dat V c).A w = V c (Pipeline.arrRef spec1 w) := by
  dsimp only [dat]
theorem after_0 (c : Dev nD) (t : Fin cfg1.N) : (dat V c).after 0 t = blockAt V c 0 t := by dsimp only [dat]
theorem after_1 (c : Dev nD) (t : Fin cfg1.N) : (dat V c).after 1 t = blockAt V c 1 t := by dsimp only [dat]
theorem after_2 (c : Dev nD) (t : Fin cfg1.N) : (dat V c).after 2 t = blockAt V c 2 t := by dsimp only [dat]
theorem after_3 (c : Dev nD) (t : Fin cfg1.N) :
    (dat V c).after 3 t = scoreOut (accAfter V c t.val t.isLt) (blockAt V c 2 t) := by dsimp only [dat]

theorem inv_before (c : Dev nD) (t : Fin cfg1.N) :
    (dat V c).Φ t.castSucc = inv V c t.val (Nat.le_of_lt t.isLt) := by
  dsimp only [dat]; simp only [Fin.coe_castSucc]

/-- An input's staging buffer holds its block at every point, fetched there or not. -/
theorem before_0 (c : Dev nD) (t : Fin cfg1.N) (d) : (dat V c).before 0 t d = blockAt V c 0 t :=
  ((dat V c).before_in_eq_fetched 0 rfl (fun _ => rfl) (fun _ _ _ => rfl)
      (fun t => by rw [after_0]; unfold Dat.blockOf blockAt; rw [dat_A]; try rfl) t d).trans
    (by unfold Dat.fetched Dat.blockOf blockAt; rw [dat_A]; try rfl)
theorem before_1 (c : Dev nD) (t : Fin cfg1.N) (d) : (dat V c).before 1 t d = blockAt V c 1 t :=
  ((dat V c).before_in_eq_fetched 1 rfl (fun _ => rfl) (fun _ _ _ => rfl)
      (fun t => by rw [after_1]; unfold Dat.blockOf blockAt; rw [dat_A]; try rfl) t d).trans
    (by unfold Dat.fetched Dat.blockOf blockAt; rw [dat_A]; try rfl)
theorem before_2 (c : Dev nD) (t : Fin cfg1.N) (d) : (dat V c).before 2 t d = blockAt V c 2 t :=
  ((dat V c).before_in_eq_fetched 2 rfl (fun _ => rfl) (fun _ _ _ => rfl)
      (fun t => by rw [after_2]; unfold Dat.blockOf blockAt; rw [dat_A]; try rfl) t d).trans
    (by unfold Dat.fetched Dat.blockOf blockAt; rw [dat_A]; try rfl)

/-- The inputs' windows are never idle: the body's post for them is their buffer at `after`. -/
theorem leaves_in (c : Dev nD) (t : Fin cfg1.N) :
    (dat V c).leavesExact 0 t = owns (c : Thread nD τ) (st1_0 t) fullShare (blockAt V c 0 t)
    ∧ (dat V c).leavesExact 1 t = owns (c : Thread nD τ) (st1_1 t) fullShare (blockAt V c 1 t)
    ∧ (dat V c).leavesExact 2 t = owns (c : Thread nD τ) (st1_2 t) fullShare (blockAt V c 2 t) :=
  ⟨by rw [← after_0], by rw [← after_1], by rw [← after_2]⟩

/-! ## The body obligation -/

/-- What the body is called with at point `t`, window by window, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

set_option maxHeartbeats 4000000 in
/-- The body at any point. The inputs' buffers hold their blocks; the point's number modulo 16 says which of
    the three situations it is in; the invariant hands the body the scratch (at anything where a reduction
    opens, at the accumulator the point before left elsewhere) and takes it back at this point's accumulator;
    where no reduction closes the output buffer is handed back as found; nothing is owed throughout. -/
theorem body_at (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl,
    show (dat V c).Φ t.succ = inv V c (t.val + 1) t.isLt from rfl, inv_succ,
    (leaves_in V c t).1, (leaves_in V c t).2.1, (leaves_in V c t).2.2, inv_before]
  have hN : t.val < 128 := lt_of_lt_of_eq t.isLt (show cfg1.N = 128 from N_1)
  by_cases h0 : t.val % 16 = 0
  · -- a reduction opens here
    have hF : isFirst (grid1.coords t) := (first_iff t).mpr h0
    have hL : ¬ isLast (grid1.coords t) := fun h => by have := (last_iff t).mp h; omega
    rw [Dat.leavesExact_idle (dat V c) 3 t (out_idle t hL) (out_kept t hL), accAfter_first V c t h0]
    iintro ⟨HΦ, Ho, ⟨%d0, H0⟩, ⟨%d1, H1⟩, ⟨%d2, H2⟩, H3⟩
    ihave HΦ' := (inv_forget V c t.val (Nat.le_of_lt t.isLt)) $$ HΦ
    icases HΦ' with ⟨⟨R, S⟩, G⟩
    iapply (run_first c Set.univ (grid1.coords t) hF hL _ _ _ _ _ _ _ _ _ _ (blockAt V c 0 t) (blockAt V c 1 t) _)
    isplitl [H0]; · iexact H0
    isplitl [H1]; · iexact H1
    isplitl [S]; · iexact S
    iintro ⟨H0, H1, S⟩
    isplitl [R S G]
    · isplitl [R S]
      · isplitl [R]; · iexact R
        iexact S
      iexact G
    isplitl [Ho]; · iexact Ho
    isplitl [H0]; · iexact H0
    isplitl [H1]; · iexact H1
    isplitl [H2]; · iexact H2
    iexact H3
  · have hF : ¬ isFirst (grid1.coords t) := fun h => h0 ((first_iff t).mp h)
    have hz : t.val ≠ 0 := fun h => h0 (by rw [h])
    rw [inv_pos V c _ _ hz, accAfter_next V c t h0]
    by_cases h15 : t.val % 16 = 15
    · -- a reduction closes here
      have hL : isLast (grid1.coords t) := (last_iff t).mpr h15
      rw [show (dat V c).leavesExact 3 t = owns (c : Thread nD τ) (st1_3 t) fullShare ((dat V c).after 3 t) from by
        unfold Dat.leavesExact; rw [out_live t hL], after_3, accAfter_next V c t h0]
      iintro ⟨⟨⟨R, S⟩, G⟩, Ho, ⟨%d0, H0⟩, ⟨%d1, H1⟩, ⟨%d2, H2⟩, ⟨%d3, H3⟩⟩
      iapply (run_last c Set.univ (grid1.coords t) hF hL _ _ _ _ _ _ _ _ _ _ (blockAt V c 0 t) (blockAt V c 1 t) (blockAt V c 2 t) _ _)
      isplitl [H0]; · iexact H0
      isplitl [H1]; · iexact H1
      isplitl [H2]; · iexact H2
      isplitl [H3]; · iexists _; iexact H3
      isplitl [S]; · iexact S
      iintro ⟨H0, H1, H2, H3, S⟩
      isplitl [R S G]
      · isplitl [R S]
        · isplitl [R]; · iexact R
          iexact S
        iexact G
      isplitl [Ho]; · iexact Ho
      isplitl [H0]; · iexact H0
      isplitl [H1]; · iexact H1
      isplitl [H2]; · iexact H2
      iexact H3
    · -- in the middle of a reduction
      have hL : ¬ isLast (grid1.coords t) := fun h => h15 ((last_iff t).mp h)
      rw [Dat.leavesExact_idle (dat V c) 3 t (out_idle t hL) (out_kept t hL)]
      iintro ⟨⟨⟨R, S⟩, G⟩, Ho, ⟨%d0, H0⟩, ⟨%d1, H1⟩, ⟨%d2, H2⟩, H3⟩
      iapply (run_mid c Set.univ (grid1.coords t) hF hL _ _ _ _ _ _ _ _ _ _ (blockAt V c 0 t) (blockAt V c 1 t) _ _)
      isplitl [H0]; · iexact H0
      isplitl [H1]; · iexact H1
      isplitl [S]; · iexact S
      iintro ⟨H0, H1, S⟩
      isplitl [R S G]
      · isplitl [R S]
        · isplitl [R]; · iexact R
          iexact S
        iexact G
      isplitl [Ho]; · iexact Ho
      isplitl [H0]; · iexact H0
      isplitl [H1]; · iexact H1
      isplitl [H2]; · iexact H2
      iexact H3

/-- The library's body obligation for this pipeline, at every point. -/
theorem body_obligation (c : Dev nD) : BodyObligation (dat (F := F) V c) (defs₀ (F := F)) Variants.none () Set.univ := fun t => by
  rw [bigSep_W1, bigSep_W1]
  exact body_at V c t

/-- Entering the region: its scoped rest and the generator register make the invariant before the first point. -/
theorem enter (c : Dev nD) :
    iprop((Pipeline.scopedRest (Ix := Unit) (Name := ℕ) (U := UR sig nD τ) (Lvl := ℕ) (Val := Elt F) spec1 c : sProp 𝕄)
      ∗ ∃ r, prngReg c r) ⊢ (dat V c).Φ 0 := by
  rw [show (dat V c).Φ 0 = inv V c 0 (Nat.zero_le _) from rfl, inv_zero]
  iintro ⟨Hr, G⟩
  ihave Hs := (scoped_split c) $$ Hr
  isplitl [Hs]; · iexact Hs
  iexact G

/-- Leaving it: after the last point the accumulator's contents are forgotten and the scoped rest is whole again. -/
theorem leave (c : Dev nD) :
    (dat V c).Φ (Fin.last cfg1.N) ⊢ iprop((Pipeline.scopedRest (Ix := Unit) (Name := ℕ) (U := UR sig nD τ) (Lvl := ℕ) (Val := Elt F) spec1 c : sProp 𝕄)
      ∗ ∃ r, prngReg c r) := by
  rw [show (dat V c).Φ (Fin.last cfg1.N) = inv V c (Fin.last cfg1.N).val (Nat.le_of_lt_succ (Fin.last cfg1.N).isLt) from rfl]
  iintro H
  ihave H' := (inv_forget V c _ _) $$ H
  icases H' with ⟨Hs, G⟩
  isplitl [Hs]; · iapply (scoped_join c); iexact Hs
  iexact G

end Cert.KernelIdeal.AggRegion

end
-- ==== Proof.MainRun.lean ====
/-
  The whole program as a run: host operations, the two pallas_calls, host operations.

  @main is four segments in order — the five host operations that collapse the decoder into two
  columns, the feature product X · W, the aggregation with its scores, and the thirty-seven host
  operations that gather the two scores of every edge and apply the logistic function. Between
  segments every core holds all of its unscoped buffers at named contents: the launch memory, then
  what the host operations compute from it, then each pallas_call's output array at what its
  write-backs leave (every other buffer as it was). Each pallas_call is entered from that state,
  hands its windows' arrays to the pipeline, lends the generator register to the kernel's
  invariant, and gives everything back at its exit. The run below says that every weakly fair
  execution terminates, faults nowhere, and ends with every unscoped buffer at the last of those
  contents; the claims read the arguments and the result off it.
-/
import proofs.«134503_j40699110097055_2_alg».proof.Proof.Gen.KernelIdeal.Launch
import proofs.«134503_j40699110097055_2_alg».proof.Proof.Gen.KernelIdeal.Skeleton
import proofs.«134503_j40699110097055_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«134503_j40699110097055_2_alg».proof.Proof.Gen.KernelIdeal.Regions
import proofs.«134503_j40699110097055_2_alg».proof.Proof.FeatRegion
import proofs.«134503_j40699110097055_2_alg».proof.Proof.AggRegion

set_option maxRecDepth 16384

noncomputable section

namespace Cert.KernelIdeal.MainRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev atLaunch (c : Dev nD) : Valuation τ sig (Elt F) := fun b => m (c, b)
/-- After the host operations that precede the pallas_calls. -/
abbrev afterPrefix (c : Dev nD) : Valuation τ sig (Elt F) := StableHlo.after hostOps0 (atLaunch m c)
/-- The same, read at the TensorCore's references: what the first pallas_call is entered with. -/
abbrev entry0 (c : Dev nD) (b : Ref sig .tc) : Buf (Elt F) ((c : Thread nD τ).loc b) := afterPrefix m c b
/-- After the feature product: its arrays at what the pipeline leaves, every other buffer as entered. -/
def afterFeat (c : Dev nD) : Valuation τ sig (Elt F) :=
  Pipeline.withArrays spec0 c (afterPrefix m c) fun w => (FeatRegion.dat (entry0 m) c).arrAt w cfg0.N
/-- What the aggregation is entered with. -/
abbrev entry1 (c : Dev nD) (b : Ref sig .tc) : Buf (Elt F) ((c : Thread nD τ).loc b) := afterFeat m c b
/-- After the aggregation. -/
def afterAgg (c : Dev nD) : Valuation τ sig (Elt F) :=
  Pipeline.withArrays spec1 c (afterFeat m c) fun w => (AggRegion.dat (entry1 m) c).arrAt w cfg1.N
/-- The same at the TensorCore's references. -/
abbrev exit1 (c : Dev nD) (b : Ref sig .tc) : Buf (Elt F) ((c : Thread nD τ).loc b) := afterAgg m c b
/-- At the end: after the host operations that follow the pallas_calls. -/
abbrev atEnd (c : Dev nD) : Valuation τ sig (Elt F) := StableHlo.after hostOps2 (afterAgg m c)

theorem afterFeat_at (c : Dev nD) (w : Fin cfg0.W) :
    afterFeat m c (Proc.devRef .tc (Pipeline.arrRef spec0 w)) = (FeatRegion.dat (entry0 m) c).arrAt w cfg0.N := by
  unfold afterFeat; exact Pipeline.withArrays_arr spec0 launch0.win.arr_inj c _ _ w
theorem afterFeat_else (c : Dev nD) (b : Ref sig .tc) (hb : ∀ w, Pipeline.arrRef spec0 w ≠ b) :
    afterFeat m c (Proc.devRef .tc b) = afterPrefix m c (Proc.devRef .tc b) := by
  unfold afterFeat; exact Pipeline.withArrays_of_ne spec0 c _ _ b hb
theorem afterAgg_at (c : Dev nD) (w : Fin cfg1.W) :
    afterAgg m c (Proc.devRef .tc (Pipeline.arrRef spec1 w)) = (AggRegion.dat (entry1 m) c).arrAt w cfg1.N := by
  unfold afterAgg; exact Pipeline.withArrays_arr spec1 launch1.win.arr_inj c _ _ w
theorem afterAgg_else (c : Dev nD) (b : Ref sig .tc) (hb : ∀ w, Pipeline.arrRef spec1 w ≠ b) :
    afterAgg m c (Proc.devRef .tc b) = afterFeat m c (Proc.devRef .tc b) := by
  unfold afterAgg; exact Pipeline.withArrays_of_ne spec1 c _ _ b hb

/-- What each pallas_call's exit state needs: its arrays at what the pipeline leaves, the rest untouched. -/
theorem entry1_arr (c : Dev nD) (w : Fin cfg0.W) :
    (FeatRegion.dat (entry0 m) c).arrAt w cfg0.N = entry1 m c (Pipeline.arrRef spec0 w) := (afterFeat_at m c w).symm
theorem entry1_rest (c : Dev nD) : ∀ b, b ∉ Finset.univ.image (Pipeline.arrRef spec0) → entry1 m c b = entry0 m c b :=
  fun b hb => afterFeat_else m c b fun w e => hb (Finset.mem_image.mpr ⟨w, Finset.mem_univ _, e⟩)
theorem exit1_arr (c : Dev nD) (w : Fin cfg1.W) :
    (AggRegion.dat (entry1 m) c).arrAt w cfg1.N = exit1 m c (Pipeline.arrRef spec1 w) := (afterAgg_at m c w).symm
theorem exit1_rest (c : Dev nD) : ∀ b, b ∉ Finset.univ.image (Pipeline.arrRef spec1) → exit1 m c b = entry1 m c b :=
  fun b hb => afterAgg_else m c b fun w e => hb (Finset.mem_image.mpr ⟨w, Finset.mem_univ _, e⟩)

/-! ## The proof data of both pipelines, and what rides beside the buffers -/

/-- Neither pallas_call has a prefetched table. -/
abbrev tables : (p : Fin 2) → (pcfgs (F := F) p).Adm := fun p => (cfgs p).toPCfg_adm

/-- Each pipeline's proof data at its own entry contents. -/
def pdats : (p : Fin 2) → (c : Dev nD) → Dat τ (Elt F) Unit ℕ (UR sig nD τ) ℕ (Pipeline.pin (pcfgs (F := F)) tables p) c
  | ⟨0, _⟩ => fun c => FeatRegion.dat (entry0 m) c
  | ⟨1, _⟩ => fun c => AggRegion.dat (entry1 m) c

abbrev noVariants : Variants := Variants.none
/-- No core owes another anything: no level is assigned. -/
abbrev noLevels : GSem nD τ sig → Finset Unit := fun _ => ∅
abbrev noLevel : GSem nD τ sig → Unit → ℕ := fun _ _ => 0

/-- Beside the buffers every segment carries the generator register at some state and the core owing nothing. -/
abbrev riding (c : Dev nD) : sProp 𝕄 :=
  iprop((∃ r, prngReg c r) ∗ ∃ W, owes (c : Thread nD τ) (0 : CellTallies nD τ sig Unit) W)

/-- A stretch of host operations as a segment, from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noLevels noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W riding

/-! ## The pallas_calls as segments

Each is entered from every unscoped buffer at its entry contents and left at its exit contents. At the entry
the windows' arrays are split out of the unscoped buffers and the generator register goes into the kernel's
invariant; at the exit both come back. The kernels have no semaphore of their own and owe nothing. -/

-- a library lemma stated over the pinned configuration unifies with the printed one only when unification may
-- unfold plain definitions in a metavariable's type
set_option backward.isDefEq.respectTransparency.types false in
def featSeg : Pipeline.RegionSeg (pcfgs (F := F)) tables (pdats m) () defs₀ noVariants noLevels noLevel 0 where
  win := launch0.win.to₀
  block_pos := launch0.block_pos
  stage_whole := launch0.stage_whole
  K := PEmpty
  osem k := k.elim
  ho := Pipeline.OwnSemFacts.none _
  hbody c := (FeatRegion.body_obligation (entry0 m) c).loose
  hwaits := Pipeline.hwaits_of_owed_zero _ _ _ _ noLevels noLevel 0 fun _ _ => rfl
  pre c := iprop(StableHlo.held (c : Thread nD τ) (Pipeline.ucRefs τ sig) (afterPrefix m c) ∗ riding c)
  post c := iprop(StableHlo.held (c : Thread nD τ) (Pipeline.ucRefs τ sig) (afterFeat m c) ∗ riding c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) tables (pdats m) launch0.win launch0.arr_whole c
      ((pdats m 0 c).share_full fun _ => rfl) (entry0 m c) fun _ => rfl
    rw [Pipeline.unscopedBufs_held] at hsplit
    iintro ⟨⟨Hbufs, Hg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hg]; · iexact Hg
    iexact Hrest
  hin c := by
    rw [show (pdats m 0 c).Φ 0 = Pipeline.ΦA spec0 c from rfl]; unfold Pipeline.ΦA
    iintro ⟨Hg, -, Hr⟩
    isplitl [Hr]; · iexact Hr
    iexact Hg
  hout c := by
    rw [Pipeline.ownSems0_none, show (pdats m 0 c).Φ (Fin.last _) = Pipeline.ΦA spec0 c from rfl]; unfold Pipeline.ΦA
    iintro ⟨Hr, Hg⟩
    isplitl [Hg]; · iexact Hg
    isplitr; · iempintro
    iexact Hr
  hexit c := by
    have hjoin := Pipeline.unscopedBufs_of_arrays (p := 0) (pcfgs (F := F)) tables (Ix := Unit) (Name := ℕ) (U := UR sig nD τ) (Lvl := ℕ)
      launch0.win launch0.arr_whole c (pdats m) ((pdats m 0 c).share_full fun _ => rfl)
      (entry0 m c) (entry1 m c) ((pdats m 0 c).arrAt · cfg0.N) (entry1_arr m c) (entry1_rest m c)
    rw [Pipeline.unscopedBufs_held] at hjoin
    iintro ⟨Harr, Howes, Hg, Hrest⟩
    imodintro
    isplitl [Harr Hrest]
    · iapply hjoin; isplitl [Harr] <;> iassumption
    isplitl [Hg]; · iexact Hg
    unfold Pipeline.Dat.owesAt Pipeline.owesWithin
    icases Howes with ⟨%W, -, Howes⟩; iexists W; iexact Howes

-- a library lemma stated over the pinned configuration unifies with the printed one only when unification may
-- unfold plain definitions in a metavariable's type
set_option backward.isDefEq.respectTransparency.types false in
def aggSeg : Pipeline.RegionSeg (pcfgs (F := F)) tables (pdats m) () defs₀ noVariants noLevels noLevel 1 where
  win := launch1.win.to₀
  block_pos := launch1.block_pos
  stage_whole := launch1.stage_whole
  K := PEmpty
  osem k := k.elim
  ho := Pipeline.OwnSemFacts.none _
  hbody c := (AggRegion.body_obligation (entry1 m) c).loose
  hwaits := Pipeline.hwaits_of_owed_zero _ _ _ _ noLevels noLevel 1 fun _ _ => rfl
  pre c := iprop(StableHlo.held (c : Thread nD τ) (Pipeline.ucRefs τ sig) (afterFeat m c) ∗ riding c)
  post c := iprop(StableHlo.held (c : Thread nD τ) (Pipeline.ucRefs τ sig) (afterAgg m c) ∗ riding c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) tables (pdats m) launch1.win launch1.arr_whole c
      ((pdats m 1 c).share_full fun _ => rfl) (entry1 m c) fun _ => rfl
    rw [Pipeline.unscopedBufs_held] at hsplit
    iintro ⟨⟨Hbufs, Hg, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hg]; · iexact Hg
    iexact Hrest
  hin c := by
    rw [show (pdats m 1 c).Φ 0 = (AggRegion.dat (entry1 m) c).Φ 0 from rfl]
    iintro ⟨Hg, -, Hr⟩
    iapply (AggRegion.enter (entry1 m) c)
    isplitl [Hr]; · iexact Hr
    iexact Hg
  hout c := by
    rw [Pipeline.ownSems0_none, show (pdats m 1 c).Φ (Fin.last _) = (AggRegion.dat (entry1 m) c).Φ (Fin.last cfg1.N) from rfl]
    iintro H
    ihave H' := (AggRegion.leave (entry1 m) c) $$ H
    icases H' with ⟨Hr, Hg⟩
    isplitl [Hg]; · iexact Hg
    isplitr; · iempintro
    iexact Hr
  hexit c := by
    have hjoin := Pipeline.unscopedBufs_of_arrays (p := 1) (pcfgs (F := F)) tables (Ix := Unit) (Name := ℕ) (U := UR sig nD τ) (Lvl := ℕ)
      launch1.win launch1.arr_whole c (pdats m) ((pdats m 1 c).share_full fun _ => rfl)
      (entry1 m c) (exit1 m c) ((pdats m 1 c).arrAt · cfg1.N) (exit1_arr m c) (exit1_rest m c)
    rw [Pipeline.unscopedBufs_held] at hjoin
    iintro ⟨Harr, Howes, Hg, Hrest⟩
    imodintro
    isplitl [Harr Hrest]
    · iapply hjoin; isplitl [Harr] <;> iassumption
    isplitl [Hg]; · iexact Hg
    unfold Pipeline.Dat.owesAt Pipeline.owesWithin
    icases Howes with ⟨%W, -, Howes⟩; iexists W; iexact Howes

/-! ## @main as its segments, and the run -/

abbrev segs : List (Pipeline.Seg (pcfgs (F := F)) tables (pdats m) () defs₀ noVariants noLevels noLevel) :=
  [ .host (hostSeg hostOps0 hostOps0_sub hostOps0_fresh (atLaunch m)),
    .region (featSeg m),
    .region (aggSeg m),
    .host (hostSeg hostOps2 hostOps2_sub hostOps2_fresh (afterAgg m)) ]

/-- @main is the run of its segments. -/
theorem main_is_segs (c : Dev nD) : main (F := F) c = Pipeline.Seg.run (segs m) := (main_chain c).trans (by chain_rfl)

/-- An unscoped TensorCore reference is among those the thread state holds. -/
theorem held_ref (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the launch theorem's implicit arguments are found by unifying its conclusion with this one, which takes unfolding
-- plain definitions in a metavariable's type
set_option backward.isDefEq.respectTransparency.types false in
/-- THE RUN. From any memory with zero counters, every weakly fair execution of @main on the TensorCores
    terminates, nothing faulting, and every final state has every unscoped buffer of every core at `atEnd`. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = atEnd m c b) :=
  Pipeline.θ_run_regions_kit (pcfgs (F := F)) tables (pdats m) () cellOf_inj emb₁ defs₀ noVariants noLevels noLevel m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m c) ∗ riding c))
    (Tₙ := fun c => iprop(StableHlo.held (c : Thread nD τ) (Pipeline.ucRefs τ sig) (atEnd m c) ∗ ∃ r, prngReg c r))
    (hch := ⟨fun _ => .rfl, fun _ => .rfl, fun _ => .rfl, fun _ => .rfl, fun c => by
      show iprop(StableHlo.held (c : Thread nD τ) (Pipeline.ucRefs τ sig) (atEnd m c) ∗ riding c) ⊢ _
      iintro ⟨Hh, Hg, Ho⟩
      isplitl [Hh Hg]
      · isplitl [Hh]; · iexact Hh
        iexact Hg
      iexact Ho⟩)
    (hinit := by
      refine Pipeline.initEach noLevels noLevel fun c => ?_
      rw [show unscopedBufs c (fun b => m ((c : Thread nD τ).loc b)) = StableHlo.held (c : Thread nD τ) (Pipeline.ucRefs τ sig) (atLaunch m c)
        from Pipeline.unscopedBufs_held c (atLaunch m c)]
      iintro ⟨⟨Hh, -, Ho, -, Hg, -⟩, -⟩
      imodintro
      isplitl [Hh]; · iexact Hh
      isplitl [Hg]; · iexists _; iexact Hg
      iexists ∅; iexact Ho)
    (QY := fun c s => ∀ b ∈ Pipeline.ucRefs τ sig, s.mem (((c : Thread nD τ)).1, b) = atEnd m c b)
    (hfin := fun c s' => by
      iintro ⟨⟨Hh, -⟩, HSI⟩
      unfold StableHlo.held
      imodintro
      iapply (pointsTo_read_all (Pipeline.ucRefs τ sig) (fun b => (((c : Thread nD τ)).1, b)) (atEnd m c) s')
      isplitl [Hh] <;> iassumption)
    (hQ := fun s h c => h c)

end Cert.KernelIdeal.MainRun

end
-- ==== Proof.MainFrame.lean ====
/-
  No segment of @main changes an argument array.

  The host operations write only their own result buffers; a pallas_call changes only its output
  array (an argument it reads through an input window comes back as it went in, and one it does
  not stage is not touched). So reading an argument's buffer off the contents at the end walks back
  through the four boundaries to the launch memory — which, with the run, is the frame claim.
-/
import proofs.«134503_j40699110097055_2_alg».proof.Proof.Gen.KernelIdeal.Launch
import proofs.«134503_j40699110097055_2_alg».proof.Proof.Gen.KernelIdeal.Skeleton
import proofs.«134503_j40699110097055_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«134503_j40699110097055_2_alg».proof.Proof.MainRun

set_option maxRecDepth 16384

noncomputable section

namespace Cert.KernelIdeal.MainFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- `main_arg0` ends as launched. -/
theorem end_arg0 (c : Dev nD) : MainRun.atEnd m c (Proc.devRef .tc main_arg0) = m ((c : Thread nD τ).loc main_arg0) :=
  calc MainRun.atEnd m c (Proc.devRef .tc main_arg0)
    _ = MainRun.afterAgg m c (Proc.devRef .tc main_arg0) := StableHlo.after_of_writes_sub hostOps2 _ hostOps2_writes (by decide)
    _ = MainRun.afterFeat m c (Proc.devRef .tc main_arg0) := MainRun.afterAgg_else m c main_arg0 (by decide)
    _ = MainRun.afterPrefix m c (Proc.devRef .tc main_arg0) := (MainRun.afterFeat_at m c 0).trans (((FeatRegion.dat (MainRun.entry0 m) c).arrAt_in 0 rfl _).trans (FeatRegion.dat_A (MainRun.entry0 m) c 0))
    _ = MainRun.atLaunch m c (Proc.devRef .tc main_arg0) := StableHlo.after_of_writes_sub hostOps0 _ hostOps0_writes (by decide)
    _ = m ((c : Thread nD τ).loc main_arg0) := rfl

/-- `main_arg1` ends as launched. -/
theorem end_arg1 (c : Dev nD) : MainRun.atEnd m c (Proc.devRef .tc main_arg1) = m ((c : Thread nD τ).loc main_arg1) :=
  calc MainRun.atEnd m c (Proc.devRef .tc main_arg1)
    _ = MainRun.afterAgg m c (Proc.devRef .tc main_arg1) := StableHlo.after_of_writes_sub hostOps2 _ hostOps2_writes (by decide)
    _ = MainRun.afterFeat m c (Proc.devRef .tc main_arg1) := (MainRun.afterAgg_at m c 0).trans (((AggRegion.dat (MainRun.entry1 m) c).arrAt_in 0 rfl _).trans (AggRegion.dat_A (MainRun.entry1 m) c 0))
    _ = MainRun.afterPrefix m c (Proc.devRef .tc main_arg1) := MainRun.afterFeat_else m c main_arg1 (by decide)
    _ = MainRun.atLaunch m c (Proc.devRef .tc main_arg1) := StableHlo.after_of_writes_sub hostOps0 _ hostOps0_writes (by decide)
    _ = m ((c : Thread nD τ).loc main_arg1) := rfl

/-- `main_arg2` ends as launched. -/
theorem end_arg2 (c : Dev nD) : MainRun.atEnd m c (Proc.devRef .tc main_arg2) = m ((c : Thread nD τ).loc main_arg2) :=
  calc MainRun.atEnd m c (Proc.devRef .tc main_arg2)
    _ = MainRun.afterAgg m c (Proc.devRef .tc main_arg2) := StableHlo.after_of_writes_sub hostOps2 _ hostOps2_writes (by decide)
    _ = MainRun.afterFeat m c (Proc.devRef .tc main_arg2) := MainRun.afterAgg_else m c main_arg2 (by decide)
    _ = MainRun.afterPrefix m c (Proc.devRef .tc main_arg2) := (MainRun.afterFeat_at m c 1).trans (((FeatRegion.dat (MainRun.entry0 m) c).arrAt_in 1 rfl _).trans (FeatRegion.dat_A (MainRun.entry0 m) c 1))
    _ = MainRun.atLaunch m c (Proc.devRef .tc main_arg2) := StableHlo.after_of_writes_sub hostOps0 _ hostOps0_writes (by decide)
    _ = m ((c : Thread nD τ).loc main_arg2) := rfl

/-- `main_arg3` ends as launched. -/
theorem end_arg3 (c : Dev nD) : MainRun.atEnd m c (Proc.devRef .tc main_arg3) = m ((c : Thread nD τ).loc main_arg3) :=
  calc MainRun.atEnd m c (Proc.devRef .tc main_arg3)
    _ = MainRun.afterAgg m c (Proc.devRef .tc main_arg3) := StableHlo.after_of_writes_sub hostOps2 _ hostOps2_writes (by decide)
    _ = MainRun.afterFeat m c (Proc.devRef .tc main_arg3) := MainRun.afterAgg_else m c main_arg3 (by decide)
    _ = MainRun.afterPrefix m c (Proc.devRef .tc main_arg3) := MainRun.afterFeat_else m c main_arg3 (by decide)
    _ = MainRun.atLaunch m c (Proc.devRef .tc main_arg3) := StableHlo.after_of_writes_sub hostOps0 _ hostOps0_writes (by decide)
    _ = m ((c : Thread nD τ).loc main_arg3) := rfl

/-- `main_arg4` ends as launched. -/
theorem end_arg4 (c : Dev nD) : MainRun.atEnd m c (Proc.devRef .tc main_arg4) = m ((c : Thread nD τ).loc main_arg4) :=
  calc MainRun.atEnd m c (Proc.devRef .tc main_arg4)
    _ = MainRun.afterAgg m c (Proc.devRef .tc main_arg4) := StableHlo.after_of_writes_sub hostOps2 _ hostOps2_writes (by decide)
    _ = MainRun.afterFeat m c (Proc.devRef .tc main_arg4) := MainRun.afterAgg_else m c main_arg4 (by decide)
    _ = MainRun.afterPrefix m c (Proc.devRef .tc main_arg4) := MainRun.afterFeat_else m c main_arg4 (by decide)
    _ = MainRun.atLaunch m c (Proc.devRef .tc main_arg4) := StableHlo.after_of_writes_sub hostOps0 _ hostOps0_writes (by decide)
    _ = m ((c : Thread nD τ).loc main_arg4) := rfl

/-- `main_arg5` ends as launched. -/
theorem end_arg5 (c : Dev nD) : MainRun.atEnd m c (Proc.devRef .tc main_arg5) = m ((c : Thread nD τ).loc main_arg5) :=
  calc MainRun.atEnd m c (Proc.devRef .tc main_arg5)
    _ = MainRun.afterAgg m c (Proc.devRef .tc main_arg5) := StableHlo.after_of_writes_sub hostOps2 _ hostOps2_writes (by decide)
    _ = MainRun.afterFeat m c (Proc.devRef .tc main_arg5) := MainRun.afterAgg_else m c main_arg5 (by decide)
    _ = MainRun.afterPrefix m c (Proc.devRef .tc main_arg5) := MainRun.afterFeat_else m c main_arg5 (by decide)
    _ = MainRun.atLaunch m c (Proc.devRef .tc main_arg5) := StableHlo.after_of_writes_sub hostOps0 _ hostOps0_writes (by decide)
    _ = m ((c : Thread nD τ).loc main_arg5) := rfl

/-- `main_arg6` ends as launched. -/
theorem end_arg6 (c : Dev nD) : MainRun.atEnd m c (Proc.devRef .tc main_arg6) = m ((c : Thread nD τ).loc main_arg6) :=
  calc MainRun.atEnd m c (Proc.devRef .tc main_arg6)
    _ = MainRun.afterAgg m c (Proc.devRef .tc main_arg6) := StableHlo.after_of_writes_sub hostOps2 _ hostOps2_writes (by decide)
    _ = MainRun.afterFeat m c (Proc.devRef .tc main_arg6) := MainRun.afterAgg_else m c main_arg6 (by decide)
    _ = MainRun.afterPrefix m c (Proc.devRef .tc main_arg6) := MainRun.afterFeat_else m c main_arg6 (by decide)
    _ = MainRun.atLaunch m c (Proc.devRef .tc main_arg6) := StableHlo.after_of_writes_sub hostOps0 _ hostOps0_writes (by decide)
    _ = m ((c : Thread nD τ).loc main_arg6) := rfl

/-- THE FRAME: every weakly fair execution of @main terminates, nothing faulting, with every argument array
    as launched — at any float instance. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (MainRun.held_ref main_arg0 (by decide))).trans (end_arg0 m c),
      (h c _ (MainRun.held_ref main_arg1 (by decide))).trans (end_arg1 m c),
      (h c _ (MainRun.held_ref main_arg2 (by decide))).trans (end_arg2 m c),
      (h c _ (MainRun.held_ref main_arg3 (by decide))).trans (end_arg3 m c),
      (h c _ (MainRun.held_ref main_arg4 (by decide))).trans (end_arg4 m c),
      (h c _ (MainRun.held_ref main_arg5 (by decide))).trans (end_arg5 m c),
      (h c _ (MainRun.held_ref main_arg6 (by decide))).trans (end_arg6 m c)⟩)
    (MainRun.run_all m ρ)

end Cert.KernelIdeal.MainFrame

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.PayloadAt.lean ====
/-
  The arithmetic of the kernel's four vector payloads, read at one index, over the extended reals.

  Rounding to half precision is the identity on extended reals, a reshape to the same shape is the
  identity, and a matrix product into a zero accumulator read at `(i, j)` is the sum over the
  contracted axis. So the four payloads are: the block product `X · W`; the zero fill; the running
  accumulator plus one block product `adj · (X W)`; and the rectified accumulator against the two
  collapsed decoder columns.
-/
import proofs.«134503_j40699110097055_2_alg».proof.Proof.Gen.KernelIdeal.Skeleton
import proofs.«134503_j40699110097055_2_alg».proof.Proof.LibMatmulNN
import Idealize.ShloMosaic.Lib.Pipeline.Value

noncomputable section

open scoped BigOperators

namespace Cert.KernelIdeal.PayloadAt

open Cert.KernelIdeal Cert.KernelIdeal.Gen Idealize.ShloMosaic Idealize.ShloMosaic.ValueIdx

/-- The first kernel's payload at `(i, j)`: the product of the `X` block and `W`,
    `Σ_k x(i, k) · w(k, j)`. -/
theorem xw_at (x : Vec Ideal S2048x512 .f32) (w : Vec Ideal S512x128 .f32) (i : Fin 2048) (j : Fin 128) :
    k0_pay1 (F := Ideal) x w (ix2 i j) = ∑ k : Fin 512, x (ix2 i k) * w (ix2 k j) := by
  unfold k0_pay1
  exact Cert.LibMatmulNN.matmul_nn_apply dot_S2048x512_S512x128_S2048x128_1_0_0_1_n_n rfl rfl rfl rfl rfl rfl
    none _ _ i j

/-- The accumulator's initial fill is zero at every index. -/
theorem zero_at (i : Fin 2048) (j : Fin 128) : k1_pay1 (F := Ideal) (ix2 i j) = 0 := by
  unfold k1_pay1
  rw [shapeCast_self]
  exact Ideal.ofBits_zero_f32

/-- One accumulation step at `(i, j)`: the accumulator plus the block product
    `Σ_r a(i, r) · b(r, j)`. -/
theorem acc_at (a : Vec Ideal S2048x1024 .f32) (b : Vec Ideal S1024x128 .f32) (acc : Vec Ideal S2048x128 .f32)
    (i : Fin 2048) (j : Fin 128) :
    k1_pay2 (F := Ideal) a b acc (ix2 i j) = acc (ix2 i j) + ∑ r : Fin 1024, a (ix2 i r) * b (ix2 r j) := by
  unfold k1_pay2
  rw [shapeCast_self, shapeCast_self]
  refine (addf_apply _ _ _).trans ?_
  exact congrArg (fun t => acc (ix2 i j) + t)
    (Cert.LibMatmulNN.matmul_nn_apply dot_S2048x1024_S1024x128_S2048x128_1_0_0_1_n_n rfl rfl rfl rfl rfl rfl
      none _ _ i j)

/-- The last step at `(i, q)`: the rectified accumulator against column `q` of the collapsed decoder,
    `Σ_c max(acc(i, c), 0) · ww(c, q)`. -/
theorem out_at (acc : Vec Ideal S2048x128 .f32) (ww : Vec Ideal S128x2 .f32) (i : Fin 2048) (q : Fin 2) :
    k1_pay3 (F := Ideal) acc ww (ix2 i q) = ∑ c : Fin 128, max (acc (ix2 i c)) 0 * ww (ix2 c q) := by
  unfold k1_pay3
  rw [shapeCast_self]
  refine (Cert.LibMatmulNN.matmul_nn_apply dot_S2048x128_S128x2_S2048x2_1_0_0_1_n_n rfl rfl rfl rfl rfl rfl
    none _ _ i q).trans ?_
  refine Finset.sum_congr rfl fun c _ => ?_
  show max (acc (ix2 i c)) (Ideal.ofBits .f32 0x00000000#32) * ww (ix2 c q) = _
  rw [Ideal.ofBits_zero_f32]

end Cert.KernelIdeal.PayloadAt

end
-- ==== Proof.Spec.lean ====
/-
  The function both programs compute, stated once over the argument arrays.

  A graph auto-encoder scores an edge (s, d) from the encoded nodes Z = adj · (X · W):
  the rows Z s and Z d are rectified, laid side by side (256 features) and sent through
  the two decoder matrices W₂ (256 × 128) and w₃ (128 × 1); the score goes through the
  logistic function 1 / (1 + exp (−h)).

  Because the rectifier acts entry by entry and the matrix product is associative, the
  decoder collapses to one column v = W₂ · w₃ of length 256: the score of the edge is
      Σ_{c<128} max (Z s c) 0 · v c   +   Σ_{c<128} max (Z d c) 0 · v (128 + c).
  This is the form stated here. The edge's two endpoints arrive as gather start indices
  (signed 32-bit words, one per edge); the node an index selects is the word clamped
  into the node range.
-/
import Idealize.ShloMosaic.PureOps.Ideal
import Idealize.ShloMosaic.Lib.ValueIdx

noncomputable section

open scoped BigOperators

namespace Cert.EdgeScore

open Idealize.ShloMosaic Idealize.ShloMosaic.ValueIdx

/-- An `a × b` matrix of extended reals, indexed as the programs index a rank-2 array. -/
abbrev Mat (a b : Nat) : Type := (⟨2, ![a, b]⟩ : Shape).Idx → EReal

/-- One gather start index per edge: a column of signed 32-bit words. -/
abbrev EdgeIdx : Type := (⟨2, ![1048576, 1]⟩ : Shape).Idx → BitVec 32

/-- Row `r`, feature `c` of the first product `X · W`. -/
def feat (X : Mat 16384 512) (W : Mat 512 128) (r : Fin 16384) (c : Fin 128) : EReal :=
  ∑ k : Fin 512, X (ix2 r k) * W (ix2 k c)

/-- The encoder `Z = adj · (X · W)` at node `n`, feature `c`. -/
def enc (adj : Mat 16384 16384) (X : Mat 16384 512) (W : Mat 512 128) (n : Fin 16384) (c : Fin 128) : EReal :=
  ∑ r : Fin 16384, adj (ix2 n r) * feat X W r c

/-- Entry `c` of the collapsed decoder column `W₂ · w₃`. -/
def wcol (W2 : Mat 256 128) (w3 : Mat 128 1) (c : Fin 256) : EReal :=
  ∑ j : Fin 128, W2 (ix2 c j) * w3 (ix2 j (0 : Fin 1))

/-- The node a gather start index selects: the signed word, clamped into `[0, 16383]`. -/
def nodeOf (idx : EdgeIdx) (e : Fin 1048576) : Fin 16384 :=
  ⟨min (idx (ix2 e (0 : Fin 1))).toInt.toNat 16383, by omega⟩

/-- One endpoint's share of an edge's score: the rectified encoding of node `n` against the
    128 entries of the collapsed decoder column that `off` selects. -/
def half (adj : Mat 16384 16384) (X : Mat 16384 512) (W : Mat 512 128) (W2 : Mat 256 128) (w3 : Mat 128 1)
    (n : Fin 16384) (off : Fin 128 → Fin 256) : EReal :=
  ∑ c : Fin 128, max (enc adj X W n c) 0 * wcol W2 w3 (off c)

/-- The score of edge `e` before the logistic function: the source against the first half of
    the column, the target against the second. -/
def score (adj : Mat 16384 16384) (X : Mat 16384 512) (W : Mat 512 128) (W2 : Mat 256 128) (w3 : Mat 128 1)
    (src dst : EdgeIdx) (e : Fin 1048576) : EReal :=
  half adj X W W2 w3 (nodeOf src e) (Fin.castAdd 128) + half adj X W W2 w3 (nodeOf dst e) (Fin.natAdd 128)

/-- The logistic function as both programs spell it: `1 / (1 + exp (−h))`, the two ones the
    same single-precision word. -/
def logistic1 (h : EReal) : EReal :=
  Ideal.div (Ideal.ofBits .f32 0x3F800000#32) (Ideal.ofBits .f32 0x3F800000#32 + Ideal.exp (-h))

/-- The result array, one probability per edge. -/
def G (adj : Mat 16384 16384) (X : Mat 16384 512) (W : Mat 512 128) (W2 : Mat 256 128) (w3 : Mat 128 1)
    (src dst : EdgeIdx) : (⟨2, ![1048576, 1]⟩ : Shape).Idx → EReal :=
  fun i => logistic1 (score adj X W W2 w3 src dst (i 0))

end Cert.EdgeScore

end
-- ==== Proof.KernelArrays.lean ====
/-
  The two arrays the pallas_calls leave, as functions of the arrays they read.

  The first call leaves X · W; the second leaves, for every node n, the two scores
  Σ_c max (Σ_r adj(n, r) · XW(r, c)) 0 · D(c, q), q = 0, 1, of the rectified aggregation against the
  two decoder columns D.
-/
import proofs.«134503_j40699110097055_2_alg».proof.KernelIdeal
import proofs.«134503_j40699110097055_2_alg».proof.Proof.Spec
import Idealize.ShloMosaic.Lib.ValueIdx

noncomputable section

open scoped BigOperators

namespace Cert.KernelIdeal.Arrays

open Cert.KernelIdeal Idealize.ShloMosaic Idealize.ShloMosaic.ValueIdx

/-- The matrix X · W as an array: entry (r, c) is Σ_k X(r, k) · W(k, c). -/
def featArr (X : S16384x512.Idx → EReal) (W : S512x128.Idx → EReal) : S16384x128.Idx → EReal :=
  fun i => Cert.EdgeScore.feat X W (i 0) (i 1)

/-- The scores array: entry (n, q) is Σ_c max (Σ_r adj(n, r) · XW(r, c)) 0 · D(c, q). -/
def aggArr (adj : S16384x16384.Idx → EReal) (XW : S16384x128.Idx → EReal) (D : S128x2.Idx → EReal) : S16384x2.Idx → EReal :=
  fun i => ∑ c : Fin 128, max (∑ r : Fin 16384, adj (ix2 (i 0) r) * XW (ix2 r c)) 0 * D (ix2 c (i 1))

end Cert.KernelIdeal.Arrays

end
-- ==== Proof.FeatValue.lean ====
/-
  What the first pallas_call leaves in its output array: the product X · W.

  Point t of the grid writes back the product of rows 2048·t … 2048·t + 2047 of X with W, which is
  rows 2048·t … of the matrix whose (r, c) entry is Σ_k X(r, k) · W(k, c). The eight blocks tile
  the 16384 rows, so the array ends holding that matrix.
-/
import proofs.«134503_j40699110097055_2_alg».proof.Proof.Gen.KernelIdeal.Launch
import proofs.«134503_j40699110097055_2_alg».proof.Proof.Gen.KernelIdeal.Skeleton
import proofs.«134503_j40699110097055_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«134503_j40699110097055_2_alg».proof.Proof.FeatRegion
import proofs.«134503_j40699110097055_2_alg».proof.Proof.PayloadAt
import proofs.«134503_j40699110097055_2_alg».proof.Proof.Spec
import proofs.«134503_j40699110097055_2_alg».proof.Proof.KernelArrays
import Idealize.ShloMosaic.Lib.Pipeline.Value
import Idealize.ShloMosaic.Lib.ValueIdx

set_option maxRecDepth 16384

noncomputable section

open scoped BigOperators

namespace Cert.KernelIdeal.FeatValue

open Cert.KernelIdeal Cert.KernelIdeal.Gen Cert.KernelIdeal.Arrays Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

-- the contents of the core's buffers when the region is entered
variable (V : (c : Dev nD) → (b : Ref sig .tc) → Buf (Elt Ideal) ((c : Thread nD τ).loc b))

theorem hz : (![0, 0] : Fin 2 → ℕ) = fun _ => 0 := by
  funext a; match a with | ⟨0, _⟩ => rfl | ⟨1, _⟩ => rfl

/-- The printed index maps over the grid: the X window moves down with the output window, the W window stays,
    and the output's block row is the point's number. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val ∧ t.val ≤ 7 :=
  (by decide +kernel : ∀ t : Fin grid0.N, _)

/-- Row `p` of block `t` of X against column `q` of W is entry (2048·t + p, q) of X · W: the X block's rows
    are rows 2048·t … of X, and W is read whole. -/
theorem block_product (X : S16384x512.Idx → EReal) (W : S512x128.Idx → EReal) (t : Fin cfg0.N) (p : Fin 2048) (q : Fin 128) :
    ∑ k : Fin 512, X (((cfg0.win 0).blk t).view.emb (ix2 p k)) * W (((cfg0.win 1).blk t).view.emb (ix2 k q))
      = featArr X W (((cfg0.win 2).blk t).view.emb (ix2 p q)) := by
  obtain ⟨e0, e1, e2, e3, e4, e5, e6⟩ := idx_facts t
  unfold featArr Cert.EdgeScore.feat
  refine Finset.sum_congr rfl fun k _ => ?_
  have hx : ((cfg0.win 0).blk t).view.emb (ix2 p k) = ix2 ((((cfg0.win 2).blk t).view.emb (ix2 p q)) 0) k := by
    funext a; apply Fin.ext
    match a with
    | ⟨0, _⟩ => show win0_0.index t (0 : Fin 2) * 2048 + 1 * p.val = win0_2.index t (0 : Fin 2) * 2048 + 1 * p.val; omega
    | ⟨1, _⟩ => show win0_0.index t (1 : Fin 2) * 512 + 1 * k.val = k.val; omega
  have hw : ((cfg0.win 1).blk t).view.emb (ix2 k q) = ix2 k ((((cfg0.win 2).blk t).view.emb (ix2 p q)) 1) := by
    funext a; apply Fin.ext
    match a with
    | ⟨0, _⟩ => show win0_1.index t (0 : Fin 2) * 512 + 1 * k.val = k.val; omega
    | ⟨1, _⟩ => show win0_1.index t (1 : Fin 2) * 128 + 1 * q.val = win0_2.index t (1 : Fin 2) * 128 + 1 * q.val; omega
  rw [hx, hw]
  rfl

/-- What point `t` writes back is block `t` of X · W of the arrays as the region finds them. -/
theorem flushed_eq (c : Dev nD) (t : Fin cfg0.N) :
    (FeatRegion.dat V c).flushed 2 t
      = ((cfg0.win 2).blk t).view.read (Elt Ideal) (featArr (V c main_arg0) (V c main_arg2)) := by
  show (cfg0.win 2).cut (grid0.coords t) ((FeatRegion.dat V c).after 2 t) = _
  rw [FeatRegion.after_2]
  unfold FeatRegion.product
  rw [View.canon_unit_zero hz]
  simp only [View.ld_unit_zero (S := S2048x512) hz, View.ld_unit_zero (S := S512x128) hz]
  funext j
  obtain ⟨p, q, rfl⟩ : ∃ (p : Fin 2048) (q : Fin 128), j = ix2 p q := ⟨j 0, j 1, eq_ix2 j⟩
  refine (Cert.KernelIdeal.PayloadAt.xw_at _ _ p q).trans ?_
  exact block_product (V c main_arg0) (V c main_arg2) t p q

/-- An index of the array is in point `t`'s block iff each coordinate is in the block's range. -/
theorem mem_blk (t : Fin cfg0.N) (i : S16384x128.Idx) :
    i ∈ ((cfg0.win 2).blk t).view.set ↔ ∀ a : Fin 2, win0_2.index t a * S2048x128.size a ≤ (i a).val ∧ (i a).val < win0_2.index t a * S2048x128.size a + S2048x128.size a := by
  show i ∈ ((View.whole main_v5).slice (win0_2.rect t)).set ↔ _
  rw [View.set_slice_whole, Rect.mem_set_unit]
  exact Iff.rfl

/-- Every row lies in the block of the point numbered by its quotient by 2048. -/
theorem cover (i : S16384x128.Idx) : ∃ t : Fin cfg0.N, (cfg0.win 2).flush t = true ∧ i ∈ ((cfg0.win 2).blk t).view.set := by
  have hi0 : (i 0).val < 16384 := (i 0).isLt
  have hi1 : (i 1).val < 128 := (i 1).isLt
  refine ⟨⟨(i 0).val / 2048, by rw [show cfg0.N = 8 from N_0]; omega⟩, flush0_2 _, ?_⟩
  rw [mem_blk]
  obtain ⟨e0, e1, e2, e3, e4, e5, e6⟩ := idx_facts ⟨(i 0).val / 2048, by rw [show cfg0.N = 8 from N_0]; omega⟩
  intro a
  match a with
  | ⟨0, _⟩ => show win0_2.index _ (0 : Fin 2) * 2048 ≤ (i 0).val ∧ (i 0).val < win0_2.index _ (0 : Fin 2) * 2048 + 2048; rw [e5]; show (i 0).val / 2048 * 2048 ≤ (i 0).val ∧ (i 0).val < (i 0).val / 2048 * 2048 + 2048; omega
  | ⟨1, _⟩ => show win0_2.index _ (1 : Fin 2) * 128 ≤ (i 1).val ∧ (i 1).val < win0_2.index _ (1 : Fin 2) * 128 + 128; rw [e4]; omega

/-- THE ARRAY after the first pallas_call: X · W of the arrays as the region finds them. -/
theorem final (c : Dev nD) :
    (FeatRegion.dat V c).arrAt 2 cfg0.N = featArr (V c main_arg0) (V c main_arg2) :=
  (FeatRegion.dat V c).arrAt_eq_of_cover 2 (featArr (V c main_arg0) (V c main_arg2)) (fun t _ => flushed_eq V c t) cover

end Cert.KernelIdeal.FeatValue

end
-- ==== Proof.LibHostMatmulNN.lean ====
/-
  A host program's matrix product `A · B` and a vector broadcast along the rows of a matrix, read at an index on the
  extended reals.

  `stablehlo.dot_general` of an `[M, K]` by a `[K, N]` operand — the left operand's last axis contracted with the right
  operand's first, no batch axes (jnp `x @ W`; dimension numbers `[1] x [0]`, free axes `[0]` and `[1]`) — is, at
  `(i, j)`, the sum over `k : Fin K` of `A(i, k) · B(k, j)`: the host's schedule of the additions does not matter on
  the extended reals. Stated for ANY record of dimension numbers with those six lists (each hypothesis closed by `rfl`
  at a printed record); imports only the Idealize library. `stablehlo.broadcast_in_dim` of a vector `[b]` to `[a, b]` along axis 1 (jnp `broadcast_to` of a
  bias or of one row of features to every row) reads, at `(p, c)`, the vector at `c`.
-/
import Idealize.ShloMosaic.Lib.ValueIdx
import Idealize.ShloMosaic.Lib.Pipeline.Value
import Idealize.ShloMosaic.PureOps.Ideal.Laws

noncomputable section

open scoped BigOperators

namespace Cert.LibHostMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- The host's `A · B`, at `(i, j)`, is `Σ_k A[i, k] · B[k, j]`. -/
theorem hostDot_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    Host.dotGeneral d prec A B (ix2 i j) = ∑ k : Fin K, A (ix2 i k) * B (ix2 k j) := by
  have hr := contr_rank d hlc
  have hs := contr_size d hlc
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

/-- A vector `[b]` broadcast to `[a, b]` along the rows reads, at `(p, c)`, the vector at `c`. -/
theorem broadcastInDim_b_ab_apply {α : Type} {a b : ℕ} (dims : Fin 1 → Fin 2)
    (h : (⟨1, ![b]⟩ : Shape).BroadcastsInDim ⟨2, ![a, b]⟩ dims) (hd : dims 0 = 1)
    (v : (⟨1, ![b]⟩ : Shape).Idx → α) (p : Fin a) (c : Fin b) :
    broadcastInDim ⟨2, ![a, b]⟩ dims h v (ix2 p c) = v (ix1 c) := by
  refine broadcastInDim_apply dims h v (ix2 p c) (ix1 c) fun ax => ?_
  match ax with
  | ⟨0, _⟩ =>
    show c.val = if b = 1 then 0 else (ix2 p c (dims 0)).val
    rw [hd]
    show c.val = if b = 1 then 0 else c.val
    split
    · have := c.isLt; omega
    · rfl

end Cert.LibHostMatmulNN

end
-- ==== Proof.HostPrefix.lean ====
/-
  The host operations before the two kernels, read at an index, over the extended reals.

  The decoder's first matrix `W₂` (256 × 128) is cut into its upper and lower halves (128 × 128
  each); each half is multiplied by the column `w₃` (128 × 1); the two resulting columns are laid
  side by side into a 128 × 2 array. Read at `(c, 0)` that array is entry `c` of the collapsed
  decoder column `W₂ · w₃`, and at `(c, 1)` it is entry `128 + c`.
-/
import proofs.«134503_j40699110097055_2_alg».proof.Proof.Gen.KernelIdeal.Launch
import proofs.«134503_j40699110097055_2_alg».proof.Proof.LibHostMatmulNN
import proofs.«134503_j40699110097055_2_alg».proof.Proof.Spec
import Idealize.ShloMosaic.Lib.Pipeline.Value

noncomputable section

open scoped BigOperators

namespace Cert.KernelIdeal.HostAt

open Cert.KernelIdeal Cert.KernelIdeal.Gen Idealize.ShloMosaic Idealize.ShloMosaic.ValueIdx

/-- The two collapsed decoder columns side by side: the upper half of `W₂` times `w₃` in column 0,
    the lower half times `w₃` in column 1. -/
def decoderCols (a3 : (⟨S256x128, .f32⟩ : BufTy).Contents (Elt Ideal))
    (a4 : (⟨S128x1, .f32⟩ : BufTy).Contents (Elt Ideal)) : (⟨S128x2, .f32⟩ : BufTy).Contents (Elt Ideal) :=
  concatenate S128x2 1
    [⟨S128x1, Host.dotGeneral (F := Ideal) (φ₁ := .f32) (φ₂ := .f32) dot_S128x128_S128x1_S128x1_1_0_0_1_n_n none
        (extractStridedSlice S128x128 ![0, 0] a3 slices_S256x128_S128x128_0_0) a4⟩,
     ⟨S128x1, Host.dotGeneral (F := Ideal) (φ₁ := .f32) (φ₂ := .f32) dot_S128x128_S128x1_S128x1_1_0_0_1_n_n none
        (extractStridedSlice S128x128 ![128, 0] a3 slices_S256x128_S128x128_128_0) a4⟩]
    concatenates_S128x1_S128x1_S128x2_d1

/-- After the first stretch of host operations the 128 × 2 buffer holds the two collapsed decoder
    columns of the decoder's arguments. -/
theorem prefix_main_v4 (V : Valuation τ sig (Elt Ideal)) :
    StableHlo.after (hostOps0 (F := Ideal)) V (Proc.devRef .tc main_v4)
      = decoderCols (V (Proc.devRef .tc main_arg3)) (V (Proc.devRef .tc main_arg4)) := by
  after_results
  rfl

/-- Row `c` of the upper half of `W₂`, against `w₃`. -/
theorem upper_at (a3 : FVec Ideal S256x128 .f32) (a4 : FVec Ideal S128x1 .f32) (c : Fin 128) :
    Host.dotGeneral (F := Ideal) dot_S128x128_S128x1_S128x1_1_0_0_1_n_n none
        (extractStridedSlice S128x128 ![0, 0] a3 slices_S256x128_S128x128_0_0) a4 (ix2 c (0 : Fin 1))
      = Cert.EdgeScore.wcol a3 a4 (Fin.castAdd 128 c) := by
  refine (Cert.LibHostMatmulNN.hostDot_nn_apply dot_S128x128_S128x1_S128x1_1_0_0_1_n_n rfl rfl rfl rfl rfl rfl
    none _ a4 c (0 : Fin 1)).trans ?_
  unfold Cert.EdgeScore.wcol
  refine Finset.sum_congr rfl fun k _ => congrArg (· * a4 (ix2 k (0 : Fin 1))) ?_
  refine extractStridedSlice_apply ![0, 0] a3 slices_S256x128_S128x128_0_0 (ix2 c k) (ix2 (Fin.castAdd 128 c) k) fun a => ?_
  match a with
  | ⟨0, _⟩ => show c.val = 0 + c.val; omega
  | ⟨1, _⟩ => show k.val = 0 + k.val; omega

/-- Row `c` of the lower half of `W₂`, against `w₃`. -/
theorem lower_at (a3 : FVec Ideal S256x128 .f32) (a4 : FVec Ideal S128x1 .f32) (c : Fin 128) :
    Host.dotGeneral (F := Ideal) dot_S128x128_S128x1_S128x1_1_0_0_1_n_n none
        (extractStridedSlice S128x128 ![128, 0] a3 slices_S256x128_S128x128_128_0) a4 (ix2 c (0 : Fin 1))
      = Cert.EdgeScore.wcol a3 a4 (Fin.natAdd 128 c) := by
  refine (Cert.LibHostMatmulNN.hostDot_nn_apply dot_S128x128_S128x1_S128x1_1_0_0_1_n_n rfl rfl rfl rfl rfl rfl
    none _ a4 c (0 : Fin 1)).trans ?_
  unfold Cert.EdgeScore.wcol
  refine Finset.sum_congr rfl fun k _ => congrArg (· * a4 (ix2 k (0 : Fin 1))) ?_
  refine extractStridedSlice_apply ![128, 0] a3 slices_S256x128_S128x128_128_0 (ix2 c k) (ix2 (Fin.natAdd 128 c) k) fun a => ?_
  match a with
  | ⟨0, _⟩ => show 128 + c.val = 128 + c.val; rfl
  | ⟨1, _⟩ => show k.val = 0 + k.val; omega

/-- The 128 × 2 array at `(c, 0)` is entry `c` of the collapsed decoder column, and at `(c, 1)`
    entry `128 + c`. -/
theorem decoderCols_at (a3 : (⟨S256x128, .f32⟩ : BufTy).Contents (Elt Ideal))
    (a4 : (⟨S128x1, .f32⟩ : BufTy).Contents (Elt Ideal)) (c : Fin 128) :
    decoderCols a3 a4 (ix2 c (0 : Fin 2)) = Cert.EdgeScore.wcol a3 a4 (Fin.castAdd 128 c)
      ∧ decoderCols a3 a4 (ix2 c (1 : Fin 2)) = Cert.EdgeScore.wcol a3 a4 (Fin.natAdd 128 c) := by
  constructor
  · refine Eq.trans ?_ (upper_at a3 a4 c)
    unfold decoderCols
    refine concatenate_pair_apply_left (t := S128x2) (s₁ := S128x1) (s₂ := S128x1) (1 : Fin 2) _ _
      concatenates_S128x1_S128x1_S128x2_d1 (ix2 c (0 : Fin 2)) rfl (ix2 c (0 : Fin 1)) fun b => ?_
    match b with
    | ⟨0, _⟩ => rfl
    | ⟨1, _⟩ => rfl
  · refine Eq.trans ?_ (lower_at a3 a4 c)
    unfold decoderCols
    refine concatenate_pair_apply_right (t := S128x2) (s₁ := S128x1) (s₂ := S128x1) (1 : Fin 2) _ _
      concatenates_S128x1_S128x1_S128x2_d1 (ix2 c (1 : Fin 2)) rfl rfl (ix2 c (0 : Fin 1)) (fun b hb => ?_) ?_
    · match b with
      | ⟨0, _⟩ => rfl
      | ⟨1, _⟩ => exact absurd rfl hb
    · rfl

end Cert.KernelIdeal.HostAt

end
-- ==== Proof.LibGatherVec.lean ====
/-
  A general lemma: `stablehlo.gather` of single ELEMENTS of a rank-1 operand, read at an index.

  What `v[idx]` / `jnp.take(v, idx)` of a vector `v : [N]` at an integer vector `idx : [R]` lowers to: a gather with
  offset_dims `[]`, collapsed_slice_dims `[0]`, start_index_map `[0]`, index_vector_dim `1` and slice sizes `[1]` over
  the indices as a column `[R, 1]`. Result element `t` is `v` at `idx[t, 0]` — read as a signed integer and clamped
  into `[0, N − 1]`, as the gather clamps every start index: the operand's one axis is collapsed, so the clamped start
  index is the whole coordinate.
-/
import Idealize.ShloMosaic.PureOps
import Idealize.ShloMosaic.Lib.ValueIdx

noncomputable section

namespace Cert.LibGatherVec

open Idealize.ShloMosaic Idealize.ShloMosaic.ValueIdx

variable {α : Type}

/-- Those dimension numbers for an operand `[N]`, start indices `[R, 1]` and result `[R]`; their conditions `wf` are
    decided on a program's literal shapes. -/
abbrev vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE GATHER OF ELEMENTS READ AT `t`: the operand at `r`, the start index `idx[t, 0]` read signed and clamped into
    `[0, N − 1]`. The position is a variable with its defining equation, so that a user substitutes the position it has
    computed without rewriting under an index's bound proof. -/
theorem gather_vec_apply {N R w : Nat}
    (wf : GatherDims.WF ⟨1, ![N]⟩ ⟨2, ![R, 1]⟩ ⟨1, ![R]⟩ [] [0] [] [0] [] 1 ![1])
    (v : (⟨1, ![N]⟩ : Shape).Idx → α) (idx : IVec ⟨2, ![R, 1]⟩ w) (t : Fin R) (r : Fin N)
    (hr : r.val = min (idx (ix2 t (0 : Fin 1))).toInt.toNat (N - 1)) :
    Host.gather (vecDims N R wf) v idx (ix1 t) = v (ix1 r) := by
  unfold Host.gather
  refine congrArg v (funext fun a => Fin.ext ?_)
  obtain rfl : a = 0 := Subsingleton.elim _ _
  show (vecDims N R wf).start (ix1 t) idx 0 + (vecDims N R wf).batchCoord (ix1 t) 0 + (vecDims N R wf).offCoord (ix1 t) 0 = r.val
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 t) ⟨List.idxOf (0 : Fin 1) (vecDims N R wf).startIndexMap,
      List.idxOf_lt_length_iff.2 (List.mem_singleton.mpr rfl)⟩ = ix2 t (0 : Fin 1) := by
    funext b; refine Fin.ext ?_
    match b with
    | ⟨0, _⟩ => rfl
    | ⟨1, _⟩ => rfl
  rw [hsi, hr]
  rfl

end Cert.LibGatherVec

end
-- ==== Proof.LibHostKeepdims.lean ====
/-
  Keepdims layouts of a host program, and row maxima, read at an index given by coordinates.

  `x - x.max(axis=1, keepdims=True)` over a matrix `[a, b]` is, in a host program, a reduction `[a, b] → [a]`, a
  `broadcast_in_dim` `[a] → [a, 1]` (the kept axis) and another `[a, 1] → [a, b]` (the subtraction's broadcast); a
  vector of per-column values `[b]` meets the matrix through `[b] → [1, b] → [a, b]`. Read at `(p, c)` the first
  composite is the operand at row `p`, the second the operand at column `c`. The four steps are the first four lemmas;
  a rank-0 operand broadcast to any shape is its one element everywhere. Then the two host reductions along the rows
  (the sum, at the ideal values, and the maximum, a fold of `max` in any order), the kernel's lane maximum along the
  rows in the same words, and the kernel's cast `[a, 1] → [a]` that drops a kept axis again.
  The `dims` of a `broadcast_in_dim` are a variable; the lemmas ask only which result axis each operand axis is sent to.
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- A vector `[a]` broadcast to the column `[a, 1]` reads, at `(p, u)`, the vector at `p`. -/
theorem broadcastInDim_a_a1_apply {a : ℕ} (dims : Fin 1 → Fin 2)
    (h : (⟨1, ![a]⟩ : Shape).BroadcastsInDim ⟨2, ![a, 1]⟩ dims) (hd : dims 0 = 0)
    (v : (⟨1, ![a]⟩ : Shape).Idx → α) (p : Fin a) (u : Fin 1) :
    broadcastInDim ⟨2, ![a, 1]⟩ dims h v (ix2 p u) = v (ix1 p) := by
  refine broadcastInDim_apply dims h v (ix2 p u) (ix1 p) fun ax => ?_
  match ax with
  | ⟨0, _⟩ =>
    show p.val = if a = 1 then 0 else (ix2 p u (dims 0)).val
    rw [hd]
    show p.val = if a = 1 then 0 else p.val
    split
    · have := p.isLt; omega
    · rfl

/-- A column `[a, 1]` broadcast to `[a, b]` reads, at `(p, c)`, the column at row `p`. -/
theorem broadcastInDim_a1_ab_apply {a b : ℕ} (dims : Fin 2 → Fin 2)
    (h : (⟨2, ![a, 1]⟩ : Shape).BroadcastsInDim ⟨2, ![a, b]⟩ dims) (hd : dims 0 = 0)
    (v : (⟨2, ![a, 1]⟩ : Shape).Idx → α) (p : Fin a) (c : Fin b) :
    broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else (ix2 p c (dims 0)).val
    rw [hd]
    show p.val = if a = 1 then 0 else p.val
    split
    · have := p.isLt; omega
    · rfl
  | ⟨1, _⟩ => rfl

/-- A vector `[b]` broadcast to the row `[1, b]` reads, at `(u, c)`, the vector at `c`. -/
theorem broadcastInDim_b_1b_apply {b : ℕ} (dims : Fin 1 → Fin 2)
    (h : (⟨1, ![b]⟩ : Shape).BroadcastsInDim ⟨2, ![1, b]⟩ dims) (hd : dims 0 = 1)
    (v : (⟨1, ![b]⟩ : Shape).Idx → α) (u : Fin 1) (c : Fin b) :
    broadcastInDim ⟨2, ![1, b]⟩ dims h v (ix2 u c) = v (ix1 c) := by
  refine broadcastInDim_apply dims h v (ix2 u c) (ix1 c) fun ax => ?_
  match ax with
  | ⟨0, _⟩ =>
    show c.val = if b = 1 then 0 else (ix2 u c (dims 0)).val
    rw [hd]
    show c.val = if b = 1 then 0 else c.val
    split
    · have := c.isLt; omega
    · rfl

/-- A row `[1, b]` broadcast to `[a, b]` reads, at `(p, c)`, the row at column `c`. -/
theorem broadcastInDim_1b_ab_apply {a b : ℕ} (dims : Fin 2 → Fin 2)
    (h : (⟨2, ![1, b]⟩ : Shape).BroadcastsInDim ⟨2, ![a, b]⟩ dims) (hd : dims 1 = 1)
    (v : (⟨2, ![1, b]⟩ : Shape).Idx → α) (p : Fin a) (c : Fin b) :
    broadcastInDim ⟨2, ![a, b]⟩ dims h v (ix2 p c) = v (ix2 (0 : Fin 1) c) := by
  refine broadcastInDim_apply dims h v (ix2 p c) (ix2 (0 : Fin 1) c) fun ax => ?_
  match ax with
  | ⟨0, _⟩ => rfl
  | ⟨1, _⟩ =>
    show c.val = if b = 1 then 0 else (ix2 p c (dims 1)).val
    rw [hd]
    show c.val = if b = 1 then 0 else c.val
    split
    · have := c.isLt; omega
    · rfl

/-- A rank-0 operand broadcast to any shape reads its one element everywhere. -/
theorem broadcastInDim_scalar_apply {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 fun ax => ax.elim0

/-- A column `[a, 1]` cast to the vector `[a]` reads, at `i`, the column at row `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Layout

/-- The host's sum of an `[a, b]` matrix along its rows, at the ideal values and read at row `r`: the initial value
    plus the sum over the row. -/
theorem hostReduceAdd_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl

/-- The host's maximum of an `[a, b]` matrix along its rows, read at row `r`: the fold of `max`, from the initial
    value, over the row, in any order. -/
theorem hostReduce_max_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) := by
  refine (Host.reduce_eq_fold_single (FloatOps.maximumf (F := Ideal) (φ := φ)) x init h' h hu (ix1 r)).trans ?_
  refine congrArg (Finset.fold _ _ · _) (funext fun k => congrArg x (funext fun ax => Fin.ext ?_))
  match ax with
  | ⟨0, _⟩ => rfl
  | ⟨1, _⟩ => rfl

/-- A kernel's lane maximum of an `[a, b]` matrix along its rows, at the ideal values and read at row `r`: the fold of
    `max`, from the accumulator's value, over the row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (Finset.fold _ _ · _) (funext fun k => congrArg src (funext fun ax => Fin.ext ?_))
  match ax with
  | ⟨0, _⟩ => rfl
  | ⟨1, _⟩ => rfl

end Idealize.ShloMosaic.ValueIdx

end
-- ==== Proof.HostTail.lean ====
/-
  The host operations after the two kernels, read at an index, over the extended reals.

  The two edge lists are laid one under the other (1048576 rows of a source and a target node
  number); each column is taken as a vector, the negative numbers moved up by 16384 (counting from the
  end), and the result used as gather start indices into column 0 (for sources) and column 1 (for
  targets) of the kernel's 16384 × 2 result `P`. The two gathered values are added and sent through
  the logistic function `1 / (1 + exp (−h))`. A gather start index selects the node it is clamped to.
-/
import proofs.«134503_j40699110097055_2_alg».proof.Proof.Gen.KernelIdeal.Launch
import proofs.«134503_j40699110097055_2_alg».proof.Proof.LibGatherVec
import proofs.«134503_j40699110097055_2_alg».proof.Proof.LibHostKeepdims
import proofs.«134503_j40699110097055_2_alg».proof.Proof.Spec
import Idealize.ShloMosaic.Lib.Pipeline.Value

noncomputable section

open scoped BigOperators

namespace Cert.KernelIdeal.HostAt

open Cert.KernelIdeal Cert.KernelIdeal.Gen Idealize.ShloMosaic Idealize.ShloMosaic.ValueIdx

/-- Both edge lists, the second under the first: 1048576 rows of (source, target). -/
def edges (a5 a6 : (⟨S524288x2, .i32⟩ : BufTy).Contents (Elt Ideal)) : (⟨S1048576x2, .i32⟩ : BufTy).Contents (Elt Ideal) :=
  concatenate S1048576x2 0 [⟨S524288x2, a5⟩, ⟨S524288x2, a6⟩] concatenates_S524288x2_S524288x2_S1048576x2_d0

/-- A column of node numbers as gather start indices: read as a vector, every negative number moved
    up by 16384, and written back as a column. -/
def wrapCol (col : IVec S1048576x1 32) : IVec S1048576x1 32 :=
  broadcastInDim S1048576x1 ![0] bcast_S1048576_S1048576x1_0
    (select
      (cmpi .slt (shapeCast S1048576 col shapeCasts_S1048576x1_S1048576)
        (broadcastInDim S1048576 ![] bcast_S_S1048576 (constantI S_ 32 0#32)))
      (addi (shapeCast S1048576 col shapeCasts_S1048576x1_S1048576)
        (broadcastInDim S1048576 ![] bcast_S_S1048576 (constantI S_ 32 16384#32)))
      (shapeCast S1048576 col shapeCasts_S1048576x1_S1048576))

/-- The gather start indices of the edges' sources: column 0 of the edge rows, wrapped. -/
def kerSrc (a5 a6 : (⟨S524288x2, .i32⟩ : BufTy).Contents (Elt Ideal)) : (⟨S1048576x1, .i32⟩ : BufTy).Contents (Elt Ideal) :=
  wrapCol (extractStridedSlice S1048576x1 ![0, 0] (edges a5 a6) slices_S1048576x2_S1048576x1_0_0)

/-- The gather start indices of the edges' targets: column 1 of the edge rows, wrapped. -/
def kerDst (a5 a6 : (⟨S524288x2, .i32⟩ : BufTy).Contents (Elt Ideal)) : (⟨S1048576x1, .i32⟩ : BufTy).Contents (Elt Ideal) :=
  wrapCol (extractStridedSlice S1048576x1 ![0, 1] (edges a5 a6) slices_S1048576x2_S1048576x1_0_1)

/-- Column `q` of the kernel's result as a vector over the nodes (`q = 0`: offset `![0, 0]`). -/
def nodeCol0 (P : FVec Ideal S16384x2 .f32) : FVec Ideal S16384 .f32 :=
  shapeCast S16384 (extractStridedSlice S16384x1 ![0, 0] P slices_S16384x2_S16384x1_0_0) shapeCasts_S16384x1_S16384

/-- Column 1 of the kernel's result as a vector over the nodes. -/
def nodeCol1 (P : FVec Ideal S16384x2 .f32) : FVec Ideal S16384 .f32 :=
  shapeCast S16384 (extractStridedSlice S16384x1 ![0, 1] P slices_S16384x2_S16384x1_0_1) shapeCasts_S16384x1_S16384

/-- The constant one, once per edge. -/
def ones : FVec Ideal S1048576 .f32 :=
  broadcastInDim S1048576 ![] bcast_S_S1048576 (constant (F := Ideal) S_ .f32 0x3F800000#32)

/-- The result array from the kernel's result `P` and the two edge lists: per edge the logistic
    function of `P`'s column 0 at the source plus `P`'s column 1 at the target. -/
def tailOf (P : (⟨S16384x2, .f32⟩ : BufTy).Contents (Elt Ideal))
    (a5 a6 : (⟨S524288x2, .i32⟩ : BufTy).Contents (Elt Ideal)) : (⟨S1048576x1, .f32⟩ : BufTy).Contents (Elt Ideal) :=
  broadcastInDim S1048576x1 ![0] bcast_S1048576_S1048576x1_0
    (Host.divf (F := Ideal) (φ := .f32) ones
      (addf (F := Ideal) (φ := .f32) ones
        (Host.exp (F := Ideal) (φ := .f32)
          (Host.negf (F := Ideal) (φ := .f32)
            (addf (F := Ideal) (φ := .f32)
              (Host.gather gather_S16384_S1048576x1_S1048576_n_0_n_n_0_1_1 (nodeCol0 P) (kerSrc a5 a6))
              (Host.gather gather_S16384_S1048576x1_S1048576_n_0_n_n_0_1_1 (nodeCol1 P) (kerDst a5 a6)))))))

/-- After the last stretch of host operations the result buffer holds `tailOf` of the second kernel's
    result and the two edge lists. -/
theorem tail_main_v37 (V : Valuation τ sig (Elt Ideal)) :
    StableHlo.after (hostOps2 (F := Ideal)) V (Proc.devRef .tc main_v37)
      = tailOf (V (Proc.devRef .tc main_v6)) (V (Proc.devRef .tc main_arg5)) (V (Proc.devRef .tc main_arg6)) := by
  after_results_simp
  rfl

/-- Column 0 of the kernel's result, as a vector, at node `r`. -/
theorem nodeCol0_at (P : FVec Ideal S16384x2 .f32) (r : Fin 16384) : nodeCol0 P (ix1 r) = P (ix2 r (0 : Fin 2)) := by
  unfold nodeCol0
  refine (shapeCast_a1_a_apply _ shapeCasts_S16384x1_S16384 r).trans ?_
  refine extractStridedSlice_apply ![0, 0] P slices_S16384x2_S16384x1_0_0 (ix2 r (0 : Fin 1)) (ix2 r (0 : Fin 2)) fun a => ?_
  match a with
  | ⟨0, _⟩ => show r.val = 0 + r.val; omega
  | ⟨1, _⟩ => rfl

/-- Column 1 of the kernel's result, as a vector, at node `r`. -/
theorem nodeCol1_at (P : FVec Ideal S16384x2 .f32) (r : Fin 16384) : nodeCol1 P (ix1 r) = P (ix2 r (1 : Fin 2)) := by
  unfold nodeCol1
  refine (shapeCast_a1_a_apply _ shapeCasts_S16384x1_S16384 r).trans ?_
  refine extractStridedSlice_apply ![0, 1] P slices_S16384x2_S16384x1_0_1 (ix2 r (0 : Fin 1)) (ix2 r (1 : Fin 2)) fun a => ?_
  match a with
  | ⟨0, _⟩ => show r.val = 0 + r.val; omega
  | ⟨1, _⟩ => rfl

/-- The constant one at any edge is the single-precision word of one. -/
theorem ones_at (e : Fin 1048576) : ones (ix1 e) = Ideal.ofBits .f32 0x3F800000#32 := by
  unfold ones
  exact broadcastInDim_scalar_apply _ bcast_S_S1048576 _ (ix1 e)

/-- The result at edge `e`: the logistic function of `P`'s column 0 at the node the source index
    selects plus `P`'s column 1 at the node the target index selects. -/
theorem tailOf_at (P : (⟨S16384x2, .f32⟩ : BufTy).Contents (Elt Ideal))
    (a5 a6 : (⟨S524288x2, .i32⟩ : BufTy).Contents (Elt Ideal)) (e : Fin 1048576) :
    tailOf P a5 a6 (ix2 e (0 : Fin 1))
      = Cert.EdgeScore.logistic1 (P (ix2 (Cert.EdgeScore.nodeOf (kerSrc a5 a6) e) (0 : Fin 2))
          + P (ix2 (Cert.EdgeScore.nodeOf (kerDst a5 a6) e) (1 : Fin 2))) := by
  have h1 : Host.gather gather_S16384_S1048576x1_S1048576_n_0_n_n_0_1_1 (nodeCol0 P) (kerSrc a5 a6) (ix1 e)
      = P (ix2 (Cert.EdgeScore.nodeOf (kerSrc a5 a6) e) (0 : Fin 2)) :=
    (Cert.LibGatherVec.gather_vec_apply gather_S16384_S1048576x1_S1048576_n_0_n_n_0_1_1_wf (nodeCol0 P) (kerSrc a5 a6) e
      (Cert.EdgeScore.nodeOf (kerSrc a5 a6) e) rfl).trans (nodeCol0_at P _)
  have h2 : Host.gather gather_S16384_S1048576x1_S1048576_n_0_n_n_0_1_1 (nodeCol1 P) (kerDst a5 a6) (ix1 e)
      = P (ix2 (Cert.EdgeScore.nodeOf (kerDst a5 a6) e) (1 : Fin 2)) :=
    (Cert.LibGatherVec.gather_vec_apply gather_S16384_S1048576x1_S1048576_n_0_n_n_0_1_1_wf (nodeCol1 P) (kerDst a5 a6) e
      (Cert.EdgeScore.nodeOf (kerDst a5 a6) e) rfl).trans (nodeCol1_at P _)
  unfold tailOf Cert.EdgeScore.logistic1
  refine (broadcastInDim_a_a1_apply ![0] bcast_S1048576_S1048576x1_0 rfl _ e (0 : Fin 1)).trans ?_
  show Ideal.div (ones (ix1 e)) (ones (ix1 e) + Ideal.exp (-(
      Host.gather gather_S16384_S1048576x1_S1048576_n_0_n_n_0_1_1 (nodeCol0 P) (kerSrc a5 a6) (ix1 e)
        + Host.gather gather_S16384_S1048576x1_S1048576_n_0_n_n_0_1_1 (nodeCol1 P) (kerDst a5 a6) (ix1 e)))) = _
  rw [ones_at, h1, h2]

end Cert.KernelIdeal.HostAt

end
-- ==== Proof.HostAt.lean ====
/-
  The kernel's two stretches of host operations read at an index: the collapsed decoder columns
  before the kernels, and the gathers and the logistic function after them.
-/
import proofs.«134503_j40699110097055_2_alg».proof.Proof.HostPrefix
import proofs.«134503_j40699110097055_2_alg».proof.Proof.HostTail
-- ==== Proof.KernelValue.lean ====
/-
  The kernel's result is the edge scores.

  The kernel's program computes in four steps: the host collapses the decoder into two columns D = [W₂ᵘ · w₃ | W₂ˡ · w₃]
  (the upper and the lower half of W₂ against w₃); the first pallas_call leaves X · W; the second leaves, for every node n,
  the two numbers P(n, q) = Σ_c max (Σ_r adj(n, r) · (X · W)(r, c)) 0 · D(c, q); and the host gathers, for every edge, P at the
  source's node in column 0 and at the target's node in column 1, adds the two and applies the logistic function.
  Entry c of column 0 of D is entry c of the collapsed decoder column W₂ · w₃ and entry c of column 1 is entry 128 + c, and
  the inner sum is the encoder adj · (X · W) at (n, c); so P(n, 0) is the source's share of an edge's score and P(n, 1) the
  target's, and the result is, edge by edge, the logistic function of the edge's score. Every step is an equation between
  sums spelt the same way on both sides: no law of arithmetic is used, hence no finiteness.
-/
import proofs.«134503_j40699110097055_2_alg».proof.Proof.MainRun
import proofs.«134503_j40699110097055_2_alg».proof.Proof.FeatValue
import proofs.«134503_j40699110097055_2_alg».proof.Proof.KernelArrays
import proofs.«134503_j40699110097055_2_alg».proof.Proof.HostAt
import proofs.«134503_j40699110097055_2_alg».proof.Proof.Spec

set_option maxRecDepth 16384

noncomputable section

open scoped BigOperators

namespace Cert.KernelIdeal.KernelValue

open Cert.KernelIdeal Cert.KernelIdeal.Gen Cert.KernelIdeal.Arrays Cert.KernelIdeal.HostAt Cert.EdgeScore
open Idealize.ShloMosaic Idealize.ShloMosaic.TcCoe Idealize.ShloMosaic.ValueIdx

/-! ## The second kernel's array against the specification's shares -/

/-- Column 0 of the second kernel's array at node `n`: the rectified encoding of `n` against the first half of the
    collapsed decoder column. -/
theorem agg_at0 (a0 : S16384x512.Idx → EReal) (a1 : S16384x16384.Idx → EReal) (a2 : S512x128.Idx → EReal)
    (a3 : (⟨S256x128, .f32⟩ : BufTy).Contents (Elt Ideal)) (a4 : (⟨S128x1, .f32⟩ : BufTy).Contents (Elt Ideal))
    (n : Fin 16384) :
    aggArr a1 (featArr a0 a2) (decoderCols a3 a4) (ix2 n (0 : Fin 2)) = half a1 a0 a2 a3 a4 n (Fin.castAdd 128) := by
  unfold aggArr half enc
  refine Finset.sum_congr rfl fun c _ => ?_
  show max (∑ r : Fin 16384, a1 (ix2 n r) * featArr a0 a2 (ix2 r c)) 0 * decoderCols a3 a4 (ix2 c (0 : Fin 2)) = _
  rw [(decoderCols_at a3 a4 c).1]
  rfl

/-- Column 1 of the second kernel's array at node `n`: the rectified encoding of `n` against the second half of the
    collapsed decoder column. -/
theorem agg_at1 (a0 : S16384x512.Idx → EReal) (a1 : S16384x16384.Idx → EReal) (a2 : S512x128.Idx → EReal)
    (a3 : (⟨S256x128, .f32⟩ : BufTy).Contents (Elt Ideal)) (a4 : (⟨S128x1, .f32⟩ : BufTy).Contents (Elt Ideal))
    (n : Fin 16384) :
    aggArr a1 (featArr a0 a2) (decoderCols a3 a4) (ix2 n (1 : Fin 2)) = half a1 a0 a2 a3 a4 n (Fin.natAdd 128) := by
  unfold aggArr half enc
  refine Finset.sum_congr rfl fun c _ => ?_
  show max (∑ r : Fin 16384, a1 (ix2 n r) * featArr a0 a2 (ix2 r c)) 0 * decoderCols a3 a4 (ix2 c (1 : Fin 2)) = _
  rw [(decoderCols_at a3 a4 c).2]
  rfl

/-- The host's last stretch applied to the second kernel's array is the edge scores. -/
theorem tail_is_G (a0 : S16384x512.Idx → EReal) (a1 : S16384x16384.Idx → EReal) (a2 : S512x128.Idx → EReal)
    (a3 : (⟨S256x128, .f32⟩ : BufTy).Contents (Elt Ideal)) (a4 : (⟨S128x1, .f32⟩ : BufTy).Contents (Elt Ideal))
    (a5 a6 : (⟨S524288x2, .i32⟩ : BufTy).Contents (Elt Ideal)) :
    tailOf (aggArr a1 (featArr a0 a2) (decoderCols a3 a4)) a5 a6
      = G a1 a0 a2 a3 a4 (kerSrc a5 a6) (kerDst a5 a6) := by
  funext i
  obtain ⟨e, z, rfl⟩ : ∃ (e : Fin 1048576) (z : Fin 1), i = ix2 e z := ⟨i 0, i 1, eq_ix2 i⟩
  obtain rfl : z = 0 := Subsingleton.elim _ _
  rw [tailOf_at, agg_at0, agg_at1]
  rfl

/-! ## The buffers the result is read from, walked back to the launch memory -/

variable (m : (ℓ : Loc nD τ sig) → Buf (Elt Ideal) ℓ) (c : Dev nD)

/-- The first kernel is entered with X as launched. -/
theorem entry0_arg0 : MainRun.entry0 m c main_arg0 = (m ((c : Thread nD τ).loc main_arg0)) :=
  (StableHlo.after_of_writes_sub hostOps0 _ hostOps0_writes (by decide)).trans rfl

/-- The first kernel is entered with W as launched. -/
theorem entry0_arg2 : MainRun.entry0 m c main_arg2 = (m ((c : Thread nD τ).loc main_arg2)) :=
  (StableHlo.after_of_writes_sub hostOps0 _ hostOps0_writes (by decide)).trans rfl

/-- The second kernel is entered with the adjacency matrix as launched. -/
theorem entry1_arg1 : MainRun.entry1 m c main_arg1 = (m ((c : Thread nD τ).loc main_arg1)) :=
  calc MainRun.afterFeat m c (Proc.devRef .tc main_arg1)
    _ = MainRun.afterPrefix m c (Proc.devRef .tc main_arg1) := MainRun.afterFeat_else m c main_arg1 (by decide)
    _ = MainRun.atLaunch m c (Proc.devRef .tc main_arg1) := StableHlo.after_of_writes_sub hostOps0 _ hostOps0_writes (by decide)
    _ = (m ((c : Thread nD τ).loc main_arg1)) := rfl

/-- The second kernel is entered with the two collapsed decoder columns of the decoder matrices as launched. -/
theorem entry1_v4 : MainRun.entry1 m c main_v4 = decoderCols (m ((c : Thread nD τ).loc main_arg3)) (m ((c : Thread nD τ).loc main_arg4)) :=
  calc MainRun.afterFeat m c (Proc.devRef .tc main_v4)
    _ = MainRun.afterPrefix m c (Proc.devRef .tc main_v4) := MainRun.afterFeat_else m c main_v4 (by decide)
    _ = decoderCols (MainRun.atLaunch m c (Proc.devRef .tc main_arg3)) (MainRun.atLaunch m c (Proc.devRef .tc main_arg4)) :=
        prefix_main_v4 (MainRun.atLaunch m c)
    _ = decoderCols (m ((c : Thread nD τ).loc main_arg3)) (m ((c : Thread nD τ).loc main_arg4)) := rfl

/-- The second kernel is entered with X · W of the arguments as launched. -/
theorem entry1_v5 : MainRun.entry1 m c main_v5 = featArr (m ((c : Thread nD τ).loc main_arg0)) (m ((c : Thread nD τ).loc main_arg2)) :=
  calc MainRun.afterFeat m c (Proc.devRef .tc main_v5)
    _ = (FeatRegion.dat (MainRun.entry0 m) c).arrAt 2 cfg0.N := MainRun.afterFeat_at m c 2
    _ = featArr (MainRun.entry0 m c main_arg0) (MainRun.entry0 m c main_arg2) := FeatValue.final (MainRun.entry0 m) c
    _ = featArr (m ((c : Thread nD τ).loc main_arg0)) (m ((c : Thread nD τ).loc main_arg2)) := by rw [entry0_arg0, entry0_arg2]

/-- The first edge list is as launched when the last stretch of host operations starts. -/
theorem afterAgg_arg5 : MainRun.afterAgg m c (Proc.devRef .tc main_arg5) = (m ((c : Thread nD τ).loc main_arg5)) :=
  calc MainRun.afterAgg m c (Proc.devRef .tc main_arg5)
    _ = MainRun.afterFeat m c (Proc.devRef .tc main_arg5) := MainRun.afterAgg_else m c main_arg5 (by decide)
    _ = MainRun.afterPrefix m c (Proc.devRef .tc main_arg5) := MainRun.afterFeat_else m c main_arg5 (by decide)
    _ = MainRun.atLaunch m c (Proc.devRef .tc main_arg5) := StableHlo.after_of_writes_sub hostOps0 _ hostOps0_writes (by decide)
    _ = (m ((c : Thread nD τ).loc main_arg5)) := rfl

/-- The second edge list is as launched when the last stretch of host operations starts. -/
theorem afterAgg_arg6 : MainRun.afterAgg m c (Proc.devRef .tc main_arg6) = (m ((c : Thread nD τ).loc main_arg6)) :=
  calc MainRun.afterAgg m c (Proc.devRef .tc main_arg6)
    _ = MainRun.afterFeat m c (Proc.devRef .tc main_arg6) := MainRun.afterAgg_else m c main_arg6 (by decide)
    _ = MainRun.afterPrefix m c (Proc.devRef .tc main_arg6) := MainRun.afterFeat_else m c main_arg6 (by decide)
    _ = MainRun.atLaunch m c (Proc.devRef .tc main_arg6) := StableHlo.after_of_writes_sub hostOps0 _ hostOps0_writes (by decide)
    _ = (m ((c : Thread nD τ).loc main_arg6)) := rfl

/-- The second kernel's output array, once that kernel's array is known to be the rectified aggregation against the
    decoder columns of what it was entered with: the same of the arguments as launched. -/
theorem afterAgg_v6
    (hagg : (AggRegion.dat (MainRun.entry1 m) c).arrAt 3 cfg1.N
      = Arrays.aggArr (MainRun.entry1 m c main_arg1) (MainRun.entry1 m c main_v5) (MainRun.entry1 m c main_v4)) :
    MainRun.afterAgg m c (Proc.devRef .tc main_v6)
      = aggArr (m ((c : Thread nD τ).loc main_arg1)) (featArr (m ((c : Thread nD τ).loc main_arg0)) (m ((c : Thread nD τ).loc main_arg2))) (decoderCols (m ((c : Thread nD τ).loc main_arg3)) (m ((c : Thread nD τ).loc main_arg4))) :=
  calc MainRun.afterAgg m c (Proc.devRef .tc main_v6)
    _ = (AggRegion.dat (MainRun.entry1 m) c).arrAt 3 cfg1.N := MainRun.afterAgg_at m c 3
    _ = Arrays.aggArr (MainRun.entry1 m c main_arg1) (MainRun.entry1 m c main_v5) (MainRun.entry1 m c main_v4) := hagg
    _ = aggArr (m ((c : Thread nD τ).loc main_arg1)) (featArr (m ((c : Thread nD τ).loc main_arg0)) (m ((c : Thread nD τ).loc main_arg2))) (decoderCols (m ((c : Thread nD τ).loc main_arg3)) (m ((c : Thread nD τ).loc main_arg4))) := by
        rw [entry1_arg1, entry1_v5, entry1_v4]

/-! ## The result -/

/-- THE KERNEL'S RESULT IS THE EDGE SCORES of the arguments as launched, the two endpoints selected by the start-index
    columns the host builds from the two edge lists — given that the second kernel's array is the rectified aggregation
    against the decoder columns of what that kernel was entered with. -/
theorem result_of
    (hagg : (AggRegion.dat (MainRun.entry1 m) c).arrAt 3 cfg1.N
      = Arrays.aggArr (MainRun.entry1 m c main_arg1) (MainRun.entry1 m c main_v5) (MainRun.entry1 m c main_v4)) :
    MainRun.atEnd m c (Proc.devRef .tc main_v37)
      = Cert.EdgeScore.G (m ((c : Thread nD τ).loc main_arg1)) (m ((c : Thread nD τ).loc main_arg0)) (m ((c : Thread nD τ).loc main_arg2)) (m ((c : Thread nD τ).loc main_arg3)) (m ((c : Thread nD τ).loc main_arg4))
          (HostAt.kerSrc (m ((c : Thread nD τ).loc main_arg5)) (m ((c : Thread nD τ).loc main_arg6))) (HostAt.kerDst (m ((c : Thread nD τ).loc main_arg5)) (m ((c : Thread nD τ).loc main_arg6))) := by
  refine (tail_main_v37 (MainRun.afterAgg m c)).trans ?_
  rw [afterAgg_v6 m c hagg, afterAgg_arg5, afterAgg_arg6]
  exact tail_is_G _ _ _ _ _ _ _

end Cert.KernelIdeal.KernelValue

end
-- ==== Proof.LibTiles.lean ====
/-
  General lemmas on sums cut into tiles, no program in sight:

  * a sum over `m·n` positions as the sum over `m` tiles of the sums over each tile's `n` positions, position `n·j + p`
    being position `p` of tile `j` (and its instance for 1024 = 8·128);
  * a running total that starts at the first term and adds one term per step is, after step `j`, the sum of the terms
    up to `j`; after the last step it is the sum of all of them.
-/
import Idealize.ShloMosaic.Lib.ValueIdx

open scoped BigOperators

namespace Cert.LibTiles

variable {M : Type*} [AddCommMonoid M]

/-- A sum over `m·n` positions, tile by tile: tile `j` holds the positions `n·j + p`, `p < n`. -/
theorem sum_tiles_mul (m n : ℕ) (g : Fin (m * n) → M) (hlt : ∀ (j : Fin m) (p : Fin n), n * j.val + p.val < m * n) :
    ∑ j : Fin m, ∑ p : Fin n, g ⟨n * j.val + p.val, hlt j p⟩ = ∑ k : Fin (m * n), g k := by
  rw [← Equiv.sum_comp finProdFinEquiv g, Fintype.sum_prod_type]
  refine Finset.sum_congr rfl fun j _ => Finset.sum_congr rfl fun p _ => congrArg g (Fin.ext ?_)
  rw [finProdFinEquiv_apply_val]
  exact Nat.add_comm _ _

/-- 1024 positions as 8 tiles of 128. -/
theorem sum_tiles (g : Fin 1024 → M) :
    ∑ j : Fin 8, ∑ p : Fin 128, g ⟨128 * j.val + p.val, by omega⟩ = ∑ n : Fin 1024, g n :=
  sum_tiles_mul 8 128 g fun j p => by omega

/-- A running total over `n` terms, after step `j`: the sum of the terms `0, …, j`. -/
theorem fold_partial {n : ℕ} (x : Fin n → M) (acc : ℕ → M) (h0 : ∀ h : 0 < n, acc 0 = x ⟨0, h⟩)
    (hs : ∀ j : ℕ, ∀ hj : j + 1 < n, acc (j + 1) = acc j + x ⟨j + 1, hj⟩) (j : ℕ) (hj : j < n) :
    acc j = ∑ i : Fin (j + 1), x (Fin.castLE (Nat.succ_le_of_lt hj) i) := by
  induction j with
  | zero =>
    rw [Fin.sum_univ_castSucc, Fin.sum_univ_zero, zero_add]
    exact h0 hj
  | succ k ih =>
    rw [Fin.sum_univ_castSucc, hs k hj, ih (Nat.lt_of_succ_lt hj)]
    rfl

/-- The same with the terms indexed by the naturals: after step `j` the total is the sum of the terms `0, …, j`. -/
theorem fold_range (x : ℕ → M) (acc : ℕ → M) (n : ℕ) (h0 : acc 0 = x 0)
    (hs : ∀ j : ℕ, j + 1 < n → acc (j + 1) = acc j + x (j + 1)) (j : ℕ) (hj : j < n) :
    acc j = ∑ i ∈ Finset.range (j + 1), x i := by
  induction j with
  | zero => rw [Finset.sum_range_one]; exact h0
  | succ k ih => rw [Finset.sum_range_succ, hs k hj, ih (Nat.lt_of_succ_lt hj)]

/-- A running total over all `n + 1` terms, after the last step: the sum of all of them. -/
theorem fold_all {n : ℕ} (x : Fin (n + 1) → M) (acc : ℕ → M) (h0 : acc 0 = x 0)
    (hs : ∀ j : ℕ, ∀ hj : j + 1 < n + 1, acc (j + 1) = acc j + x ⟨j + 1, hj⟩) : acc n = ∑ j : Fin (n + 1), x j :=
  (fold_partial x acc (fun _ => h0) hs n (Nat.lt_succ_self n)).trans
    (Finset.sum_congr rfl fun i _ => congrArg x (Fin.ext rfl))

/-- Eight tiles: a running total that starts at tile 0's term and adds tile `j + 1`'s at each step is, after tile 7, the sum over the tiles. -/
theorem fold_tiles (x : Fin 8 → M) (acc : ℕ → M) (h0 : acc 0 = x 0)
    (hs : ∀ j : ℕ, ∀ hj : j + 1 < 8, acc (j + 1) = acc j + x ⟨j + 1, hj⟩) : acc 7 = ∑ j : Fin 8, x j :=
  fold_all x acc h0 hs

end Cert.LibTiles
-- ==== Proof.BlockSum.lean ====
/-
  A sum over the 16384 nodes, cut into the 16 blocks of 1024 consecutive nodes the second
  kernel walks through: block `kb` holds the nodes `1024 · kb + r`, `r < 1024`.
-/
import proofs.«134503_j40699110097055_2_alg».proof.Proof.LibTiles

open scoped BigOperators

namespace Cert.EdgeScore

/-- The sum over 16 blocks of the sums over each block's 1024 nodes is the sum over all 16384 nodes. -/
theorem sum_blocks {M : Type*} [AddCommMonoid M] (f : Fin 16384 → M) :
    ∑ kb : Fin 16, ∑ r : Fin 1024, f ⟨1024 * kb.val + r.val, by omega⟩ = ∑ r : Fin 16384, f r :=
  Cert.LibTiles.sum_tiles_mul 16 1024 f fun j p => by omega

end Cert.EdgeScore
-- ==== Proof.AggValue.lean ====
/-
  What the second pallas_call leaves in its output array: for every node the two scores of its
  rectified aggregation against the decoder columns.

  Point t = 16·i + k of the 8 × 16 grid adds to a 2048 × 128 accumulator the product of block (i, k)
  of the adjacency matrix (rows 2048·i …, columns 1024·k …) with rows 1024·k … of X · W; the
  accumulator starts from zero at k = 0. So after point t its (p, q) entry is the sum of the tiles
  0 … k of node 2048·i + p: by induction on the point. At k = 15 the sixteen tiles are the whole sum
  over the 16384 neighbours; the accumulator, rectified, is multiplied with the 128 × 2 decoder
  columns and written back as rows 2048·i … of the output. The eight written blocks tile the 16384
  rows, so the array ends holding Σ_c max (Σ_r adj(n, r) · XW(r, c)) 0 · D(c, q) at (n, q).
-/
import proofs.«134503_j40699110097055_2_alg».proof.Proof.AggRegion
import proofs.«134503_j40699110097055_2_alg».proof.Proof.PayloadAt
import proofs.«134503_j40699110097055_2_alg».proof.Proof.BlockSum
import proofs.«134503_j40699110097055_2_alg».proof.Proof.KernelArrays
import Idealize.ShloMosaic.Lib.Pipeline.Value
import Idealize.ShloMosaic.Lib.ValueIdx

set_option maxRecDepth 16384

noncomputable section

open scoped BigOperators

namespace Cert.KernelIdeal.AggValue

open Cert.KernelIdeal Cert.KernelIdeal.Gen Cert.KernelIdeal.Arrays Idealize.ShloMosaic.ValueIdx
open Idealize.ShloMosaic Idealize.ShloMosaic.TcCoe
open Idealize.SL.Sem
open Idealize.ShloMosaic.Pipeline (Dat Cfg Window)

-- the contents of the core's buffers when the region is entered
variable (V : (c : Dev nD) → (b : Ref sig .tc) → Buf (Elt Ideal) ((c : Thread nD τ).loc b))

/-- The adjacency matrix, the product X · W and the decoder columns as the region finds them. -/
def adjA (c : Dev nD) : S16384x16384.Idx → EReal := V c main_arg1
def xwA (c : Dev nD) : S16384x128.Idx → EReal := V c main_v5
def dcA (c : Dev nD) : S128x2.Idx → EReal := V c main_v4

/-- The printed index maps over the 128 grid points: point `t` is row block `t / 16`, column block
    `t % 16`; the adjacency window follows both, the output window the row block, the two whole-array
    windows stay, and the rows of X · W the body reads start at `1024 · (t % 16)`. -/
theorem idx_facts : ∀ t : Fin cfg1.N,
    win1_0.index t (0 : Fin 2) = t.val / 16 ∧ win1_0.index t (1 : Fin 2) = t.val % 16
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val / 16 ∧ win1_3.index t (1 : Fin 2) = 0
    ∧ k1_off1 (grid1.coords t) = ![1024 * (t.val % 16), 0] :=
  (by decide +kernel : ∀ t : Fin grid1.N, _)

theorem lt128 {n : ℕ} (h : n < cfg1.N) : n < 128 := lt_of_lt_of_eq h (show cfg1.N = 128 from N_1)

/-- Row `p` of row block `n / 16`. -/
def rowOf (n : ℕ) (hn : n < 128) (p : Fin 2048) : Fin 16384 := ⟨2048 * (n / 16) + p.val, by omega⟩

/-- One tile of the aggregation: node `n`, feature `q`, the 1024 neighbours of column block `kb`
    (zero past the sixteenth block). -/
def tile (A : S16384x16384.Idx → EReal) (B : S16384x128.Idx → EReal) (n : Fin 16384) (q : Fin 128) (kb : ℕ) : EReal :=
  if h : kb < 16 then
    ∑ r : Fin 1024, A (ix2 n ⟨1024 * kb + r.val, by omega⟩) * B (ix2 ⟨1024 * kb + r.val, by omega⟩ q)
  else 0

/-- The adjacency block of point `t` at `(p, r)` is the matrix at row `p` of row block `t / 16`,
    column `r` of column block `t % 16`. -/
theorem blk0_at (c : Dev nD) (t : Fin cfg1.N) (p : Fin 2048) (r : Fin 1024) :
    (AggRegion.blockAt V c 0 t : Vec Ideal S2048x1024 .f32) (ix2 p r)
      = adjA V c (ix2 (rowOf t.val (lt128 t.isLt) p) ⟨1024 * (t.val % 16) + r.val, by omega⟩) := by
  obtain ⟨e0, e1, -⟩ := idx_facts t
  show adjA V c (((cfg1.win 0).blk t).view.emb (ix2 p r)) = _
  refine congrArg (adjA V c) (funext fun a => Fin.ext ?_)
  match a with
  | ⟨0, _⟩ =>
    show win1_0.index t (0 : Fin 2) * 2048 + 1 * p.val = 2048 * (t.val / 16) + p.val
    rw [e0]; omega
  | ⟨1, _⟩ =>
    show win1_0.index t (1 : Fin 2) * 1024 + 1 * r.val = 1024 * (t.val % 16) + r.val
    rw [e1]; omega

/-- The rows of X · W the body loads at point `t`, at `(r, q)`: row `r` of row block `t % 16`. -/
theorem blk1_at (c : Dev nD) (t : Fin cfg1.N) (r : Fin 1024) (q : Fin 128) :
    View.ld (AggRegion.blockAt V c 1 t : Vec Ideal S16384x128 .f32) (AggRegion.rS (grid1.coords t)) (ix2 r q)
      = xwA V c (ix2 ⟨1024 * (t.val % 16) + r.val, by omega⟩ q) := by
  obtain ⟨-, -, e2, e3, -, -, -, -, e8⟩ := idx_facts t
  show xwA V c (((cfg1.win 1).blk t).view.emb ((AggRegion.rS (grid1.coords t)).emb (ix2 r q))) = _
  refine congrArg (xwA V c) (funext fun a => Fin.ext ?_)
  match a with
  | ⟨0, _⟩ =>
    show win1_1.index t (0 : Fin 2) * 16384 + 1 * (k1_off1 (grid1.coords t) (0 : Fin 2) + 1 * r.val) = 1024 * (t.val % 16) + r.val
    rw [e2, e8]
    show 0 * 16384 + 1 * (1024 * (t.val % 16) + 1 * r.val) = 1024 * (t.val % 16) + r.val
    omega
  | ⟨1, _⟩ =>
    show win1_1.index t (1 : Fin 2) * 128 + 1 * (k1_off1 (grid1.coords t) (1 : Fin 2) + 1 * q.val) = q.val
    rw [e3, e8]
    show 0 * 128 + 1 * (0 + 1 * q.val) = q.val
    omega

/-- One step of the running sum at `(p, q)`: what was there plus the tile of column block `t % 16`. -/
theorem step_at (c : Dev nD) (t : Fin cfg1.N) (prev : Vec Ideal S2048x128 .f32) (p : Fin 2048) (q : Fin 128) :
    AggRegion.accStep (AggRegion.blockAt V c 0 t) (AggRegion.blockAt V c 1 t) (grid1.coords t) prev (ix2 p q)
      = prev (ix2 p q) + tile (adjA V c) (xwA V c) (rowOf t.val (lt128 t.isLt) p) q (t.val % 16) := by
  unfold AggRegion.accStep
  refine (Cert.KernelIdeal.PayloadAt.acc_at _ _ prev p q).trans ?_
  refine congrArg (prev (ix2 p q) + ·) ?_
  unfold tile
  rw [dif_pos (Nat.mod_lt _ (by decide))]
  refine Finset.sum_congr rfl fun r _ => ?_
  rw [View.ld_unit_zero (S := S2048x1024) AggRegion.hz, blk0_at, blk1_at]

/-- THE ACCUMULATOR after point `n`, at `(p, q)`: the tiles of the column blocks `0 … n % 16` of node
    `p` of row block `n / 16`. By induction on the point: a point that opens a reduction starts from zero,
    every other adds its tile to what the point before left (same row block, one column block earlier). -/
theorem acc_eq (c : Dev nD) : ∀ (n : ℕ) (h : n < cfg1.N) (p : Fin 2048) (q : Fin 128),
    AggRegion.accAfter V c n h (ix2 p q)
      = ∑ kb ∈ Finset.range (n % 16 + 1), tile (adjA V c) (xwA V c) (rowOf n (lt128 h) p) q kb := by
  intro n
  induction n with
  | zero =>
    intro h p q
    refine (congrFun (AggRegion.accAfter_first V c ⟨0, h⟩ rfl) (ix2 p q)).trans ?_
    rw [step_at, Cert.KernelIdeal.PayloadAt.zero_at, zero_add]
    exact (Finset.sum_range_one _).symm
  | succ m ih =>
    intro h p q
    have hm : m < cfg1.N := Nat.lt_of_succ_lt h
    have h128 : m + 1 < 128 := lt128 h
    by_cases h0 : (m + 1) % 16 = 0
    · refine (congrFun (AggRegion.accAfter_first V c ⟨m + 1, h⟩ h0) (ix2 p q)).trans ?_
      rw [step_at, Cert.KernelIdeal.PayloadAt.zero_at, zero_add]
      show tile _ _ _ q ((m + 1) % 16) = _
      rw [h0]
      exact (Finset.sum_range_one _).symm
    · refine (congrFun (AggRegion.accAfter_next V c ⟨m + 1, h⟩ h0) (ix2 p q)).trans ?_
      rw [step_at]
      show AggRegion.accAfter V c m _ (ix2 p q) + tile _ _ (rowOf (m + 1) _ p) q ((m + 1) % 16) = _
      rw [ih hm p q]
      have e1 : (m + 1) % 16 = m % 16 + 1 := by omega
      have e2 : rowOf m (lt128 hm) p = rowOf (m + 1) h128 p :=
        Fin.ext (by show 2048 * (m / 16) + p.val = 2048 * ((m + 1) / 16) + p.val; omega)
      rw [e2, e1, Finset.sum_range_succ _ (m % 16 + 1)]

/-- All sixteen tiles together are the whole sum over the 16384 neighbours. -/
theorem tiles_all (A : S16384x16384.Idx → EReal) (B : S16384x128.Idx → EReal) (n : Fin 16384) (q : Fin 128) :
    ∑ kb ∈ Finset.range 16, tile A B n q kb = ∑ r : Fin 16384, A (ix2 n r) * B (ix2 r q) := by
  rw [Finset.sum_range (fun kb => tile A B n q kb)]
  refine Eq.trans (Finset.sum_congr rfl fun kb _ => ?_) (Cert.EdgeScore.sum_blocks fun r => A (ix2 n r) * B (ix2 r q))
  unfold tile
  rw [dif_pos kb.isLt]

/-- The decoder columns the body loads, at any point: the whole 128 × 2 array. -/
theorem blk2_at (c : Dev nD) (t : Fin cfg1.N) (k : Fin 128) (u : Fin 2) :
    View.ld (AggRegion.blockAt V c 2 t : Vec Ideal S128x2 .f32) AggRegion.rD (ix2 k u) = dcA V c (ix2 k u) := by
  obtain ⟨-, -, -, -, e4, e5, -⟩ := idx_facts t
  rw [View.ld_unit_zero (S := S128x2) AggRegion.hz]
  show dcA V c (((cfg1.win 2).blk t).view.emb (ix2 k u)) = _
  refine congrArg (dcA V c) (funext fun a => Fin.ext ?_)
  match a with
  | ⟨0, _⟩ =>
    show win1_2.index t (0 : Fin 2) * 128 + 1 * k.val = k.val
    rw [e4]; omega
  | ⟨1, _⟩ =>
    show win1_2.index t (1 : Fin 2) * 2 + 1 * u.val = u.val
    rw [e5]; omega

/-- The scores of a completed accumulator at `(p, u)`: the rectified whole aggregation of node `p` of the
    row block against decoder column `u`. -/
theorem score_at (c : Dev nD) (t : Fin cfg1.N) (hf : t.val % 16 = 15) (p : Fin 2048) (u : Fin 2) :
    AggRegion.scoreOut (AggRegion.accAfter V c t.val t.isLt) (AggRegion.blockAt V c 2 t) (ix2 p u)
      = aggArr (adjA V c) (xwA V c) (dcA V c) (ix2 (rowOf t.val (lt128 t.isLt) p) u) := by
  unfold AggRegion.scoreOut
  refine (Cert.KernelIdeal.PayloadAt.out_at _ _ p u).trans ?_
  show _ = ∑ k : Fin 128, max (∑ r : Fin 16384, adjA V c (ix2 (rowOf t.val (lt128 t.isLt) p) r) * xwA V c (ix2 r k)) 0
    * dcA V c (ix2 k u)
  refine Finset.sum_congr rfl fun k _ => ?_
  have e16 : t.val % 16 + 1 = 16 := by omega
  rw [acc_eq, blk2_at, e16, tiles_all]

/-- What a point that closes a reduction writes back is its block of the scores array. -/
theorem flushed_eq (c : Dev nD) (t : Fin cfg1.N) (hf : t.val % 16 = 15) :
    (AggRegion.dat V c).flushed 3 t
      = ((cfg1.win 3).blk t).view.read (Elt Ideal) (aggArr (V c main_arg1) (V c main_v5) (V c main_v4)) := by
  show (cfg1.win 3).cut (grid1.coords t) ((AggRegion.dat V c).after 3 t) = _
  rw [AggRegion.after_3]
  obtain ⟨-, -, -, -, -, -, e6, e7, -⟩ := idx_facts t
  funext j
  obtain ⟨p, u, rfl⟩ : ∃ (p : Fin 2048) (u : Fin 2), j = ix2 p u := ⟨j 0, j 1, eq_ix2 j⟩
  refine (score_at V c t hf p u).trans ?_
  show aggArr (adjA V c) (xwA V c) (dcA V c) (ix2 (rowOf t.val (lt128 t.isLt) p) u)
    = aggArr (adjA V c) (xwA V c) (dcA V c) (((cfg1.win 3).blk t).view.emb (ix2 p u))
  refine congrArg (aggArr (adjA V c) (xwA V c) (dcA V c)) (funext fun a => Fin.ext ?_)
  match a with
  | ⟨0, _⟩ =>
    show 2048 * (t.val / 16) + p.val = win1_3.index t (0 : Fin 2) * 2048 + 1 * p.val
    rw [e6]; omega
  | ⟨1, _⟩ =>
    show u.val = win1_3.index t (1 : Fin 2) * 2 + 1 * u.val
    rw [e7]; omega

/-- An index of the scores array is in point `t`'s block iff each coordinate is in the block's range. -/
theorem mem_blk (t : Fin cfg1.N) (i : S16384x2.Idx) :
    i ∈ ((cfg1.win 3).blk t).view.set ↔ ∀ a : Fin 2, win1_3.index t a * S2048x2.size a ≤ (i a).val
      ∧ (i a).val < win1_3.index t a * S2048x2.size a + S2048x2.size a := by
  show i ∈ ((View.whole main_v6).slice (win1_3.rect t)).set ↔ _
  rw [View.set_slice_whole, Rect.mem_set_unit]
  exact Iff.rfl

/-- Every node lies in the block of the point that closes its row block's reduction. -/
theorem cover (i : S16384x2.Idx) :
    ∃ t : Fin cfg1.N, (cfg1.win 3).flush t = true ∧ i ∈ ((cfg1.win 3).blk t).view.set := by
  have hi0 : (i 0).val < 16384 := (i 0).isLt
  have hi1 : (i 1).val < 2 := (i 1).isLt
  have ht : 16 * ((i 0).val / 2048) + 15 < cfg1.N := by rw [show cfg1.N = 128 from N_1]; omega
  refine ⟨⟨16 * ((i 0).val / 2048) + 15, ht⟩,
    (flush1_3 _).mpr (by show (16 * ((i 0).val / 2048) + 15) % 16 = 15; omega), ?_⟩
  rw [mem_blk]
  obtain ⟨-, -, -, -, -, -, e6, e7, -⟩ := idx_facts ⟨16 * ((i 0).val / 2048) + 15, ht⟩
  intro a
  match a with
  | ⟨0, _⟩ =>
    show win1_3.index _ (0 : Fin 2) * 2048 ≤ (i 0).val ∧ (i 0).val < win1_3.index _ (0 : Fin 2) * 2048 + 2048
    rw [e6]
    show (16 * ((i 0).val / 2048) + 15) / 16 * 2048 ≤ (i 0).val
      ∧ (i 0).val < (16 * ((i 0).val / 2048) + 15) / 16 * 2048 + 2048
    omega
  | ⟨1, _⟩ =>
    show win1_3.index _ (1 : Fin 2) * 2 ≤ (i 1).val ∧ (i 1).val < win1_3.index _ (1 : Fin 2) * 2 + 2
    rw [e7]; omega

/-- THE ARRAY after the second pallas_call: for every node the two scores of its rectified aggregation
    against the decoder columns, of the arrays as the region finds them. -/
theorem final (c : Dev nD) :
    (AggRegion.dat V c).arrAt 3 cfg1.N = aggArr (V c main_arg1) (V c main_v5) (V c main_v4) :=
  (AggRegion.dat V c).arrAt_eq_of_cover 3 (aggArr (V c main_arg1) (V c main_v5) (V c main_v4))
    (fun t hf => flushed_eq V c t ((flush1_3 t).mp hf)) cover

end Cert.KernelIdeal.AggValue

end
-- ==== Proof.KernelRun.lean ====
/-
  The idealized kernel's run, with its result named.

  Every weakly fair execution of the kernel's @main terminates with every unscoped buffer at the
  contents the four segments leave. Read at the result buffer those contents are the host tail applied
  to the scores array, which the second pallas_call leaves as the rectified aggregation against the
  two decoder columns of the first host stretch, over the feature product the first pallas_call
  leaves: the function G of the arguments. Read at an argument they are the launch contents.
-/
import proofs.«134503_j40699110097055_2_alg».proof.Proof.Gen.KernelIdeal.Launch
import proofs.«134503_j40699110097055_2_alg».proof.Proof.Gen.KernelIdeal.Skeleton
import proofs.«134503_j40699110097055_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«134503_j40699110097055_2_alg».proof.Proof.MainFrame
import proofs.«134503_j40699110097055_2_alg».proof.Proof.KernelValue
import proofs.«134503_j40699110097055_2_alg».proof.Proof.AggValue

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- At `Ideal`: the run ends with the result at `G` of the arguments (the gather indices the kernel's own
    chains of host operations on the two edge lists) and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v37)
        = Cert.EdgeScore.G (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4))
            (HostAt.kerSrc (m ((c.tc : Thread nD τ).loc main_arg5)) (m ((c.tc : Thread nD τ).loc main_arg6)))
            (HostAt.kerDst (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (MainRun.held_ref main_v37 (by decide))).trans
        (KernelValue.result_of m c (AggValue.final (MainRun.entry1 m) c)),
      (h c _ (MainRun.held_ref main_arg0 (by decide))).trans (MainFrame.end_arg0 m c),
      (h c _ (MainRun.held_ref main_arg1 (by decide))).trans (MainFrame.end_arg1 m c),
      (h c _ (MainRun.held_ref main_arg2 (by decide))).trans (MainFrame.end_arg2 m c),
      (h c _ (MainRun.held_ref main_arg3 (by decide))).trans (MainFrame.end_arg3 m c),
      (h c _ (MainRun.held_ref main_arg4 (by decide))).trans (MainFrame.end_arg4 m c),
      (h c _ (MainRun.held_ref main_arg5 (by decide))).trans (MainFrame.end_arg5 m c),
      (h c _ (MainRun.held_ref main_arg6 (by decide))).trans (MainFrame.end_arg6 m c)⟩)
    (MainRun.run_all m ρ)

end Cert.KernelIdeal.KernelRun

end
-- ==== Proof.LibGatherRows.lean ====
/-
  A general lemma: `stablehlo.gather` of WHOLE ROWS of a rank-2 operand, read at an index.

  What `jnp.take(x, idx, axis = 0)` of a table `x : [N, C]` at an integer vector `idx : [R]` lowers to: a gather with
  offset_dims `[1]`, collapsed_slice_dims `[0]`, start_index_map `[0]`, index_vector_dim `1` and slice sizes `[1, C]`
  over the indices as a column `[R, 1]`. Result element `(t, d)` is `x` at row `idx[t, 0]` — read as a signed integer
  and clamped into `[0, N − 1]`, as the gather clamps every start index — and column `d`: on the operand's row axis
  the clamped start index alone (that axis is collapsed: no offset), on its column axis the result's own column
  coordinate alone (that axis is not in the start index map: start `0`).
-/
import Idealize.ShloMosaic.PureOps
import Idealize.ShloMosaic.Lib.ValueIdx

noncomputable section

namespace Cert.Lib.GatherRows

open Idealize.ShloMosaic Idealize.ShloMosaic.ValueIdx

variable {α : Type}

/-- Those dimension numbers for an operand `[N, C]`, start indices `[R, 1]` and result `[R, C]`; their conditions
    `wf` are decided on a program's literal shapes. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE GATHER OF ROWS READ AT `(t, d)`: the operand at row `r`, the start index `idx[t, 0]` read signed and clamped into
    `[0, N − 1]`, and column `d`. The row is a variable with its defining equation, so that a user substitutes the
    row it has computed without rewriting under an index's bound proof. -/
theorem gather_rows_apply {N C R w : Nat}
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (t : Fin R) (d : Fin C) (r : Fin N)
    (hr : r.val = min (idx (ix2 t (0 : Fin 1))).toInt.toNat (N - 1)) :
    Host.gather (rowDims N C R wf) x idx (ix2 t d) = x (ix2 r d) := by
  unfold Host.gather
  refine congrArg x (funext fun a => Fin.ext ?_)
  match a with
  | ⟨0, _⟩ =>
    show (rowDims N C R wf).start (ix2 t d) idx 0 + (rowDims N C R wf).batchCoord (ix2 t d) 0
      + (rowDims N C R wf).offCoord (ix2 t d) 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 t d) ⟨List.idxOf (0 : Fin 2) (rowDims N C R wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi, hr]
    rfl
  | ⟨1, _⟩ =>
    show (rowDims N C R wf).start (ix2 t d) idx 1 + (rowDims N C R wf).batchCoord (ix2 t d) 1
      + (rowDims N C R wf).offCoord (ix2 t d) 1 = d.val
    rw [GatherDims.batchCoord_eq_zero _ _ _ List.not_mem_nil]
    unfold GatherDims.start
    have h10 : (1 : Fin 2) ∉ ([0] : List (Fin 2)) := by decide
    rw [dif_neg (show (1 : Fin 2) ∉ (rowDims N C R wf).startIndexMap from h10)]
    unfold GatherDims.offCoord
    rw [dif_pos ((GatherDims.mem_sKept _ _).mpr ⟨(show (1 : Fin 2) ∉ (rowDims N C R wf).collapsedSliceDims from h10), List.not_mem_nil⟩)]
    simp only [Nat.add_zero, Nat.zero_add]
    rfl

end Cert.Lib.GatherRows

end
-- ==== Proof.RefRows.lean ====
/-
  The reference's pair row, read at an index.

  The reference encodes every node, Z = adj · (X · W), then for every edge gathers the row of Z its source index selects
  and the row its target index selects and lays the two side by side: a row of 256 entries whose first 128 are the
  source's encoding and whose last 128 are the target's. This module reads those stages at an index:
    * the encoder stage at (n, c) is the double sum Σ_r adj n r · Σ_k X r k · W k c;
    * a gathered row at (e, c) is the encoder at the node the edge's start index selects (the index read as a signed
      word and clamped into the node range) and column c;
    * the joined row at (e, c) is the first gathered row for c < 128 and the second, at c − 128, from 128 on.
-/
import proofs.«134503_j40699110097055_2_alg».proof.Proof.RefRead
import proofs.«134503_j40699110097055_2_alg».proof.Proof.Spec
import proofs.«134503_j40699110097055_2_alg».proof.Proof.LibGatherRows

noncomputable section

open scoped BigOperators

namespace Cert.ReferenceIdeal.RefValue

open Cert.ReferenceIdeal Cert.ReferenceIdeal.Gen Cert.ReferenceIdeal.Read Idealize.ShloMosaic Idealize.ShloMosaic.ValueIdx
  Cert.EdgeScore

/-! ## The index functions of the two encoder products, at coordinates -/

theorem lidx_v0_at (r : Fin 16384) (c : Fin 128) (k : Fin 512) : lidx_main_v0 (ix2 r c) k = ix2 r k :=
  funext fun a => Fin.ext (by match a with | ⟨0, _⟩ => rfl | ⟨1, _⟩ => rfl)

theorem ridx_v0_at (r : Fin 16384) (c : Fin 128) (k : Fin 512) : ridx_main_v0 (ix2 r c) k = ix2 k c :=
  funext fun a => Fin.ext (by match a with | ⟨0, _⟩ => rfl | ⟨1, _⟩ => rfl)

theorem lidx_v1_at (n : Fin 16384) (c : Fin 128) (r : Fin 16384) : lidx_main_v1 (ix2 n c) r = ix2 n r :=
  funext fun a => Fin.ext (by match a with | ⟨0, _⟩ => rfl | ⟨1, _⟩ => rfl)

theorem ridx_v1_at (n : Fin 16384) (c : Fin 128) (r : Fin 16384) : ridx_main_v1 (ix2 n c) r = ix2 r c :=
  funext fun a => Fin.ext (by match a with | ⟨0, _⟩ => rfl | ⟨1, _⟩ => rfl)

/-! ## The encoder -/

/-- The first product at (r, c): the sum over the 512 input features. -/
theorem feat_at (x0 : (⟨Cert.ReferenceIdeal.S16384x512, .f32⟩ : BufTy).Contents (Elt Ideal))
    (x2 : (⟨Cert.ReferenceIdeal.S512x128, .f32⟩ : BufTy).Contents (Elt Ideal))
    (r : Fin 16384) (c : Fin 128) :
    val_main_v0 (F := Ideal) x0 x2 (ix2 r c) = feat x0 x2 r c := by
  rw [val_main_v0_apply]
  unfold feat
  refine Finset.sum_congr rfl fun k _ => ?_
  rw [lidx_v0_at, ridx_v0_at]

/-- The encoder stage at (n, c): the sum over the nodes of the adjacency entry times the first product. -/
theorem enc_at (x0 : (⟨Cert.ReferenceIdeal.S16384x512, .f32⟩ : BufTy).Contents (Elt Ideal))
    (x1 : (⟨Cert.ReferenceIdeal.S16384x16384, .f32⟩ : BufTy).Contents (Elt Ideal))
    (x2 : (⟨Cert.ReferenceIdeal.S512x128, .f32⟩ : BufTy).Contents (Elt Ideal))
    (n : Fin 16384) (c : Fin 128) :
    val_main_v1 (F := Ideal) x0 x1 x2 (ix2 n c) = enc x1 x0 x2 n c := by
  rw [val_main_v1_apply]
  unfold enc
  refine Finset.sum_congr rfl fun r _ => ?_
  rw [lidx_v1_at, ridx_v1_at, feat_at]

/-! ## The gathered rows -/

/-- The gather's dimension numbers are those of a gather of whole rows. -/
theorem gather_dims_eq :
    gather_S16384x128_S1048576x1_S1048576x128_1_0_n_n_0_1_1128
      = Cert.Lib.GatherRows.rowDims 16384 128 1048576 Facts₀.gather_S16384x128_S1048576x1_S1048576x128_1_0_n_n_0_1_1128_wf :=
  rfl

/-- A gather of rows of the encoder stage at (e, c): the encoder at the node the edge's start index selects. -/
theorem gathered_at (x0 : (⟨Cert.ReferenceIdeal.S16384x512, .f32⟩ : BufTy).Contents (Elt Ideal))
    (x1 : (⟨Cert.ReferenceIdeal.S16384x16384, .f32⟩ : BufTy).Contents (Elt Ideal))
    (x2 : (⟨Cert.ReferenceIdeal.S512x128, .f32⟩ : BufTy).Contents (Elt Ideal))
    (idx : (⟨Cert.ReferenceIdeal.S1048576x1, .i32⟩ : BufTy).Contents (Elt Ideal)) (e : Fin 1048576) (c : Fin 128) :
    Host.gather gather_S16384x128_S1048576x1_S1048576x128_1_0_n_n_0_1_1128 (val_main_v1 (F := Ideal) x0 x1 x2) idx (ix2 e c)
      = enc x1 x0 x2 (nodeOf idx e) c := by
  rw [gather_dims_eq]
  refine (Cert.Lib.GatherRows.gather_rows_apply _ (val_main_v1 (F := Ideal) x0 x1 x2) idx e c (nodeOf idx e) rfl).trans ?_
  exact enc_at x0 x1 x2 (nodeOf idx e) c

/-- The row gathered for the edge's source. -/
theorem src_row_at (x0 : (⟨Cert.ReferenceIdeal.S16384x512, .f32⟩ : BufTy).Contents (Elt Ideal))
    (x1 : (⟨Cert.ReferenceIdeal.S16384x16384, .f32⟩ : BufTy).Contents (Elt Ideal))
    (x2 : (⟨Cert.ReferenceIdeal.S512x128, .f32⟩ : BufTy).Contents (Elt Ideal))
    (x5 x6 : (⟨Cert.ReferenceIdeal.S524288x2, .i32⟩ : BufTy).Contents (Elt Ideal)) (e : Fin 1048576) (c : Fin 128) :
    val_main_v11 (F := Ideal) x0 x1 x2 x5 x6 (ix2 e c) = enc x1 x0 x2 (nodeOf (val_main_v10 (F := Ideal) x5 x6) e) c := by
  unfold val_main_v11
  exact gathered_at x0 x1 x2 _ e c

/-- The row gathered for the edge's target. -/
theorem dst_row_at (x0 : (⟨Cert.ReferenceIdeal.S16384x512, .f32⟩ : BufTy).Contents (Elt Ideal))
    (x1 : (⟨Cert.ReferenceIdeal.S16384x16384, .f32⟩ : BufTy).Contents (Elt Ideal))
    (x2 : (⟨Cert.ReferenceIdeal.S512x128, .f32⟩ : BufTy).Contents (Elt Ideal))
    (x5 x6 : (⟨Cert.ReferenceIdeal.S524288x2, .i32⟩ : BufTy).Contents (Elt Ideal)) (e : Fin 1048576) (c : Fin 128) :
    val_main_v20 (F := Ideal) x0 x1 x2 x5 x6 (ix2 e c) = enc x1 x0 x2 (nodeOf (val_main_v19 (F := Ideal) x5 x6) e) c := by
  unfold val_main_v20
  exact gathered_at x0 x1 x2 _ e c

/-! ## The joined row -/

/-- The first 128 entries of the joined row are the source's encoding. -/
theorem pair_left_at (x0 : (⟨Cert.ReferenceIdeal.S16384x512, .f32⟩ : BufTy).Contents (Elt Ideal))
    (x1 : (⟨Cert.ReferenceIdeal.S16384x16384, .f32⟩ : BufTy).Contents (Elt Ideal))
    (x2 : (⟨Cert.ReferenceIdeal.S512x128, .f32⟩ : BufTy).Contents (Elt Ideal))
    (x5 x6 : (⟨Cert.ReferenceIdeal.S524288x2, .i32⟩ : BufTy).Contents (Elt Ideal)) (e : Fin 1048576) (c : Fin 128) :
    val_main_v21 (F := Ideal) x0 x1 x2 x5 x6 (ix2 e (Fin.castAdd 128 c : Fin 256))
      = enc x1 x0 x2 (nodeOf (val_main_v10 (F := Ideal) x5 x6) e) c := by
  unfold val_main_v21
  refine (concatenate_pair_apply_left (t := S1048576x256) (s₁ := S1048576x128) (s₂ := S1048576x128) _ _ _ _
    (ix2 e (Fin.castAdd 128 c : Fin 256)) rfl (ix2 e c) (fun b => ?_)).trans ?_
  · match b with
    | ⟨0, _⟩ => rfl
    | ⟨1, _⟩ => rfl
  · exact src_row_at x0 x1 x2 x5 x6 e c

/-- The last 128 entries of the joined row are the target's encoding. -/
theorem pair_right_at (x0 : (⟨Cert.ReferenceIdeal.S16384x512, .f32⟩ : BufTy).Contents (Elt Ideal))
    (x1 : (⟨Cert.ReferenceIdeal.S16384x16384, .f32⟩ : BufTy).Contents (Elt Ideal))
    (x2 : (⟨Cert.ReferenceIdeal.S512x128, .f32⟩ : BufTy).Contents (Elt Ideal))
    (x5 x6 : (⟨Cert.ReferenceIdeal.S524288x2, .i32⟩ : BufTy).Contents (Elt Ideal)) (e : Fin 1048576) (c : Fin 128) :
    val_main_v21 (F := Ideal) x0 x1 x2 x5 x6 (ix2 e (Fin.natAdd 128 c : Fin 256))
      = enc x1 x0 x2 (nodeOf (val_main_v19 (F := Ideal) x5 x6) e) c := by
  unfold val_main_v21
  refine (concatenate_pair_apply_right (t := S1048576x256) (s₁ := S1048576x128) (s₂ := S1048576x128) _ _ _ _
    (ix2 e (Fin.natAdd 128 c : Fin 256)) rfl rfl (ix2 e c) (fun b hb => ?_) ?_).trans ?_
  · match b, hb with
    | ⟨0, _⟩, _ => rfl
    | ⟨1, _⟩, hb => exact absurd rfl hb
  · show c.val + 128 = 128 + c.val
    omega
  · exact dst_row_at x0 x1 x2 x5 x6 e c

end Cert.ReferenceIdeal.RefValue

end
-- ==== Proof.LibReal.lean ====
/-
  Real numbers among the extended reals.

  Over the extended reals the sum and the product are total, but the laws that move a factor across a sum hold only
  away from the infinities. `IsReal z` says `z` is a real number; real numbers are closed under the sum, the product,
  finite sums and the logistic function, a real factor moves inside a finite sum of real numbers
  (`mul_sum_of_real`), and a scatter that adds real updates into a real array gives a real array.

  How an input is known to be real: a precondition that compares the absolute value of every element of a 32-bit float
  array with plus infinity (the pattern 0x7F800000) says, element by element, that the element is a real number
  (`elem_real`: one element of that comparison being 1; the all-reduce by "and" of the comparison gives every element's).
-/
import Idealize.ShloMosaic.PureOps.Ideal
import Idealize.ShloMosaic.PureOps.Ideal.Laws

noncomputable section

open scoped BigOperators

namespace Cert.LibReal

open Idealize.ShloMosaic

/-- An extended real that is a real number. -/
def IsReal (z : EReal) : Prop := ∃ r : ℝ, z = (r : EReal)

theorem IsReal.coe (r : ℝ) : IsReal (r : EReal) := ⟨r, rfl⟩

theorem IsReal.zero : IsReal 0 := ⟨0, EReal.coe_zero.symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

/-- A finite sum of real numbers is a real number. -/
theorem IsReal.sum {ι : Type*} (s : Finset ι) (f : ι → EReal) (h : ∀ i ∈ s, IsReal (f i)) : IsReal (∑ i ∈ s, f i) :=
  Finset.sum_induction f IsReal (fun _ _ => IsReal.add) IsReal.zero h

/-- The logistic function of a real number is a real number. -/
theorem IsReal.logistic {a : EReal} (ha : IsReal a) : IsReal (Ideal.logistic a) := by
  obtain ⟨r, rfl⟩ := ha; exact ⟨_, Ideal.logistic_coe r⟩

/-- A real factor times a finite sum of real numbers is the sum of the products. -/
theorem mul_sum_of_real {ι : Type*} (s : Finset ι) (g : EReal) (a : ι → EReal) (hg : IsReal g)
    (ha : ∀ i ∈ s, IsReal (a i)) : g * ∑ i ∈ s, a i = ∑ i ∈ s, g * a i := by
  classical
  obtain ⟨r, rfl⟩ := hg
  revert ha
  refine Finset.induction_on s ?_ ?_
  · intro _; simp
  · intro i s hi ih ha
    rw [Finset.sum_insert hi, Finset.sum_insert hi, ← ih (fun j hj => ha j (Finset.mem_insert_of_mem hj))]
    obtain ⟨x, hx⟩ := ha i (Finset.mem_insert_self i s)
    obtain ⟨y, hy⟩ := IsReal.sum s a (fun j hj => ha j (Finset.mem_insert_of_mem hj))
    rw [hx, hy, ← EReal.coe_add, ← EReal.coe_mul, ← EReal.coe_mul, ← EReal.coe_mul, ← EReal.coe_add, mul_add]

/-- Adding real updates into a real array leaves every element real: the element plus a finite sum of updates. -/
theorem scatterAdd_real {s si su : Shape} {w : Nat} (d : ScatterDims s si su) (x : FVec Ideal s .f32) (idx : IVec si w)
    (upd : FVec Ideal su .f32) (hx : ∀ i, IsReal (x i)) (hu : ∀ j, IsReal (upd j)) :
    ∀ i, IsReal (Host.scatterAdd d x idx upd i) := by
  intro i
  show IsReal (Ideal.hostScatterAdd d x idx upd i)
  unfold Ideal.hostScatterAdd
  exact IsReal.add (hx i) (IsReal.sum _ _ fun j _ => hu j)

/-- The rank-zero shape has one index. -/
instance scalarIdx_subsingleton : Subsingleton (⟨0, ![]⟩ : Shape).Idx := ⟨fun a b => funext fun d => d.elim0⟩

/-- An extended real whose absolute value, the larger of it and its negation, is below plus infinity is a real number. -/
theorem isReal_of_abs_lt_top (x : EReal) (h : max x (-x) < ⊤) : IsReal x := by
  induction x using EReal.rec with
  | bot => simp at h
  | coe r => exact ⟨r, rfl⟩
  | top => simp at h

/-- The pattern 0x7F800000 of the 32-bit format is plus infinity. -/
theorem ofBits_inf : Ideal.ofBits .f32 0x7F800000#32 = ⊤ := by simp [Ideal.ofBits, Ideal.ieee]

/-- One element of the comparison of the absolute values against a splat of plus infinity being 1 says the
    element is a real number. -/
theorem elem_real {s : Shape} (hb : (⟨0, ![]⟩ : Shape).BroadcastsInDim s (![] : Fin 0 → Fin s.rank))
    (a : FVec Ideal s .f32) (i : s.Idx)
    (h : cmpf .olt (Host.absf a) (broadcastInDim s ![] hb (constant (⟨0, ![]⟩ : Shape) .f32 0x7F800000#32)) i = 1#1) :
    IsReal (a i) := by
  have h' : Ideal.cmp .olt (max (a i) (-(a i))) (Ideal.ofBits .f32 0x7F800000#32) = 1#1 := h
  rw [ofBits_inf] at h'
  unfold Ideal.cmp at h'
  refine isReal_of_abs_lt_top (a i) ?_
  by_contra hn
  simp [hn] at h'

end Cert.LibReal

end
-- ==== Proof.LibRealOps.lean ====
/-
  More closure properties of the real numbers among the extended reals.

  A real number is an extended real other than the two infinities. Besides the sum, the product and finite sums, the
  real numbers are closed under the difference, the negation, the larger and the smaller of two, the exponential, the
  quotient by a nonzero real, and the reciprocal square root of a positive real: on real arguments each of these
  operations on the extended reals is the real operation, coerced.
-/
import proofs.«134503_j40699110097055_2_alg».proof.Proof.LibReal

noncomputable section

open scoped BigOperators

namespace Cert.LibRealOps

open Idealize.ShloMosaic Cert.LibReal

/-- 1 is a real number. -/
theorem IsReal.one : IsReal 1 := ⟨1, EReal.coe_one.symm⟩

/-- A real number is not plus infinity. -/
theorem IsReal.ne_top {a : EReal} (ha : IsReal a) : a ≠ ⊤ := by
  obtain ⟨r, rfl⟩ := ha; exact EReal.coe_ne_top r

/-- A real number is not minus infinity. -/
theorem IsReal.ne_bot {a : EReal} (ha : IsReal a) : a ≠ ⊥ := by
  obtain ⟨r, rfl⟩ := ha; exact EReal.coe_ne_bot r

/-- An extended real that is neither infinity is a real number. -/
theorem IsReal.of_ne {a : EReal} (ht : a ≠ ⊤) (hb : a ≠ ⊥) : IsReal a := by
  induction a using EReal.rec with
  | bot => exact absurd rfl hb
  | coe r => exact ⟨r, rfl⟩
  | top => exact absurd rfl ht

/-- The negation of a real number is a real number. -/
theorem IsReal.neg {a : EReal} (ha : IsReal a) : IsReal (-a) := by
  obtain ⟨r, rfl⟩ := ha; exact ⟨-r, (EReal.coe_neg r).symm⟩

/-- The difference of two real numbers is a real number. -/
theorem IsReal.sub {a b : EReal} (ha : IsReal a) (hb : IsReal b) : IsReal (a - b) := by
  obtain ⟨r, rfl⟩ := ha; obtain ⟨s, rfl⟩ := hb; exact ⟨r - s, (EReal.coe_sub r s).symm⟩

/-- The larger of two real numbers is a real number. -/
theorem IsReal.max {a b : EReal} (ha : IsReal a) (hb : IsReal b) : IsReal (max a b) := by
  obtain ⟨r, rfl⟩ := ha; obtain ⟨s, rfl⟩ := hb
  exact ⟨Max.max r s, (EReal.coe_strictMono.monotone.map_max).symm⟩

/-- The smaller of two real numbers is a real number. -/
theorem IsReal.min {a b : EReal} (ha : IsReal a) (hb : IsReal b) : IsReal (min a b) := by
  obtain ⟨r, rfl⟩ := ha; obtain ⟨s, rfl⟩ := hb
  exact ⟨Min.min r s, (EReal.coe_strictMono.monotone.map_min).symm⟩

/-- The exponential of a real number is a real number. -/
theorem IsReal.exp {a : EReal} (ha : IsReal a) : IsReal (Ideal.exp a) := by
  obtain ⟨r, rfl⟩ := ha; exact ⟨Real.exp r, Ideal.exp_coe r⟩

/-- The quotient of a real number by a nonzero real is a real number. -/
theorem IsReal.div_coe {a : EReal} (ha : IsReal a) {N : ℝ} (hN : N ≠ 0) : IsReal (Ideal.div a (N : EReal)) := by
  obtain ⟨r, rfl⟩ := ha
  exact ⟨r * (1 / N), by rw [Ideal.div_coe hN, EReal.coe_mul]⟩

/-- The quotient of a real number by a nonzero real number is a real number. -/
theorem IsReal.div {a b : EReal} (ha : IsReal a) (hb : IsReal b) (hb0 : b ≠ 0) : IsReal (Ideal.div a b) := by
  obtain ⟨s, rfl⟩ := hb
  exact IsReal.div_coe ha (fun h => hb0 (by rw [h, EReal.coe_zero]))

/-- The reciprocal square root of a positive real is a real number. -/
theorem IsReal.rsqrt_coe {r : ℝ} (hr : 0 < r) : IsReal (Ideal.rsqrt (r : EReal)) :=
  ⟨(Real.sqrt r)⁻¹, by rw [Ideal.rsqrt_coe, if_neg (not_lt.mpr hr.le), if_neg hr.ne']⟩

/-- A sum of real numbers over a whole finite index type is a real number. -/
theorem IsReal.sum_univ {ι : Type*} [Fintype ι] (f : ι → EReal) (h : ∀ i, IsReal (f i)) : IsReal (∑ i, f i) :=
  IsReal.sum Finset.univ f (fun i _ => h i)

end Cert.LibRealOps

end
-- ==== Proof.LibRealMatmul.lean ====
/-
  Matrix products of real numbers among the extended reals.

  Over the extended reals a sum of products is always defined, but the two laws a matrix product is re-arranged by —
  a product distributes over a sum of matrices, and a product of three matrices may be bracketed either way — fail at
  the infinities (`(⊤ + ⊥) · x` against `⊤ · x + ⊥ · x`). For entries that are real numbers both hold, by passing to the
  reals and back. They are stated for one row `a` of the left factor and one column `c` of the right factor, over any
  finite index types:

    * `add_mul_sum_of_real`   ∑ k, (a k + b k) · s k = ∑ k, a k · s k + ∑ k, b k · s k
    * `diag_mul_sum`          ∑ k, (if i = k then v else 0) · s k = v · s i          (no condition: one term survives)
    * `dot_add_diag_of_real`  ∑ k, (a k + (if i = k then v else 0)) · s k = ∑ k, a k · s k + v · s i
                                — a row of `A + v·I` against a column (`(A + I) · S = A · S + S` at `v = 1`)
    * `dot_assoc_of_real`     ∑ k, (∑ l, a l · B l k) · c k = ∑ l, a l · ∑ k, B l k · c k
                                — `(A · B) · C = A · (B · C)`, one entry
    * `dot_dot_sub_diag_of_real`  ∑ k, ((∑ l, a l · B l k) + (if i = k then -1 else 0)) · c k
                                  = (∑ l, a l · ∑ k, B l k · c k) - c i
                                — a row of `A · B − I` against a column: `(A · B − I) · C = A · (B · C) − C`
  with `coe_sum` (the coercion of a finite sum of real numbers) and `real_family` (a family of real extended reals is
  the coercion of a family of real numbers) as the tools. Imports the library and the file of real numbers among
  the extended reals only.
-/
import Idealize.ShloMosaic.PureOps.Ideal
import proofs.«134503_j40699110097055_2_alg».proof.Proof.LibReal

noncomputable section

open scoped BigOperators

namespace Cert.LibRealMatmul

open Cert.LibReal

/-- The coercion of a finite sum of real numbers is the sum of the coercions. -/
theorem coe_sum {ι : Type*} (s : Finset ι) (f : ι → ℝ) : ((∑ i ∈ s, f i : ℝ) : EReal) = ∑ i ∈ s, (f i : EReal) := by
  classical
  refine Finset.induction_on s (by simp) ?_
  intro i s hi ih
  rw [Finset.sum_insert hi, Finset.sum_insert hi, EReal.coe_add, ih]

/-- A family of extended reals that are all real numbers is the coercion of a family of real numbers. -/
theorem real_family {ι : Type*} (a : ι → EReal) (h : ∀ i, IsReal (a i)) : ∃ f : ι → ℝ, a = fun i => (f i : EReal) :=
  ⟨fun i => (h i).choose, funext fun i => (h i).choose_spec⟩

/-- The same for a doubly indexed family. -/
theorem real_family₂ {ι κ : Type*} (B : ι → κ → EReal) (h : ∀ i k, IsReal (B i k)) :
    ∃ G : ι → κ → ℝ, B = fun i k => (G i k : EReal) :=
  ⟨fun i k => (h i k).choose, funext fun i => funext fun k => (h i k).choose_spec⟩

/-- A sum of products of real numbers, coerced. -/
theorem coe_dot {ι : Type*} (s : Finset ι) (f g : ι → ℝ) :
    ∑ k ∈ s, (f k : EReal) * (g k : EReal) = ((∑ k ∈ s, f k * g k : ℝ) : EReal) := by
  rw [coe_sum]
  exact Finset.sum_congr rfl fun k _ => (EReal.coe_mul _ _).symm

variable {ι κ : Type*} [Fintype ι] [Fintype κ]

/-- A row that is a sum of two real rows, against a real column: the product distributes. -/
theorem add_mul_sum_of_real (a b s : ι → EReal) (ha : ∀ k, IsReal (a k)) (hb : ∀ k, IsReal (b k))
    (hs : ∀ k, IsReal (s k)) : ∑ k, (a k + b k) * s k = ∑ k, a k * s k + ∑ k, b k * s k := by
  obtain ⟨f, rfl⟩ := real_family a ha
  obtain ⟨g, rfl⟩ := real_family b hb
  obtain ⟨h, rfl⟩ := real_family s hs
  rw [coe_dot, coe_dot, ← EReal.coe_add, ← Finset.sum_add_distrib, coe_sum]
  refine Finset.sum_congr rfl fun k _ => ?_
  rw [← EReal.coe_add, ← EReal.coe_mul, add_mul]

/-- A row with one entry `v` at position `i` and zero elsewhere, against any column: one term survives. -/
theorem diag_mul_sum [DecidableEq ι] (i : ι) (v : EReal) (s : ι → EReal) :
    ∑ k, (if i = k then v else 0) * s k = v * s i := by
  have : ∀ k, (if i = k then v else 0) * s k = if i = k then v * s k else 0 := fun k => by
    split <;> simp
  simp only [this, Finset.sum_ite_eq, Finset.mem_univ, if_true]

/-- A row of `A + v·I` against a column (all real): the product with `A`'s row, plus `v` times the column's entry
    `i`. -/
theorem dot_add_diag_of_real [DecidableEq ι] (i : ι) (v : EReal) (a s : ι → EReal) (hv : IsReal v)
    (ha : ∀ k, IsReal (a k)) (hs : ∀ k, IsReal (s k)) :
    ∑ k, (a k + (if i = k then v else 0)) * s k = ∑ k, a k * s k + v * s i := by
  rw [add_mul_sum_of_real a (fun k => if i = k then v else 0) s ha (fun k => by split; exact hv; exact IsReal.zero) hs,
    diag_mul_sum]

/-- One entry of `(A · B) · C = A · (B · C)`: `a` a row of `A`, `c` a column of `C`, all entries real. -/
theorem dot_assoc_of_real (a : ι → EReal) (B : ι → κ → EReal) (c : κ → EReal) (ha : ∀ l, IsReal (a l))
    (hB : ∀ l k, IsReal (B l k)) (hc : ∀ k, IsReal (c k)) :
    ∑ k, (∑ l, a l * B l k) * c k = ∑ l, a l * ∑ k, B l k * c k := by
  obtain ⟨f, rfl⟩ := real_family a ha
  obtain ⟨G, rfl⟩ := real_family₂ B hB
  obtain ⟨h, rfl⟩ := real_family c hc
  have hl : ∀ k, (∑ l, (f l : EReal) * (G l k : EReal)) * (h k : EReal) = (((∑ l, f l * G l k) * h k : ℝ) : EReal) :=
    fun k => by rw [coe_dot, ← EReal.coe_mul]
  have hr : ∀ l, (f l : EReal) * ∑ k, (G l k : EReal) * (h k : EReal) = ((f l * ∑ k, G l k * h k : ℝ) : EReal) :=
    fun l => by rw [coe_dot, ← EReal.coe_mul]
  simp only [hl, hr]
  rw [← coe_sum, ← coe_sum]
  refine congrArg (fun r : ℝ => (r : EReal)) ?_
  simp only [Finset.sum_mul, Finset.mul_sum]
  rw [Finset.sum_comm]
  exact Finset.sum_congr rfl fun l _ => Finset.sum_congr rfl fun k _ => mul_assoc _ _ _

/-- A row of `A · B − I` against a column (all real): `(A · B − I) · C = A · (B · C) − C`, one entry. The identity's
    entry is spelt as the literal `-1` added on the diagonal, the way a scatter-add of `-1` prints it. -/
theorem dot_dot_sub_diag_of_real [DecidableEq κ] (i : κ) (a : ι → EReal) (B : ι → κ → EReal) (c : κ → EReal)
    (ha : ∀ l, IsReal (a l)) (hB : ∀ l k, IsReal (B l k)) (hc : ∀ k, IsReal (c k)) :
    ∑ k, ((∑ l, a l * B l k) + (if i = k then (-1 : EReal) else 0)) * c k = (∑ l, a l * ∑ k, B l k * c k) - c i := by
  have hrow : ∀ k, IsReal (∑ l, a l * B l k) := fun k =>
    IsReal.sum _ _ fun l _ => IsReal.mul (ha l) (hB l k)
  have hneg : IsReal (-1 : EReal) := ⟨-1, by simp⟩
  rw [dot_add_diag_of_real i (-1) (fun k => ∑ l, a l * B l k) c hneg hrow hc, dot_assoc_of_real a B c ha hB hc,
    neg_mul, one_mul, sub_eq_add_neg]

end Cert.LibRealMatmul

end
-- ==== Proof.Law.lean ====
/-
  The law that joins the two decoders.

  The reference sends the rectified pair row r (256 entries: the source node's 128 rectified features, then the
  target's) through W₂ (256 × 128) and then through w₃ (128 × 1):   Σ_j (Σ_c r c · W₂ c j) · w₃ j.
  The kernel first collapses the decoder to one column v = W₂ · w₃ and splits it in two halves:
      Σ_{c<128} r c · v c  +  Σ_{c<128} r (128 + c) · v (128 + c).
  The two agree because the matrix product is associative, (r · W₂) · w₃ = r · (W₂ · w₃), and because a sum over 256
  indices is the sum over the first 128 plus the sum over the last 128. Associativity moves a factor across a sum, which
  over the extended reals is only true away from the infinities: this is where the inputs being real numbers is used.
  The rectified encodings are real because sums, products and the larger of two real numbers are real.
-/
import proofs.«134503_j40699110097055_2_alg».proof.Proof.Spec
import proofs.«134503_j40699110097055_2_alg».proof.Proof.LibReal
import proofs.«134503_j40699110097055_2_alg».proof.Proof.LibRealOps
import proofs.«134503_j40699110097055_2_alg».proof.Proof.LibRealMatmul

noncomputable section

open scoped BigOperators

namespace Cert.EdgeScore.Law

open Idealize.ShloMosaic Idealize.ShloMosaic.ValueIdx Cert.LibReal Cert.EdgeScore

/-- An entry of the first product X · W of real matrices is real. -/
theorem feat_real (X : Mat 16384 512) (W : Mat 512 128) (hX : ∀ i, IsReal (X i)) (hW : ∀ i, IsReal (W i))
    (r : Fin 16384) (c : Fin 128) : IsReal (feat X W r c) :=
  IsReal.sum _ _ fun k _ => IsReal.mul (hX _) (hW _)

/-- An entry of the encoder adj · (X · W) of real matrices is real. -/
theorem enc_real (adj : Mat 16384 16384) (X : Mat 16384 512) (W : Mat 512 128) (hA : ∀ i, IsReal (adj i))
    (hX : ∀ i, IsReal (X i)) (hW : ∀ i, IsReal (W i)) (n : Fin 16384) (c : Fin 128) : IsReal (enc adj X W n c) :=
  IsReal.sum _ _ fun r _ => IsReal.mul (hA _) (feat_real X W hX hW r c)

/-- The rectified encoding is real. -/
theorem relu_enc_real (adj : Mat 16384 16384) (X : Mat 16384 512) (W : Mat 512 128) (hA : ∀ i, IsReal (adj i))
    (hX : ∀ i, IsReal (X i)) (hW : ∀ i, IsReal (W i)) (n : Fin 16384) (c : Fin 128) :
    IsReal (max (enc adj X W n c) 0) :=
  Cert.LibRealOps.IsReal.max (enc_real adj X W hA hX hW n c) IsReal.zero

/-- An entry of the collapsed decoder column W₂ · w₃ of real matrices is real. -/
theorem wcol_real (W2 : Mat 256 128) (w3 : Mat 128 1) (h2 : ∀ i, IsReal (W2 i)) (h3 : ∀ i, IsReal (w3 i))
    (c : Fin 256) : IsReal (wcol W2 w3 c) :=
  IsReal.sum _ _ fun j _ => IsReal.mul (h2 _) (h3 _)

/-- Associativity, one entry: a real row through W₂ and then w₃ is the row against the collapsed column W₂ · w₃. -/
theorem decoder_collapse (r : Fin 256 → EReal) (W2 : Mat 256 128) (w3 : Mat 128 1) (hr : ∀ c, IsReal (r c))
    (h2 : ∀ i, IsReal (W2 i)) (h3 : ∀ i, IsReal (w3 i)) :
    ∑ j : Fin 128, (∑ c : Fin 256, r c * W2 (ix2 c j)) * w3 (ix2 j (0 : Fin 1)) = ∑ c : Fin 256, r c * wcol W2 w3 c :=
  Cert.LibRealMatmul.dot_assoc_of_real r (fun c j => W2 (ix2 c j)) (fun j => w3 (ix2 j (0 : Fin 1))) hr
    (fun _ _ => h2 _) (fun _ => h3 _)

/-- A sum over 256 indices is the sum over the first 128 plus the sum over the last 128. -/
theorem sum_halves (f : Fin 256 → EReal) :
    ∑ c : Fin 256, f c = ∑ c : Fin 128, f (Fin.castAdd 128 c) + ∑ c : Fin 128, f (Fin.natAdd 128 c) :=
  Fin.sum_univ_add (M := EReal) (a := 128) (b := 128) f

/-- THE LAW. A pair row whose first half is the encoding of the edge's source node and whose second half is the
    encoding of its target node, rectified, sent through W₂ and then w₃, is the edge's score: the source against the first
    half of the collapsed column plus the target against the second half. All matrices have real entries. -/
theorem score_of_pair (adj : Mat 16384 16384) (X : Mat 16384 512) (W : Mat 512 128) (W2 : Mat 256 128) (w3 : Mat 128 1)
    (src dst : EdgeIdx) (e : Fin 1048576)
    (hA : ∀ i, IsReal (adj i)) (hX : ∀ i, IsReal (X i)) (hW : ∀ i, IsReal (W i))
    (h2 : ∀ i, IsReal (W2 i)) (h3 : ∀ i, IsReal (w3 i))
    (pair : Fin 256 → EReal)
    (hl : ∀ c : Fin 128, pair (Fin.castAdd 128 c) = enc adj X W (nodeOf src e) c)
    (hrt : ∀ c : Fin 128, pair (Fin.natAdd 128 c) = enc adj X W (nodeOf dst e) c) :
    ∑ j : Fin 128, (∑ c : Fin 256, max (pair c) 0 * W2 (ix2 c j)) * w3 (ix2 j (0 : Fin 1))
      = score adj X W W2 w3 src dst e := by
  have hr : ∀ c : Fin 256, IsReal (max (pair c) 0) := fun c => by
    refine Fin.addCases (m := 128) (n := 128) (motive := fun c => IsReal (max (pair c) 0)) (fun a => ?_) (fun a => ?_) c
    · rw [hl a]; exact relu_enc_real adj X W hA hX hW _ a
    · rw [hrt a]; exact relu_enc_real adj X W hA hX hW _ a
  rw [decoder_collapse (fun c => max (pair c) 0) W2 w3 hr h2 h3, sum_halves]
  unfold score half
  simp only [hl, hrt]

end Cert.EdgeScore.Law

end
-- ==== Proof.RefValue.lean ====
/-
  The reference computes the edge scores.

  After the joined row (the source's encoding beside the target's) the reference rectifies it entry by entry, sends it
  through W₂ and then through w₃ — two matrix products, each a finite sum at every index — and applies the logistic
  function 1 / (1 + exp (−h)) entry by entry. At an edge e the two products are the double sum
      Σ_j (Σ_c max (pair e c) 0 · W₂ c j) · w₃ j,
  which for real inputs is the edge's score by associativity of the matrix product and the split of the 256 columns in
  two halves; the logistic function of the score is the result's entry.
-/
import proofs.«134503_j40699110097055_2_alg».proof.Proof.RefRows
import proofs.«134503_j40699110097055_2_alg».proof.Proof.Law

noncomputable section

open scoped BigOperators

namespace Cert.ReferenceIdeal.RefValue

open Cert.ReferenceIdeal Cert.ReferenceIdeal.Gen Cert.ReferenceIdeal.Read Idealize.ShloMosaic Idealize.ShloMosaic.ValueIdx
  Cert.EdgeScore

/-! ## The index functions of the two decoder products, at coordinates -/

theorem lidx_v23_at (e : Fin 1048576) (j : Fin 128) (c : Fin 256) : lidx_main_v23 (ix2 e j) c = ix2 e c :=
  funext fun a => Fin.ext (by match a with | ⟨0, _⟩ => rfl | ⟨1, _⟩ => rfl)

theorem ridx_v23_at (e : Fin 1048576) (j : Fin 128) (c : Fin 256) : ridx_main_v23 (ix2 e j) c = ix2 c j :=
  funext fun a => Fin.ext (by match a with | ⟨0, _⟩ => rfl | ⟨1, _⟩ => rfl)

theorem lidx_v24_at (e : Fin 1048576) (z : Fin 1) (j : Fin 128) : lidx_main_v24 (ix2 e z) j = ix2 e j :=
  funext fun a => Fin.ext (by match a with | ⟨0, _⟩ => rfl | ⟨1, _⟩ => rfl)

theorem ridx_v24_at (e : Fin 1048576) (z : Fin 1) (j : Fin 128) : ridx_main_v24 (ix2 e z) j = ix2 j z :=
  funext fun a => Fin.ext (by match a with | ⟨0, _⟩ => rfl | ⟨1, _⟩ => rfl)

/-! ## The rectified row and the two decoder products -/

/-- The rectified joined row at (e, c): the larger of the joined row's entry and zero. -/
theorem relu_at (x0 : (⟨Cert.ReferenceIdeal.S16384x512, .f32⟩ : BufTy).Contents (Elt Ideal))
    (x1 : (⟨Cert.ReferenceIdeal.S16384x16384, .f32⟩ : BufTy).Contents (Elt Ideal))
    (x2 : (⟨Cert.ReferenceIdeal.S512x128, .f32⟩ : BufTy).Contents (Elt Ideal))
    (x5 x6 : (⟨Cert.ReferenceIdeal.S524288x2, .i32⟩ : BufTy).Contents (Elt Ideal)) (e : Fin 1048576) (c : Fin 256) :
    val_main_v22 (F := Ideal) x0 x1 x2 x5 x6 (ix2 e c) = max (val_main_v21 (F := Ideal) x0 x1 x2 x5 x6 (ix2 e c)) 0 := by
  rw [val_main_v22_apply, val_main_call0_v0_apply, val_main_call0_cst_apply, Ideal.maximumf_def, Ideal.ofBits_def,
    Ideal.ofBits_zero_f32]

/-- The second decoder product at edge e: the double sum over the 128 hidden features and the 256 columns of the
    rectified joined row. -/
theorem logit_sums (x0 : (⟨Cert.ReferenceIdeal.S16384x512, .f32⟩ : BufTy).Contents (Elt Ideal))
    (x1 : (⟨Cert.ReferenceIdeal.S16384x16384, .f32⟩ : BufTy).Contents (Elt Ideal))
    (x2 : (⟨Cert.ReferenceIdeal.S512x128, .f32⟩ : BufTy).Contents (Elt Ideal))
    (x3 : (⟨Cert.ReferenceIdeal.S256x128, .f32⟩ : BufTy).Contents (Elt Ideal))
    (x4 : (⟨Cert.ReferenceIdeal.S128x1, .f32⟩ : BufTy).Contents (Elt Ideal))
    (x5 x6 : (⟨Cert.ReferenceIdeal.S524288x2, .i32⟩ : BufTy).Contents (Elt Ideal))
    (e : Fin 1048576) :
    val_main_v24 (F := Ideal) x0 x1 x2 x3 x4 x5 x6 (ix2 e (0 : Fin 1))
      = ∑ j : Fin 128, (∑ c : Fin 256, max (val_main_v21 (F := Ideal) x0 x1 x2 x5 x6 (ix2 e c)) 0 * x3 (ix2 c j))
          * x4 (ix2 j (0 : Fin 1)) := by
  rw [val_main_v24_apply]
  refine Finset.sum_congr rfl fun j _ => ?_
  rw [lidx_v24_at, ridx_v24_at, val_main_v23_apply]
  refine congrArg (· * x4 (ix2 j (0 : Fin 1))) (Finset.sum_congr rfl fun c _ => ?_)
  rw [lidx_v23_at, ridx_v23_at, relu_at]

/-- For real inputs the second decoder product at edge e is the edge's score. -/
theorem logit_at (x0 : (⟨Cert.ReferenceIdeal.S16384x512, .f32⟩ : BufTy).Contents (Elt Ideal))
    (x1 : (⟨Cert.ReferenceIdeal.S16384x16384, .f32⟩ : BufTy).Contents (Elt Ideal))
    (x2 : (⟨Cert.ReferenceIdeal.S512x128, .f32⟩ : BufTy).Contents (Elt Ideal))
    (x3 : (⟨Cert.ReferenceIdeal.S256x128, .f32⟩ : BufTy).Contents (Elt Ideal))
    (x4 : (⟨Cert.ReferenceIdeal.S128x1, .f32⟩ : BufTy).Contents (Elt Ideal))
    (x5 x6 : (⟨Cert.ReferenceIdeal.S524288x2, .i32⟩ : BufTy).Contents (Elt Ideal))
    (h0 : ∀ i, Cert.LibReal.IsReal (x0 i)) (h1 : ∀ i, Cert.LibReal.IsReal (x1 i)) (h2 : ∀ i, Cert.LibReal.IsReal (x2 i))
    (h3 : ∀ i, Cert.LibReal.IsReal (x3 i)) (h4 : ∀ i, Cert.LibReal.IsReal (x4 i))
    (e : Fin 1048576) :
    val_main_v24 (F := Ideal) x0 x1 x2 x3 x4 x5 x6 (ix2 e (0 : Fin 1))
      = score x1 x0 x2 x3 x4 (val_main_v10 (F := Ideal) x5 x6) (val_main_v19 (F := Ideal) x5 x6) e := by
  rw [logit_sums]
  exact Cert.EdgeScore.Law.score_of_pair x1 x0 x2 x3 x4 (val_main_v10 (F := Ideal) x5 x6) (val_main_v19 (F := Ideal) x5 x6) e
    h1 h0 h2 h3 h4 (fun c => val_main_v21 (F := Ideal) x0 x1 x2 x5 x6 (ix2 e c))
    (fun c => pair_left_at x0 x1 x2 x5 x6 e c) (fun c => pair_right_at x0 x1 x2 x5 x6 e c)

/-! ## The result -/

/-- THE REFERENCE IS THE EDGE SCORES: for real inputs the reference's result is, edge by edge, the logistic function
    of the edge's score, the two endpoints selected by the start-index columns the reference builds from its two
    edge lists. -/
theorem ref_is_G (x0 : (⟨Cert.ReferenceIdeal.S16384x512, .f32⟩ : BufTy).Contents (Elt Ideal))
    (x1 : (⟨Cert.ReferenceIdeal.S16384x16384, .f32⟩ : BufTy).Contents (Elt Ideal))
    (x2 : (⟨Cert.ReferenceIdeal.S512x128, .f32⟩ : BufTy).Contents (Elt Ideal))
    (x3 : (⟨Cert.ReferenceIdeal.S256x128, .f32⟩ : BufTy).Contents (Elt Ideal))
    (x4 : (⟨Cert.ReferenceIdeal.S128x1, .f32⟩ : BufTy).Contents (Elt Ideal))
    (x5 x6 : (⟨Cert.ReferenceIdeal.S524288x2, .i32⟩ : BufTy).Contents (Elt Ideal))
    (h0 : ∀ i, Cert.LibReal.IsReal (x0 i)) (h1 : ∀ i, Cert.LibReal.IsReal (x1 i)) (h2 : ∀ i, Cert.LibReal.IsReal (x2 i))
    (h3 : ∀ i, Cert.LibReal.IsReal (x3 i)) (h4 : ∀ i, Cert.LibReal.IsReal (x4 i)) :
    Cert.ReferenceIdeal.Read.val_main_v30 x0 x1 x2 x3 x4 x5 x6
      = Cert.EdgeScore.G x1 x0 x2 x3 x4 (Cert.ReferenceIdeal.Read.val_main_v10 x5 x6)
          (Cert.ReferenceIdeal.Read.val_main_v19 x5 x6) := by
  funext i
  obtain ⟨e, z, rfl⟩ : ∃ (e : Fin 1048576) (z : Fin 1), i = ix2 e z := ⟨i 0, i 1, eq_ix2 i⟩
  obtain rfl : z = 0 := Subsingleton.elim _ _
  rw [val_main_v30_apply, val_main_v29_apply, val_main_cst_3_apply, val_main_v28_apply, val_main_v27_apply,
    val_main_cst_apply, val_main_v26_apply, val_main_v25_apply, logit_at x0 x1 x2 x3 x4 x5 x6 h0 h1 h2 h3 h4 e]
  rw [Ideal.hostDivf_def, Ideal.addf_def, Ideal.hostUnary_exp_def, Ideal.hostNegf_def, Ideal.negf_def, Ideal.ofBits_def]
  unfold G logistic1
  rfl

end Cert.ReferenceIdeal.RefValue

end
-- ==== Proof.Finite.lean ====
/-
  Finiteness of the inputs, read out of the precondition.

  The precondition is the conjunction of five statements, one per floating-point argument (the node features, the
  adjacency matrix and the three weight matrices): every entry's absolute value is below plus infinity. Each statement is
  an all-reduction by "and" of an entry-by-entry comparison, and the five are joined by "and". The precondition being 1
  therefore says that every one of the five conjuncts is 1, hence every comparison is 1 at every index, hence every entry
  of every floating-point argument is a real number, neither infinity. The two index arguments are not constrained.
-/
import proofs.«134503_j40699110097055_2_alg».proof.Pre_finite_inputs
import proofs.«134503_j40699110097055_2_alg».proof.Proof.LibReal
import Idealize.ShloMosaic.Lib.ReduceAll
import Idealize.ShloMosaic.Lib.ValueIdx

noncomputable section

namespace Cert.FiniteInputs

open Idealize.ShloMosaic Cert.LibReal Cert.Pre_finite_inputs

/-- One conjunct: an all-reduction by "and" of the comparison "absolute value below plus infinity" that is 1 says every
    entry of the array is a real number. -/
theorem real_of_all {s : Shape} {axes : List (Fin s.rank)} (hb : S_.BroadcastsInDim s (![] : Fin 0 → Fin s.rank))
    (hr : s.ReducesTo axes S_)
    (hu : 0 < S_.numel) (a : FVec Ideal s .f32) (init : IVec S_ 1)
    (h : Host.reduce IntOp.andi (cmpf .olt (Host.absf a) (broadcastInDim s ![] hb (constant S_ .f32 0x7F800000#32)))
      init hr hu ValueIdx.ix0 = 1#1) (i : s.Idx) : IsReal (a i) :=
  elem_real hb a i (Host.reduce_andi_all _ init hr hu ValueIdx.ix0 h i)

/-- The precondition holds exactly when all five conjuncts do; each conjunct gives the reality of one argument's
    entries. -/
theorem real_of_pre [Cert.Pre_finite_inputs.Facts] (a0 : FVec Ideal Cert.Pre_finite_inputs.S16384x512 .f32)
    (a1 : FVec Ideal Cert.Pre_finite_inputs.S16384x16384 .f32) (a2 : FVec Ideal Cert.Pre_finite_inputs.S512x128 .f32)
    (a3 : FVec Ideal Cert.Pre_finite_inputs.S256x128 .f32) (a4 : FVec Ideal Cert.Pre_finite_inputs.S128x1 .f32)
    (a5 a6 : IVec Cert.Pre_finite_inputs.S524288x2 32)
    (h : Cert.Pre_finite_inputs.fn (F := Ideal) a0 a1 a2 a3 a4 a5 a6 = (fun _ => 1#1)) :
    (∀ i, Cert.LibReal.IsReal (a0 i)) ∧ (∀ i, Cert.LibReal.IsReal (a1 i)) ∧ (∀ i, Cert.LibReal.IsReal (a2 i))
      ∧ (∀ i, Cert.LibReal.IsReal (a3 i)) ∧ (∀ i, Cert.LibReal.IsReal (a4 i)) := by
  have h0 := congrFun h ValueIdx.ix0
  dsimp only [Cert.Pre_finite_inputs.fn, Cert.Pre_finite_inputs.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨real_of_all _ _ _ a0 _ e0, real_of_all _ _ _ a1 _ e1, real_of_all _ _ _ a2 _ e2,
    real_of_all _ _ _ a3 _ e3, real_of_all _ _ _ a4 _ e4⟩

end Cert.FiniteInputs

end
-- ==== Proof.IndexChains.lean ====
/-
  The two programs compute their gather start indices by the same chain of host operations on the
  two edge lists: the lists one under the other, one column taken as a vector, the negative numbers
  moved up by 16384, the result written back as a column. So the kernel's start indices for the
  sources and for the targets are the reference's.
-/
import proofs.«134503_j40699110097055_2_alg».proof.Proof.HostTail
import proofs.«134503_j40699110097055_2_alg».proof.Proof.RefRead

noncomputable section

namespace Cert.KernelIdeal.HostAt

open Cert.KernelIdeal Cert.KernelIdeal.Gen Idealize.ShloMosaic

/-- The kernel's start indices for the edges' sources are the reference's. -/
theorem kerSrc_eq (a5 a6 : (⟨S524288x2, .i32⟩ : BufTy).Contents (Elt Ideal)) :
    kerSrc a5 a6 = Cert.ReferenceIdeal.Read.val_main_v10 (F := Ideal) a5 a6 := rfl

/-- The kernel's start indices for the edges' targets are the reference's. -/
theorem kerDst_eq (a5 a6 : (⟨S524288x2, .i32⟩ : BufTy).Contents (Elt Ideal)) :
    kerDst a5 a6 = Cert.ReferenceIdeal.Read.val_main_v19 (F := Ideal) a5 a6 := rfl

end Cert.KernelIdeal.HostAt

end
-- ==== Proof.Claims.lean ====
/-
  The five claims.

  Frames. The kernel's @main, at either float instance, is four segments whose run leaves every
  argument array as launched; the reference's run does the same. Preservation. The idealization
  rewrote no operation, so there is nothing to preserve. Equivalence at the extended reals. From
  memories that agree on the arguments, the kernel's run ends with its result at G of the arguments
  and the reference's run with its result at the same G: for the reference this is where the
  precondition is used — with real entries the product of the rectified pair of rows with the two
  decoder matrices re-associates into the two column sums the kernel computes — and the two
  programs' gather indices are one chain of host operations on the edge lists.
-/
import proofs.«134503_j40699110097055_2_alg».proof.Defs
import proofs.«134503_j40699110097055_2_alg».proof.Proof.Gen.Kernel
import proofs.«134503_j40699110097055_2_alg».proof.Proof.Gen.KernelIdeal
import proofs.«134503_j40699110097055_2_alg».proof.Proof.Gen.ReferenceIdeal
import proofs.«134503_j40699110097055_2_alg».proof.Proof.Gen.Pre_finite_inputs
import proofs.«134503_j40699110097055_2_alg».proof.Proof.BitsMainFrame
import proofs.«134503_j40699110097055_2_alg».proof.Proof.MainFrame
import proofs.«134503_j40699110097055_2_alg».proof.Proof.KernelRun
import proofs.«134503_j40699110097055_2_alg».proof.Proof.RefRun
import proofs.«134503_j40699110097055_2_alg».proof.Proof.RefValue
import proofs.«134503_j40699110097055_2_alg».proof.Proof.Finite
import proofs.«134503_j40699110097055_2_alg».proof.Proof.IndexChains

noncomputable section

namespace Cert.Proof.Claims

open Idealize.ShloMosaic Idealize.ShloMosaic.TcCoe Idealize.SL.Sem

theorem frame_kernel : Cert.frame_Kernel := fun m ρ _ => Cert.Kernel.MainFrame.frame (F := Bits) m ρ

theorem frame_ideal : Cert.frame_KernelIdeal := fun m ρ _ => Cert.KernelIdeal.MainFrame.frame (F := Ideal) m ρ

theorem frame_reference : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

theorem algebraic : Cert.algebraic_KernelIdeal_ReferenceIdeal := by
  intro m ρ m' ρ' hpre hagree
  refine ⟨_, Cert.KernelIdeal.KernelRun.run m ρ, ?_⟩
  refine (θ_run Cert.ReferenceIdeal.defs _ _).mono (fun r h c => ⟨(h c).1.trans ?_, (h c).2⟩)
    (Cert.ReferenceIdeal.RefRun.run (F := Ideal) m' ρ')
  obtain ⟨e0, e1, e2, e3, e4, e5, e6⟩ := hagree c
  rw [e0, e1, e2, e3, e4, e5, e6]
  obtain ⟨h0, h1, h2, h3, h4⟩ := Cert.FiniteInputs.real_of_pre _ _ _ _ _ _ _ (hpre c)
  refine (Cert.ReferenceIdeal.RefValue.ref_is_G _ _ _ _ _ _ _ h0 h1 h2 h3 h4).trans ?_
  rw [Cert.KernelIdeal.HostAt.kerSrc_eq, Cert.KernelIdeal.HostAt.kerDst_eq]

end Cert.Proof.Claims

end
-- ==== Proof.lean ====
/-
  The certificate: a graph auto-encoder's edge scores computed by a fused kernel equal the scores of
  the plain encoder and decoder, over the extended reals, for finite inputs.

  The kernel encodes the nodes by two pallas_calls (X · W, then adj · XW accumulated block by block
  in a scratch buffer) and decodes every edge by two scalars gathered from a precomputed 16384 × 2
  array; the reference gathers two encoded rows per edge and runs them through the two decoder
  matrices. Proof/Spec.lean states the function both compute; Proof/Claims.lean proves the five claims
  from the kernel's run (Proof/MainRun.lean and the modules it rests on) and the reference's.
-/
import proofs.«134503_j40699110097055_2_alg».proof.Defs
import proofs.«134503_j40699110097055_2_alg».proof.Proof.Gen.Kernel
import proofs.«134503_j40699110097055_2_alg».proof.Proof.Gen.KernelIdeal
import proofs.«134503_j40699110097055_2_alg».proof.Proof.Gen.ReferenceIdeal
import proofs.«134503_j40699110097055_2_alg».proof.Proof.Gen.Pre_finite_inputs
import proofs.«134503_j40699110097055_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_ideal, Claims.frame_reference, Claims.preserves, Claims.algebraic⟩

end Cert.Proof

end
